-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v236)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v236) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v235) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x800000 : Shape := ⟨2, ![2, 800000]⟩
abbrev S100000x3 : Shape := ⟨2, ![100000, 3]⟩
abbrev S256x256 : Shape := ⟨2, ![256, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S256 .f32) (main_arg7 : FVec F S256x64 .f32) (main_arg8 : FVec F S64 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x64 .f32 := Host.absf main_arg7
  let main_cst_8 : FVec F S_ .f32 := constant S_ .f32 0x7F800000#32
  let main_v25 : FVec F S256x64 .f32 := broadcastInDim S256x64 ![] bcast_S_S256x64 main_cst_8
  let main_v26 : IVec S256x64 1 := cmpf .olt main_v24 main_v25
  let main_c_9 : IVec S_ 1 := constantI S_ 1 1#1
  let main_v27 : IVec S_ 1 := (fun x v => Host.reduce IntOp.andi x v reducesTo_S256x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x256 .f32) (main_arg1 : IVec S2x800000 32) (main_arg2 : IVec S100000x3 32) (main_arg3 : FVec F S256x256 .f32) (main_arg4 : FVec F S256 .f32) (main_arg5 : FVec F S256x256 .f32) (main_arg6 : FVec F S256 .f32) (main_arg7 : FVec F S256x64 .f32) (main_arg8 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x256 .f32 := Host.absf main_arg3
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_v13 main_v16
-- ==== Kernel.lean ====
abbrev S100000x256 : Shape := ⟨2, ![100000, 256]⟩
abbrev S2x800000 : Shape := ⟨2, ![2, 800000]⟩
abbrev S100000x3 : Shape := ⟨2, ![100000, 3]⟩
abbrev S256x256 : Shape := ⟨2, ![256, 256]⟩
abbrev S256 : Shape := ⟨1, ![256]⟩
abbrev S256x64 : Shape := ⟨2, ![256, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S1x256 : Shape := ⟨2, ![1, 256]⟩
abbrev S5000x256 : Shape := ⟨2, ![5000, 256]⟩
abbrev S100000 : Shape := ⟨1, ![100000]⟩
abbrev S900000 : Shape := ⟨1, ![900000]⟩
abbrev S900000x1 : Shape := ⟨2, ![900000, 1]⟩
abbrev S900000x256 : Shape := ⟨2, ![900000, 256]⟩
abbrev S1x64 : Shape := ⟨2, ![1, 64]⟩
abbrev S100000x64 : Shape := ⟨2, ![100000, 64]⟩
abbrev S5000x64 : Shape := ⟨2, ![5000, 64]⟩
abbrev S1600000 : Shape := ⟨1, ![1600000]⟩
abbrev S1600000x1 : Shape := ⟨2, ![1600000, 1]⟩
abbrev S1600000x64 : Shape := ⟨2, ![1600000, 64]⟩
abbrev S100000x1 : Shape := ⟨2, ![100000, 1]⟩

abbrev nBuf : Space → Nat
  | .hbm => 328
  | .vmem => 18
  | .smem => 0
  | _ => 0

abbrev hbmTy0_0 (i : Nat) : BufTy := match i % 128 with
  | 0 => ⟨S100000x256, .f32⟩
  | 1 => ⟨S2x800000, .i32⟩
  | 2 => ⟨S100000x3, .i32⟩
  | 3 => ⟨S256x256, .f32⟩
  | 4 => ⟨S256, .f32⟩
  | 5 => ⟨S256x256, .f32⟩
  | 6 => ⟨S256, .f32⟩
  | 7 => ⟨S256x64, .f32⟩
  | 8 => ⟨S64, .f32⟩
  | 9 => ⟨S1x800000, .i32⟩
  | 10 => ⟨S800000, .i32⟩
  | 11 => ⟨S1x800000, .i32⟩
  | 12 => ⟨S800000, .i32⟩
  | 13 => ⟨S_, .f32⟩
  | 14 => ⟨S256, .f32⟩
  | 15 => ⟨S1x256, .f32⟩
  | 16 => ⟨S100000x256, .f32⟩
  | 17 => ⟨S100000, .i32⟩
  | 18 => ⟨S900000, .i32⟩
  | 19 => ⟨S900000, .i32⟩
  | 20 => ⟨S_, .f32⟩
  | 21 => ⟨S900000, .f32⟩
  | 22 => ⟨S_, .f32⟩
  | 23 => ⟨S100000, .f32⟩
  | 24 => ⟨S900000x1, .i32⟩
  | 25 => ⟨S100000, .f32⟩
  | 26 => ⟨S_, .f32⟩
  | 27 => ⟨S100000, .f32⟩
  | 28 => ⟨S100000, .i1⟩
  | 29 => ⟨S_, .f32⟩
  | 30 => ⟨S100000, .f32⟩
  | 31 => ⟨S100000, .f32⟩
  | 32 => ⟨S100000, .f32⟩
  | 33 => ⟨S_, .f32⟩
  | 34 => ⟨S100000, .f32⟩
  | 35 => ⟨S100000, .i1⟩
  | 36 => ⟨S_, .f32⟩
  | 37 => ⟨S_, .f32⟩
  | 38 => ⟨S100000, .f32⟩
  | 39 => ⟨S100000, .f32⟩
  | 40 => ⟨S100000, .f32⟩
  | 41 => ⟨S100000, .f32⟩
  | 42 => ⟨S100000, .f32⟩
  | 43 => ⟨S_, .f32⟩
  | 44 => ⟨S_, .f32⟩
  | 45 => ⟨S100000, .f32⟩
  | 46 => ⟨S100000, .f32⟩
  | 47 => ⟨S_, .i32⟩
  | 48 => ⟨S900000, .i32⟩
  | 49 => ⟨S900000, .i1⟩
  | 50 => ⟨S_, .i32⟩
  | 51 => ⟨S900000, .i32⟩
  | 52 => ⟨S900000, .i32⟩
  | 53 => ⟨S900000, .i32⟩
  | 54 => ⟨S900000x1, .i32⟩
  | 55 => ⟨S900000, .f32⟩
  | 56 => ⟨S_, .i32⟩
  | 57 => ⟨S900000, .i32⟩
  | 58 => ⟨S900000, .i1⟩
  | 59 => ⟨S_, .i32⟩
  | 60 => ⟨S900000, .i32⟩
  | 61 => ⟨S900000, .i32⟩
  | 62 => ⟨S900000, .i32⟩
  | 63 => ⟨S900000x1, .i32⟩
  | 64 => ⟨S900000, .f32⟩
  | 65 => ⟨S900000, .f32⟩
  | 66 => ⟨S900000x1, .f32⟩
  | 67 => ⟨S_, .i32⟩
  | 68 => ⟨S900000, .i32⟩
  | 69 => ⟨S900000, .i1⟩
  | 70 => ⟨S_, .i32⟩
  | 71 => ⟨S900000, .i32⟩
  | 72 => ⟨S900000, .i32⟩
  | 73 => ⟨S900000, .i32⟩
  | 74 => ⟨S900000x1, .i32⟩
  | 75 => ⟨S900000x256, .f32⟩
  | 76 => ⟨S900000x256, .f32⟩
  | 77 => ⟨S900000x256, .f32⟩
  | 78 => ⟨S_, .f32⟩
  | 79 => ⟨S100000x256, .f32⟩
  | 80 => ⟨S900000x1, .i32⟩
  | 81 => ⟨S100000x256, .f32⟩
  | 82 => ⟨S1x256, .f32⟩
  | 83 => ⟨S100000x256, .f32⟩
  | 84 => ⟨S100000x256, .f32⟩
  | 85 => ⟨S_, .f32⟩
  | 86 => ⟨S100000x256, .f32⟩
  | 87 => ⟨S100000x256, .f32⟩
  | 88 => ⟨S1x256, .f32⟩
  | 89 => ⟨S100000x256, .f32⟩
  | 90 => ⟨S100000, .i32⟩
  | 91 => ⟨S900000, .i32⟩
  | 92 => ⟨S900000, .i32⟩
  | 93 => ⟨S_, .f32⟩
  | 94 => ⟨S900000, .f32⟩
  | 95 => ⟨S_, .f32⟩
  | 96 => ⟨S100000, .f32⟩
  | 97 => ⟨S900000x1, .i32⟩
  | 98 => ⟨S100000, .f32⟩
  | 99 => ⟨S_, .f32⟩
  | 100 => ⟨S100000, .f32⟩
  | 101 => ⟨S100000, .i1⟩
  | 102 => ⟨S_, .f32⟩
  | 103 => ⟨S100000, .f32⟩
  | 104 => ⟨S100000, .f32⟩
  | 105 => ⟨S100000, .f32⟩
  | 106 => ⟨S_, .f32⟩
  | 107 => ⟨S100000, .f32⟩
  | 108 => ⟨S100000, .i1⟩
  | 109 => ⟨S_, .f32⟩
  | 110 => ⟨S_, .f32⟩
  | 111 => ⟨S100000, .f32⟩
  | 112 => ⟨S100000, .f32⟩
  | 113 => ⟨S100000, .f32⟩
  | 114 => ⟨S100000, .f32⟩
  | 115 => ⟨S100000, .f32⟩
  | 116 => ⟨S_, .f32⟩
  | 117 => ⟨S_, .f32⟩
  | 118 => ⟨S100000, .f32⟩
  | 119 => ⟨S100000, .f32⟩
  | 120 => ⟨S_, .i32⟩
  | 121 => ⟨S900000, .i32⟩
  | 122 => ⟨S900000, .i1⟩
  | 123 => ⟨S_, .i32⟩
  | 124 => ⟨S900000, .i32⟩
  | 125 => ⟨S900000, .i32⟩
  | 126 => ⟨S900000, .i32⟩
  | 127 => ⟨S900000x1, .i32⟩
  | _ => ⟨S100000x256, .f32⟩

abbrev hbmTy0_1 (i : Nat) : BufTy := match i % 128 with
  | 0 => ⟨S900000, .f32⟩
  | 1 => ⟨S_, .i32⟩
  | 2 => ⟨S900000, .i32⟩
  | 3 => ⟨S900000, .i1⟩
  | 4 => ⟨S_, .i32⟩
  | 5 => ⟨S900000, .i32⟩
  | 6 => ⟨S900000, .i32⟩
  | 7 => ⟨S900000, .i32⟩
  | 8 => ⟨S900000x1, .i32⟩
  | 9 => ⟨S900000, .f32⟩
  | 10 => ⟨S900000, .f32⟩
  | 11 => ⟨S900000x1, .f32⟩
  | 12 => ⟨S_, .i32⟩
  | 13 => ⟨S900000, .i32⟩
  | 14 => ⟨S900000, .i1⟩
  | 15 => ⟨S_, .i32⟩
  | 16 => ⟨S900000, .i32⟩
  | 17 => ⟨S900000, .i32⟩
  | 18 => ⟨S900000, .i32⟩
  | 19 => ⟨S900000x1, .i32⟩
  | 20 => ⟨S900000x256, .f32⟩
  | 21 => ⟨S900000x256, .f32⟩
  | 22 => ⟨S900000x256, .f32⟩
  | 23 => ⟨S_, .f32⟩
  | 24 => ⟨S100000x256, .f32⟩
  | 25 => ⟨S900000x1, .i32⟩
  | 26 => ⟨S100000x256, .f32⟩
  | 27 => ⟨S1x256, .f32⟩
  | 28 => ⟨S100000x256, .f32⟩
  | 29 => ⟨S100000x256, .f32⟩
  | 30 => ⟨S1x64, .f32⟩
  | 31 => ⟨S100000x64, .f32⟩
  | 32 => ⟨S1600000, .i32⟩
  | 33 => ⟨S1600000, .i32⟩
  | 34 => ⟨S1600000, .i1⟩
  | 35 => ⟨S1600000, .f32⟩
  | 36 => ⟨S_, .f32⟩
  | 37 => ⟨S100000, .f32⟩
  | 38 => ⟨S1600000x1, .i32⟩
  | 39 => ⟨S100000, .f32⟩
  | 40 => ⟨S_, .f32⟩
  | 41 => ⟨S100000, .f32⟩
  | 42 => ⟨S100000, .i1⟩
  | 43 => ⟨S_, .f32⟩
  | 44 => ⟨S100000, .f32⟩
  | 45 => ⟨S100000, .f32⟩
  | 46 => ⟨S100000, .f32⟩
  | 47 => ⟨S_, .f32⟩
  | 48 => ⟨S100000, .f32⟩
  | 49 => ⟨S100000, .i1⟩
  | 50 => ⟨S_, .f32⟩
  | 51 => ⟨S_, .f32⟩
  | 52 => ⟨S100000, .f32⟩
  | 53 => ⟨S100000, .f32⟩
  | 54 => ⟨S100000, .f32⟩
  | 55 => ⟨S100000, .f32⟩
  | 56 => ⟨S100000, .f32⟩
  | 57 => ⟨S_, .f32⟩
  | 58 => ⟨S_, .f32⟩
  | 59 => ⟨S100000, .f32⟩
  | 60 => ⟨S100000, .f32⟩
  | 61 => ⟨S_, .i32⟩
  | 62 => ⟨S1600000, .i32⟩
  | 63 => ⟨S1600000, .i1⟩
  | 64 => ⟨S_, .i32⟩
  | 65 => ⟨S1600000, .i32⟩
  | 66 => ⟨S1600000, .i32⟩
  | 67 => ⟨S1600000, .i32⟩
  | 68 => ⟨S1600000x1, .i32⟩
  | 69 => ⟨S1600000, .f32⟩
  | 70 => ⟨S_, .i32⟩
  | 71 => ⟨S1600000, .i32⟩
  | 72 => ⟨S1600000, .i1⟩
  | 73 => ⟨S_, .i32⟩
  | 74 => ⟨S1600000, .i32⟩
  | 75 => ⟨S1600000, .i32⟩
  | 76 => ⟨S1600000, .i32⟩
  | 77 => ⟨S1600000x1, .i32⟩
  | 78 => ⟨S1600000, .f32⟩
  | 79 => ⟨S1600000, .f32⟩
  | 80 => ⟨S1600000, .f32⟩
  | 81 => ⟨S1600000x1, .f32⟩
  | 82 => ⟨S_, .i32⟩
  | 83 => ⟨S1600000, .i32⟩
  | 84 => ⟨S1600000, .i1⟩
  | 85 => ⟨S_, .i32⟩
  | 86 => ⟨S1600000, .i32⟩
  | 87 => ⟨S1600000, .i32⟩
  | 88 => ⟨S1600000, .i32⟩
  | 89 => ⟨S1600000x1, .i32⟩
  | 90 => ⟨S1600000x64, .f32⟩
  | 91 => ⟨S1600000x64, .f32⟩
  | 92 => ⟨S1600000x64, .f32⟩
  | 93 => ⟨S_, .f32⟩
  | 94 => ⟨S100000x64, .f32⟩
  | 95 => ⟨S1600000x1, .i32⟩
  | 96 => ⟨S100000x64, .f32⟩
  | 97 => ⟨S1600000x1, .f32⟩
  | 98 => ⟨S_, .i32⟩
  | 99 => ⟨S1600000, .i32⟩
  | 100 => ⟨S1600000, .i1⟩
  | 101 => ⟨S_, .i32⟩
  | 102 => ⟨S1600000, .i32⟩
  | 103 => ⟨S1600000, .i32⟩
  | 104 => ⟨S1600000, .i32⟩
  | 105 => ⟨S1600000x1, .i32⟩
  | 106 => ⟨S1600000x64, .f32⟩
  | 107 => ⟨S1600000x64, .f32⟩
  | 108 => ⟨S1600000x64, .f32⟩
  | 109 => ⟨S_, .f32⟩
  | 110 => ⟨S100000x64, .f32⟩
  | 111 => ⟨S1600000x1, .i32⟩
  | 112 => ⟨S100000x64, .f32⟩
  | 113 => ⟨S100000x1, .i32⟩
  | 114 => ⟨S100000, .i32⟩
  | 115 => ⟨S_, .i32⟩
  | 116 => ⟨S100000, .i32⟩
  | 117 => ⟨S100000, .i1⟩
  | 118 => ⟨S_, .i32⟩
  | 119 => ⟨S100000, .i32⟩
  | 120 => ⟨S100000, .i32⟩
  | 121 => ⟨S100000, .i32⟩
  | 122 => ⟨S100000x1, .i32⟩
  | 123 => ⟨S100000x64, .f32⟩
  | 124 => ⟨S100000x1, .i32⟩
  | 125 => ⟨S100000, .i32⟩
  | 126 => ⟨S_, .i32⟩
  | 127 => ⟨S100000, .i32⟩
  | _ => ⟨S100000x256, .f32⟩

abbrev hbmTy0_2 (i : Nat) : BufTy := match i % 128 with
  | 0 => ⟨S100000, .i1⟩
  | 1 => ⟨S_, .i32⟩
  | 2 => ⟨S100000, .i32⟩
  | 3 => ⟨S100000, .i32⟩
  | 4 => ⟨S100000, .i32⟩
  | 5 => ⟨S100000x1, .i32⟩
  | 6 => ⟨S100000x64, .f32⟩
  | 7 => ⟨S100000x1, .i32⟩
  | 8 => ⟨S100000, .i32⟩
  | 9 => ⟨S_, .i32⟩
  | 10 => ⟨S100000, .i32⟩
  | 11 => ⟨S100000, .i1⟩
  | 12 => ⟨S_, .i32⟩
  | 13 => ⟨S100000, .i32⟩
  | 14 => ⟨S100000, .i32⟩
  | 15 => ⟨S100000, .i32⟩
  | 16 => ⟨S100000x1, .i32⟩
  | 17 => ⟨S100000x64, .f32⟩
  | 18 => ⟨S100000x64, .f32⟩
  | 19 => ⟨S_, .f32⟩
  | 20 => ⟨S100000, .f32⟩
  | 21 => ⟨S100000, .f32⟩
  | 22 => ⟨S_, .f32⟩
  | 23 => ⟨S100000, .f32⟩
  | 24 => ⟨S100000, .f32⟩
  | 25 => ⟨S100000x64, .f32⟩
  | 26 => ⟨S_, .f32⟩
  | 27 => ⟨S100000, .f32⟩
  | 28 => ⟨S100000, .f32⟩
  | 29 => ⟨S_, .f32⟩
  | 30 => ⟨S100000, .f32⟩
  | 31 => ⟨S100000, .f32⟩
  | 32 => ⟨S100000x64, .f32⟩
  | 33 => ⟨S_, .f32⟩
  | 34 => ⟨S100000, .f32⟩
  | 35 => ⟨S100000, .f32⟩
  | 36 => ⟨S100000, .f32⟩
  | 37 => ⟨S_, .f32⟩
  | 38 => ⟨S100000, .f32⟩
  | 39 => ⟨S100000, .f32⟩
  | 40 => ⟨S100000, .f32⟩
  | 41 => ⟨S100000x64, .f32⟩
  | 42 => ⟨S_, .f32⟩
  | 43 => ⟨S100000, .f32⟩
  | 44 => ⟨S100000, .f32⟩
  | 45 => ⟨S_, .f32⟩
  | 46 => ⟨S100000, .f32⟩
  | 47 => ⟨S100000, .f32⟩
  | 48 => ⟨S100000x64, .f32⟩
  | 49 => ⟨S_, .f32⟩
  | 50 => ⟨S100000, .f32⟩
  | 51 => ⟨S100000, .f32⟩
  | 52 => ⟨S_, .f32⟩
  | 53 => ⟨S100000, .f32⟩
  | 54 => ⟨S100000, .f32⟩
  | 55 => ⟨S100000x64, .f32⟩
  | 56 => ⟨S_, .f32⟩
  | 57 => ⟨S100000, .f32⟩
  | 58 => ⟨S100000, .f32⟩
  | 59 => ⟨S100000, .f32⟩
  | 60 => ⟨S_, .f32⟩
  | 61 => ⟨S100000, .f32⟩
  | 62 => ⟨S100000, .f32⟩
  | 63 => ⟨S100000, .f32⟩
  | 64 => ⟨S100000, .f32⟩
  | 65 => ⟨S100000, .f32⟩
  | 66 => ⟨S100000, .f32⟩
  | 67 => ⟨S100000, .f32⟩
  | 68 => ⟨S_, .f32⟩
  | 69 => ⟨S_, .f32⟩
  | 70 => ⟨S_, .f32⟩
  | 71 => ⟨S_, .f32⟩
  | _ => ⟨S100000x256, .f32⟩

abbrev hbmTy (i : Nat) : BufTy := match i / 128 with
  | 0 => hbmTy0_0 i
  | 1 => hbmTy0_1 i
  | 2 => hbmTy0_2 i
  | _ => ⟨S100000x256, .f32⟩

abbrev bufTy : (tb : Table) → Fin (tcTables nBuf tb) → BufTy
  | .hbm, ⟨i, _⟩ => hbmTy i
  | .local _ .vmem, ⟨0, _⟩ => ⟨S5000x256, .f32⟩
  | .local _ .vmem, ⟨1, _⟩ => ⟨S5000x256, .f32⟩
  | .local _ .vmem, ⟨2, _⟩ => ⟨S256x256, .f32⟩
  | .local _ .vmem, ⟨3, _⟩ => ⟨S1x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S5000x256, .f32⟩
  | .local _ .vmem, ⟨8, _⟩ => ⟨S256x256, .f32⟩
  | .local _ .vmem, ⟨9, _⟩ => ⟨S1x256, .f32⟩
  | .local _ .vmem, ⟨10, _⟩ => ⟨S5000x256, .f32⟩
  | .local _ .vmem, ⟨11, _⟩ => ⟨S5000x256, .f32⟩
  | .local _ .vmem, ⟨12, _⟩ => ⟨S5000x256, .f32⟩
  | .local _ .vmem, ⟨13, _⟩ => ⟨S5000x256, .f32⟩
  | .local _ .vmem, ⟨14, _⟩ => ⟨S256x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_cst_6 : Ref sig .tc := ⟨.hbm, 37, rfl⟩
abbrev main_call0_v0 : Ref sig .tc := ⟨.hbm, 38, rfl⟩
abbrev main_call0_v1 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_7 : Ref sig .tc := ⟨.hbm, 43, rfl⟩
abbrev main_call1_v0 : Ref sig .tc := ⟨.hbm, 44, rfl⟩
abbrev main_call1_v1 : Ref sig .tc := ⟨.hbm, 45, rfl⟩
abbrev main_v24 : Ref sig .tc := ⟨.hbm, 46, rfl⟩
abbrev main_c : Ref sig .tc := ⟨.hbm, 47, rfl⟩
abbrev main_v25 : Ref sig .tc := ⟨.hbm, 48, rfl⟩
abbrev main_v26 : Ref sig .tc := ⟨.hbm, 49, rfl⟩
abbrev main_c_8 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_c_9 : Ref sig .tc := ⟨.hbm, 56, rfl⟩
abbrev main_v32 : Ref sig .tc := ⟨.hbm, 57, rfl⟩
abbrev main_v33 : Ref sig .tc := ⟨.hbm, 58, rfl⟩
abbrev main_c_10 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_c_11 : Ref sig .tc := ⟨.hbm, 67, rfl⟩
abbrev main_v41 : Ref sig .tc := ⟨.hbm, 68, rfl⟩
abbrev main_v42 : Ref sig .tc := ⟨.hbm, 69, rfl⟩
abbrev main_c_12 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_13 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_call2_cst : Ref sig .tc := ⟨.hbm, 85, rfl⟩
abbrev main_call2_v0 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_14 : Ref sig .tc := ⟨.hbm, 93, rfl⟩
abbrev main_v62 : Ref sig .tc := ⟨.hbm, 94, rfl⟩
abbrev main_cst_15 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_16 : Ref sig .tc := ⟨.hbm, 99, rfl⟩
abbrev main_v66 : Ref sig .tc := ⟨.hbm, 100, rfl⟩
abbrev main_v67 : Ref sig .tc := ⟨.hbm, 101, rfl⟩
abbrev main_cst_17 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_18 : Ref sig .tc := ⟨.hbm, 106, rfl⟩
abbrev main_v71 : Ref sig .tc := ⟨.hbm, 107, rfl⟩
abbrev main_v72 : Ref sig .tc := ⟨.hbm, 108, rfl⟩
abbrev main_cst_19 : Ref sig .tc := ⟨.hbm, 109, rfl⟩
abbrev main_cst_20 : Ref sig .tc := ⟨.hbm, 110, rfl⟩
abbrev main_call3_v0 : Ref sig .tc := ⟨.hbm, 111, rfl⟩
abbrev main_call3_v1 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_cst_21 : Ref sig .tc := ⟨.hbm, 116, rfl⟩
abbrev main_call4_v0 : Ref sig .tc := ⟨.hbm, 117, rfl⟩
abbrev main_call4_v1 : Ref sig .tc := ⟨.hbm, 118, rfl⟩
abbrev main_v76 : Ref sig .tc := ⟨.hbm, 119, rfl⟩
abbrev main_c_22 : Ref sig .tc := ⟨.hbm, 120, rfl⟩
abbrev main_v77 : Ref sig .tc := ⟨.hbm, 121, rfl⟩
abbrev main_v78 : Ref sig .tc := ⟨.hbm, 122, rfl⟩
abbrev main_c_23 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_c_24 : Ref sig .tc := ⟨.hbm, 129, rfl⟩
abbrev main_v84 : Ref sig .tc := ⟨.hbm, 130, rfl⟩
abbrev main_v85 : Ref sig .tc := ⟨.hbm, 131, rfl⟩
abbrev main_c_25 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_c_26 : Ref sig .tc := ⟨.hbm, 140, rfl⟩
abbrev main_v93 : Ref sig .tc := ⟨.hbm, 141, rfl⟩
abbrev main_v94 : Ref sig .tc := ⟨.hbm, 142, rfl⟩
abbrev main_c_27 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_cst_28 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_cst_29 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_cst_30 : Ref sig .tc := ⟨.hbm, 168, rfl⟩
abbrev main_v117 : Ref sig .tc := ⟨.hbm, 169, rfl⟩
abbrev main_v118 : Ref sig .tc := ⟨.hbm, 170, rfl⟩
abbrev main_cst_31 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_cst_32 : Ref sig .tc := ⟨.hbm, 175, rfl⟩
abbrev main_v122 : Ref sig .tc := ⟨.hbm, 176, rfl⟩
abbrev main_v123 : Ref sig .tc := ⟨.hbm, 177, rfl⟩
abbrev main_cst_33 : Ref sig .tc := ⟨.hbm, 178, rfl⟩
abbrev main_cst_34 : Ref sig .tc := ⟨.hbm, 179, rfl⟩
abbrev main_call5_v0 : Ref sig .tc := ⟨.hbm, 180, rfl⟩
abbrev main_call5_v1 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_cst_35 : Ref sig .tc := ⟨.hbm, 185, rfl⟩
abbrev main_call6_v0 : Ref sig .tc := ⟨.hbm, 186, rfl⟩
abbrev main_call6_v1 : Ref sig .tc := ⟨.hbm, 187, rfl⟩
abbrev main_v127 : Ref sig .tc := ⟨.hbm, 188, rfl⟩
abbrev main_c_36 : Ref sig .tc := ⟨.hbm, 189, rfl⟩
abbrev main_v128 : Ref sig .tc := ⟨.hbm, 190, rfl⟩
abbrev main_v129 : Ref sig .tc := ⟨.hbm, 191, rfl⟩
abbrev main_c_37 : Ref sig .tc := ⟨.hbm, 192, rfl⟩
abbrev main_v130 : Ref sig .tc := ⟨.hbm, 193, rfl⟩
abbrev main_v131 : Ref sig .tc := ⟨.hbm, 194, rfl⟩
abbrev main_v132 : Ref sig .tc := ⟨.hbm, 195, rfl⟩
abbrev main_v133 : Ref sig .tc := ⟨.hbm, 196, rfl⟩
abbrev main_v134 : Ref sig .tc := ⟨.hbm, 197, rfl⟩
abbrev main_c_38 : Ref sig .tc := ⟨.hbm, 198, rfl⟩
abbrev main_v135 : Ref sig .tc := ⟨.hbm, 199, rfl⟩
abbrev main_v136 : Ref sig .tc := ⟨.hbm, 200, rfl⟩
abbrev main_c_39 : Ref sig .tc := ⟨.hbm, 201, rfl⟩
abbrev main_v137 : Ref sig .tc := ⟨.hbm, 202, rfl⟩
abbrev main_v138 : Ref sig .tc := ⟨.hbm, 203, rfl⟩
abbrev main_v139 : Ref sig .tc := ⟨.hbm, 204, rfl⟩
abbrev main_v140 : Ref sig .tc := ⟨.hbm, 205, rfl⟩
abbrev main_v141 : Ref sig .tc := ⟨.hbm, 206, rfl⟩
abbrev main_v142 : Ref sig .tc := ⟨.hbm, 207, rfl⟩
abbrev main_v143 : Ref sig .tc := ⟨.hbm, 208, rfl⟩
abbrev main_v144 : Ref sig .tc := ⟨.hbm, 209, rfl⟩
abbrev main_c_40 : Ref sig .tc := ⟨.hbm, 210, rfl⟩
abbrev main_v145 : Ref sig .tc := ⟨.hbm, 211, rfl⟩
abbrev main_v146 : Ref sig .tc := ⟨.hbm, 212, rfl⟩
abbrev main_c_41 : Ref sig .tc := ⟨.hbm, 213, rfl⟩
abbrev main_v147 : Ref sig .tc := ⟨.hbm, 214, rfl⟩
abbrev main_v148 : Ref sig .tc := ⟨.hbm, 215, rfl⟩
abbrev main_v149 : Ref sig .tc := ⟨.hbm, 216, rfl⟩
abbrev main_v150 : Ref sig .tc := ⟨.hbm, 217, rfl⟩
abbrev main_v151 : Ref sig .tc := ⟨.hbm, 218, rfl⟩
abbrev main_v152 : Ref sig .tc := ⟨.hbm, 219, rfl⟩
abbrev main_v153 : Ref sig .tc := ⟨.hbm, 220, rfl⟩
abbrev main_cst_42 : Ref sig .tc := ⟨.hbm, 221, rfl⟩
abbrev main_v154 : Ref sig .tc := ⟨.hbm, 222, rfl⟩
abbrev main_v155 : Ref sig .tc := ⟨.hbm, 223, rfl⟩
abbrev main_v156 : Ref sig .tc := ⟨.hbm, 224, rfl⟩
abbrev main_v157 : Ref sig .tc := ⟨.hbm, 225, rfl⟩
abbrev main_c_43 : Ref sig .tc := ⟨.hbm, 226, rfl⟩
abbrev main_v158 : Ref sig .tc := ⟨.hbm, 227, rfl⟩
abbrev main_v159 : Ref sig .tc := ⟨.hbm, 228, rfl⟩
abbrev main_c_44 : Ref sig .tc := ⟨.hbm, 229, rfl⟩
abbrev main_v160 : Ref sig .tc := ⟨.hbm, 230, rfl⟩
abbrev main_v161 : Ref sig .tc := ⟨.hbm, 231, rfl⟩
abbrev main_v162 : Ref sig .tc := ⟨.hbm, 232, rfl⟩
abbrev main_v163 : Ref sig .tc := ⟨.hbm, 233, rfl⟩
abbrev main_v164 : Ref sig .tc := ⟨.hbm, 234, rfl⟩
abbrev main_v165 : Ref sig .tc := ⟨.hbm, 235, rfl⟩
abbrev main_v166 : Ref sig .tc := ⟨.hbm, 236, rfl⟩
abbrev main_cst_45 : Ref sig .tc := ⟨.hbm, 237, rfl⟩
abbrev main_v167 : Ref sig .tc := ⟨.hbm, 238, rfl⟩
abbrev main_v168 : Ref sig .tc := ⟨.hbm, 239, rfl⟩
abbrev main_v169 : Ref sig .tc := ⟨.hbm, 240, rfl⟩
abbrev main_v170 : Ref sig .tc := ⟨.hbm, 241, rfl⟩
abbrev main_v171 : Ref sig .tc := ⟨.hbm, 242, rfl⟩
abbrev main_c_46 : Ref sig .tc := ⟨.hbm, 243, rfl⟩
abbrev main_v172 : Ref sig .tc := ⟨.hbm, 244, rfl⟩
abbrev main_v173 : Ref sig .tc := ⟨.hbm, 245, rfl⟩
abbrev main_c_47 : Ref sig .tc := ⟨.hbm, 246, rfl⟩
abbrev main_v174 : Ref sig .tc := ⟨.hbm, 247, rfl⟩
abbrev main_v175 : Ref sig .tc := ⟨.hbm, 248, rfl⟩
abbrev main_v176 : Ref sig .tc := ⟨.hbm, 249, rfl⟩
abbrev main_v177 : Ref sig .tc := ⟨.hbm, 250, rfl⟩
abbrev main_v178 : Ref sig .tc := ⟨.hbm, 251, rfl⟩
abbrev main_v179 : Ref sig .tc := ⟨.hbm, 252, rfl⟩
abbrev main_v180 : Ref sig .tc := ⟨.hbm, 253, rfl⟩
abbrev main_c_48 : Ref sig .tc := ⟨.hbm, 254, rfl⟩
abbrev main_v181 : Ref sig .tc := ⟨.hbm, 255, rfl⟩
abbrev main_v182 : Ref sig .tc := ⟨.hbm, 256, rfl⟩
abbrev main_c_49 : Ref sig .tc := ⟨.hbm, 257, rfl⟩
abbrev main_v183 : Ref sig .tc := ⟨.hbm, 258, rfl⟩
abbrev main_v184 : Ref sig .tc := ⟨.hbm, 259, rfl⟩
abbrev main_v185 : Ref sig .tc := ⟨.hbm, 260, rfl⟩
abbrev main_v186 : Ref sig .tc := ⟨.hbm, 261, rfl⟩
abbrev main_v187 : Ref sig .tc := ⟨.hbm, 262, rfl⟩
abbrev main_v188 : Ref sig .tc := ⟨.hbm, 263, rfl⟩
abbrev main_v189 : Ref sig .tc := ⟨.hbm, 264, rfl⟩
abbrev main_c_50 : Ref sig .tc := ⟨.hbm, 265, rfl⟩
abbrev main_v190 : Ref sig .tc := ⟨.hbm, 266, rfl⟩
abbrev main_v191 : Ref sig .tc := ⟨.hbm, 267, rfl⟩
abbrev main_c_51 : Ref sig .tc := ⟨.hbm, 268, rfl⟩
abbrev main_v192 : Ref sig .tc := ⟨.hbm, 269, rfl⟩
abbrev main_v193 : Ref sig .tc := ⟨.hbm, 270, rfl⟩
abbrev main_v194 : Ref sig .tc := ⟨.hbm, 271, rfl⟩
abbrev main_v195 : Ref sig .tc := ⟨.hbm, 272, rfl⟩
abbrev main_v196 : Ref sig .tc := ⟨.hbm, 273, rfl⟩
abbrev main_v197 : Ref sig .tc := ⟨.hbm, 274, rfl⟩
abbrev main_cst_52 : Ref sig .tc := ⟨.hbm, 275, rfl⟩
abbrev main_v198 : Ref sig .tc := ⟨.hbm, 276, rfl⟩
abbrev main_v199 : Ref sig .tc := ⟨.hbm, 277, rfl⟩
abbrev main_cst_53 : Ref sig .tc := ⟨.hbm, 278, rfl⟩
abbrev main_v200 : Ref sig .tc := ⟨.hbm, 279, rfl⟩
abbrev main_v201 : Ref sig .tc := ⟨.hbm, 280, rfl⟩
abbrev main_v202 : Ref sig .tc := ⟨.hbm, 281, rfl⟩
abbrev main_cst_54 : Ref sig .tc := ⟨.hbm, 282, rfl⟩
abbrev main_v203 : Ref sig .tc := ⟨.hbm, 283, rfl⟩
abbrev main_v204 : Ref sig .tc := ⟨.hbm, 284, rfl⟩
abbrev main_cst_55 : Ref sig .tc := ⟨.hbm, 285, rfl⟩
abbrev main_v205 : Ref sig .tc := ⟨.hbm, 286, rfl⟩
abbrev main_v206 : Ref sig .tc := ⟨.hbm, 287, rfl⟩
abbrev main_v207 : Ref sig .tc := ⟨.hbm, 288, rfl⟩
abbrev main_cst_56 : Ref sig .tc := ⟨.hbm, 289, rfl⟩
abbrev main_v208 : Ref sig .tc := ⟨.hbm, 290, rfl⟩
abbrev main_v209 : Ref sig .tc := ⟨.hbm, 291, rfl⟩
abbrev main_v210 : Ref sig .tc := ⟨.hbm, 292, rfl⟩
abbrev main_cst_57 : Ref sig .tc := ⟨.hbm, 293, rfl⟩
abbrev main_v211 : Ref sig .tc := ⟨.hbm, 294, rfl⟩
abbrev main_v212 : Ref sig .tc := ⟨.hbm, 295, rfl⟩
abbrev main_v213 : Ref sig .tc := ⟨.hbm, 296, rfl⟩
abbrev main_v214 : Ref sig .tc := ⟨.hbm, 297, rfl⟩
abbrev main_cst_58 : Ref sig .tc := ⟨.hbm, 298, rfl⟩
abbrev main_v215 : Ref sig .tc := ⟨.hbm, 299, rfl⟩
abbrev main_v216 : Ref sig .tc := ⟨.hbm, 300, rfl⟩
abbrev main_cst_59 : Ref sig .tc := ⟨.hbm, 301, rfl⟩
abbrev main_v217 : Ref sig .tc := ⟨.hbm, 302, rfl⟩
abbrev main_v218 : Ref sig .tc := ⟨.hbm, 303, rfl⟩
abbrev main_v219 : Ref sig .tc := ⟨.hbm, 304, rfl⟩
abbrev main_cst_60 : Ref sig .tc := ⟨.hbm, 305, rfl⟩
abbrev main_v220 : Ref sig .tc := ⟨.hbm, 306, rfl⟩
abbrev main_v221 : Ref sig .tc := ⟨.hbm, 307, rfl⟩
abbrev main_cst_61 : Ref sig .tc := ⟨.hbm, 308, rfl⟩
abbrev main_v222 : Ref sig .tc := ⟨.hbm, 309, rfl⟩
abbrev main_v223 : Ref sig .tc := ⟨.hbm, 310, rfl⟩
abbrev main_v224 : Ref sig .tc := ⟨.hbm, 311, rfl⟩
abbrev main_cst_62 : Ref sig .tc := ⟨.hbm, 312, rfl⟩
abbrev main_v225 : Ref sig .tc := ⟨.hbm, 313, rfl⟩
abbrev main_v226 : Ref sig .tc := ⟨.hbm, 314, rfl⟩
abbrev main_v227 : Ref sig .tc := ⟨.hbm, 315, rfl⟩
abbrev main_cst_63 : Ref sig .tc := ⟨.hbm, 316, rfl⟩
abbrev main_v228 : Ref sig .tc := ⟨.hbm, 317, rfl⟩
abbrev main_v229 : Ref sig .tc := ⟨.hbm, 318, rfl⟩
abbrev main_v230 : Ref sig .tc := ⟨.hbm, 319, rfl⟩
abbrev main_v231 : Ref sig .tc := ⟨.hbm, 320, rfl⟩
abbrev main_v232 : Ref sig .tc := ⟨.hbm, 321, rfl⟩
abbrev main_v233 : Ref sig .tc := ⟨.hbm, 322, rfl⟩
abbrev main_v234 : Ref sig .tc := ⟨.hbm, 323, rfl⟩
abbrev main_cst_64 : Ref sig .tc := ⟨.hbm, 324, rfl⟩
abbrev main_v235 : Ref sig .tc := ⟨.hbm, 325, rfl⟩
abbrev main_cst_65 : Ref sig .tc := ⟨.hbm, 326, rfl⟩
abbrev main_v236 : Ref sig .tc := ⟨.hbm, 327, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S256 : S_.BroadcastsInDim S256 (![] : Fin 0 → Fin S256.rank)
  shapeCasts_S256_S1x256 : S256.ShapeCasts S1x256
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  concatenates_S800000_S100000_S900000_d0 : Shape.Concatenates [S800000, S100000] S900000 0
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  bcast_S900000x1_S900000x256_0_1 : S900000x1.BroadcastsInDim S900000x256 (![0, 1] : Fin 2 → Fin S900000x256.rank)
  bcast_S_S100000x256 : S_.BroadcastsInDim S100000x256 (![] : Fin 0 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  shapeCasts_S5000x256_S5000x256 : S5000x256.ShapeCasts S5000x256
  shapeCasts_S64_S1x64 : S64.ShapeCasts S1x64
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  concatenates_S800000_S800000_S1600000_d0 : Shape.Concatenates [S800000, S800000] S1600000 0
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  slices_S100000x3_S100000x1_0_0 : S100000x3.Slices ![0, 0] S100000x1
  shapeCasts_S100000x1_S100000 : S100000x1.ShapeCasts S100000
  bcast_S100000_S100000x1_0 : S100000.BroadcastsInDim S100000x1 (![0] : Fin 1 → Fin S100000x1.rank)
  slices_S100000x3_S100000x1_0_1 : S100000x3.Slices ![0, 1] S100000x1
  slices_S100000x3_S100000x1_0_2 : S100000x3.Slices ![0, 2] S100000x1
  reducesTo_S100000x64_S100000_d1 : S100000x64.ReducesTo [1] S100000
  h_S_ : 0 < S_.numel
  reducesTo_S100000_S_d0 : S100000.ReducesTo [0] S_
  dot_S5000x256_S256x256_S5000x256_1_0_0_1_n_n_wf : DotDims.WF S5000x256 S256x256 S5000x256 [1] [0] [0] [1] [] []
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  gather_S100000x256_S900000x1_S900000x256_1_0_n_n_0_1_1256_wf : GatherDims.WF S100000x256 S900000x1 S900000x256 [1] [0] [] [0] [] 1 ![1, 256]
  scatter_S100000x256_S900000x1_S900000x256_1_0_0_1_wf : ScatterDims.WF S100000x256 S900000x1 S900000x256 [1] [0] [0] 1
  dot_S5000x256_S256x64_S5000x64_1_0_0_1_n_n_wf : DotDims.WF S5000x256 S256x64 S5000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  gather_S100000x64_S100000x1_S100000x64_1_0_n_n_0_1_164_wf : GatherDims.WF S100000x64 S100000x1 S100000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S100000x256.size a
  hwx0_3 : ∀ i : grid0.Coords, EltTy.bits .f32 = 32 ∨ (Rect.block (s := S100000x256) S5000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S100000x256.size a
  hwx1_0 : ∀ i : grid1.Coords, EltTy.bits .f32 = 32 ∨ (Rect.block (s := S100000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x256.size a ≤ S100000x256.size a
  hwx1_3 : ∀ i : grid1.Coords, EltTy.bits .f32 = 32 ∨ (Rect.block (s := S100000x256) S5000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S100000x256.size a
  hwx2_0 : ∀ i : grid2.Coords, EltTy.bits .f32 = 32 ∨ (Rect.block (s := S100000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x64.size a ≤ S256x64.size a
  hwx2_1 : ∀ i : grid2.Coords, EltTy.bits .f32 = 32 ∨ (Rect.block (s := S256x64) S256x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)

variable [Facts₀]

def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def gather_S100000x256_S900000x1_S900000x256_1_0_n_n_0_1_1256 : GatherDims S100000x256 S900000x1 S900000x256 where
  offsetDims := [1]
  collapsedSliceDims := [0]
  operandBatchingDims := []
  startIndicesBatchingDims := []
  startIndexMap := [0]
  indexVectorDim := 1
  sliceSizes := ![1, 256]
  wf := gather_S100000x256_S900000x1_S900000x256_1_0_n_n_0_1_1256_wf
def scatter_S100000x256_S900000x1_S900000x256_1_0_0_1 : ScatterDims S100000x256 S900000x1 S900000x256 where
  updateWindowDims := [1]
  insertedWindowDims := [0]
  scatterDimsToOperandDims := [0]
  indexVectorDim := 1
  wf := scatter_S100000x256_S900000x1_S900000x256_1_0_0_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def gather_S100000x64_S100000x1_S100000x64_1_0_n_n_0_1_164 : GatherDims S100000x64 S100000x1 S100000x64 where
  offsetDims := [1]
  collapsedSliceDims := [0]
  operandBatchingDims := []
  startIndicesBatchingDims := []
  startIndexMap := [0]
  indexVectorDim := 1
  sliceSizes := ![1, 64]
  wf := gather_S100000x64_S100000x1_S100000x64_1_0_n_n_0_1_164_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v56) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v57) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v58) S5000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v107) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S256x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v108) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v109) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x256 : Shape := ⟨2, ![100000, 256]⟩
abbrev S2x800000 : Shape := ⟨2, ![2, 800000]⟩
abbrev S100000x3 : Shape := ⟨2, ![100000, 3]⟩
abbrev S256x256 : Shape := ⟨2, ![256, 256]⟩
abbrev S256 : Shape := ⟨1, ![256]⟩
abbrev S256x64 : Shape := ⟨2, ![256, 64]⟩
abbrev S64 : Shape := ⟨1, ![64]⟩
abbrev S1x800000 : Shape := ⟨2, ![1, 800000]⟩
abbrev S800000 : Shape := ⟨1, ![800000]⟩
abbrev S100000 : Shape := ⟨1, ![100000]⟩
abbrev S900000 : Shape := ⟨1, ![900000]⟩
abbrev S_ : Shape := ⟨0, ![]⟩
abbrev S900000x1 : Shape := ⟨2, ![900000, 1]⟩
abbrev S900000x256 : Shape := ⟨2, ![900000, 256]⟩
abbrev S1x256 : Shape := ⟨2, ![1, 256]⟩
abbrev S100000x64 : Shape := ⟨2, ![100000, 64]⟩
abbrev S1x64 : Shape := ⟨2, ![1, 64]⟩
abbrev S1600000 : Shape := ⟨1, ![1600000]⟩
abbrev S1600000x1 : Shape := ⟨2, ![1600000, 1]⟩
abbrev S1600000x64 : Shape := ⟨2, ![1600000, 64]⟩
abbrev S100000x1 : Shape := ⟨2, ![100000, 1]⟩

abbrev nBuf : Space → Nat
  | .hbm => 326
  | .vmem => 0
  | .smem => 0
  | _ => 0

abbrev hbmTy0_0 (i : Nat) : BufTy := match i % 128 with
  | 0 => ⟨S100000x256, .f32⟩
  | 1 => ⟨S2x800000, .i32⟩
  | 2 => ⟨S100000x3, .i32⟩
  | 3 => ⟨S256x256, .f32⟩
  | 4 => ⟨S256, .f32⟩
  | 5 => ⟨S256x256, .f32⟩
  | 6 => ⟨S256, .f32⟩
  | 7 => ⟨S256x64, .f32⟩
  | 8 => ⟨S64, .f32⟩
  | 9 => ⟨S1x800000, .i32⟩
  | 10 => ⟨S800000, .i32⟩
  | 11 => ⟨S1x800000, .i32⟩
  | 12 => ⟨S800000, .i32⟩
  | 13 => ⟨S100000x256, .f32⟩
  | 14 => ⟨S100000, .i32⟩
  | 15 => ⟨S900000, .i32⟩
  | 16 => ⟨S900000, .i32⟩
  | 17 => ⟨S_, .f32⟩
  | 18 => ⟨S900000, .f32⟩
  | 19 => ⟨S_, .f32⟩
  | 20 => ⟨S100000, .f32⟩
  | 21 => ⟨S900000x1, .i32⟩
  | 22 => ⟨S100000, .f32⟩
  | 23 => ⟨S_, .f32⟩
  | 24 => ⟨S100000, .f32⟩
  | 25 => ⟨S100000, .i1⟩
  | 26 => ⟨S_, .f32⟩
  | 27 => ⟨S100000, .f32⟩
  | 28 => ⟨S100000, .f32⟩
  | 29 => ⟨S100000, .f32⟩
  | 30 => ⟨S_, .f32⟩
  | 31 => ⟨S100000, .f32⟩
  | 32 => ⟨S100000, .i1⟩
  | 33 => ⟨S_, .f32⟩
  | 34 => ⟨S_, .f32⟩
  | 35 => ⟨S100000, .f32⟩
  | 36 => ⟨S100000, .f32⟩
  | 37 => ⟨S100000, .f32⟩
  | 38 => ⟨S100000, .f32⟩
  | 39 => ⟨S100000, .f32⟩
  | 40 => ⟨S_, .f32⟩
  | 41 => ⟨S_, .f32⟩
  | 42 => ⟨S100000, .f32⟩
  | 43 => ⟨S100000, .f32⟩
  | 44 => ⟨S_, .i32⟩
  | 45 => ⟨S900000, .i32⟩
  | 46 => ⟨S900000, .i1⟩
  | 47 => ⟨S_, .i32⟩
  | 48 => ⟨S900000, .i32⟩
  | 49 => ⟨S900000, .i32⟩
  | 50 => ⟨S900000, .i32⟩
  | 51 => ⟨S900000x1, .i32⟩
  | 52 => ⟨S900000, .f32⟩
  | 53 => ⟨S_, .i32⟩
  | 54 => ⟨S900000, .i32⟩
  | 55 => ⟨S900000, .i1⟩
  | 56 => ⟨S_, .i32⟩
  | 57 => ⟨S900000, .i32⟩
  | 58 => ⟨S900000, .i32⟩
  | 59 => ⟨S900000, .i32⟩
  | 60 => ⟨S900000x1, .i32⟩
  | 61 => ⟨S900000, .f32⟩
  | 62 => ⟨S900000, .f32⟩
  | 63 => ⟨S900000x1, .f32⟩
  | 64 => ⟨S_, .i32⟩
  | 65 => ⟨S900000, .i32⟩
  | 66 => ⟨S900000, .i1⟩
  | 67 => ⟨S_, .i32⟩
  | 68 => ⟨S900000, .i32⟩
  | 69 => ⟨S900000, .i32⟩
  | 70 => ⟨S900000, .i32⟩
  | 71 => ⟨S900000x1, .i32⟩
  | 72 => ⟨S900000x256, .f32⟩
  | 73 => ⟨S900000x256, .f32⟩
  | 74 => ⟨S900000x256, .f32⟩
  | 75 => ⟨S_, .f32⟩
  | 76 => ⟨S100000x256, .f32⟩
  | 77 => ⟨S900000x1, .i32⟩
  | 78 => ⟨S100000x256, .f32⟩
  | 79 => ⟨S1x256, .f32⟩
  | 80 => ⟨S100000x256, .f32⟩
  | 81 => ⟨S100000x256, .f32⟩
  | 82 => ⟨S_, .f32⟩
  | 83 => ⟨S100000x256, .f32⟩
  | 84 => ⟨S100000x256, .f32⟩
  | 85 => ⟨S100000x256, .f32⟩
  | 86 => ⟨S100000, .i32⟩
  | 87 => ⟨S900000, .i32⟩
  | 88 => ⟨S900000, .i32⟩
  | 89 => ⟨S_, .f32⟩
  | 90 => ⟨S900000, .f32⟩
  | 91 => ⟨S_, .f32⟩
  | 92 => ⟨S100000, .f32⟩
  | 93 => ⟨S900000x1, .i32⟩
  | 94 => ⟨S100000, .f32⟩
  | 95 => ⟨S_, .f32⟩
  | 96 => ⟨S100000, .f32⟩
  | 97 => ⟨S100000, .i1⟩
  | 98 => ⟨S_, .f32⟩
  | 99 => ⟨S100000, .f32⟩
  | 100 => ⟨S100000, .f32⟩
  | 101 => ⟨S100000, .f32⟩
  | 102 => ⟨S_, .f32⟩
  | 103 => ⟨S100000, .f32⟩
  | 104 => ⟨S100000, .i1⟩
  | 105 => ⟨S_, .f32⟩
  | 106 => ⟨S_, .f32⟩
  | 107 => ⟨S100000, .f32⟩
  | 108 => ⟨S100000, .f32⟩
  | 109 => ⟨S100000, .f32⟩
  | 110 => ⟨S100000, .f32⟩
  | 111 => ⟨S100000, .f32⟩
  | 112 => ⟨S_, .f32⟩
  | 113 => ⟨S_, .f32⟩
  | 114 => ⟨S100000, .f32⟩
  | 115 => ⟨S100000, .f32⟩
  | 116 => ⟨S_, .i32⟩
  | 117 => ⟨S900000, .i32⟩
  | 118 => ⟨S900000, .i1⟩
  | 119 => ⟨S_, .i32⟩
  | 120 => ⟨S900000, .i32⟩
  | 121 => ⟨S900000, .i32⟩
  | 122 => ⟨S900000, .i32⟩
  | 123 => ⟨S900000x1, .i32⟩
  | 124 => ⟨S900000, .f32⟩
  | 125 => ⟨S_, .i32⟩
  | 126 => ⟨S900000, .i32⟩
  | 127 => ⟨S900000, .i1⟩
  | _ => ⟨S100000x256, .f32⟩

abbrev hbmTy0_1 (i : Nat) : BufTy := match i % 128 with
  | 0 => ⟨S_, .i32⟩
  | 1 => ⟨S900000, .i32⟩
  | 2 => ⟨S900000, .i32⟩
  | 3 => ⟨S900000, .i32⟩
  | 4 => ⟨S900000x1, .i32⟩
  | 5 => ⟨S900000, .f32⟩
  | 6 => ⟨S900000, .f32⟩
  | 7 => ⟨S900000x1, .f32⟩
  | 8 => ⟨S_, .i32⟩
  | 9 => ⟨S900000, .i32⟩
  | 10 => ⟨S900000, .i1⟩
  | 11 => ⟨S_, .i32⟩
  | 12 => ⟨S900000, .i32⟩
  | 13 => ⟨S900000, .i32⟩
  | 14 => ⟨S900000, .i32⟩
  | 15 => ⟨S900000x1, .i32⟩
  | 16 => ⟨S900000x256, .f32⟩
  | 17 => ⟨S900000x256, .f32⟩
  | 18 => ⟨S900000x256, .f32⟩
  | 19 => ⟨S_, .f32⟩
  | 20 => ⟨S100000x256, .f32⟩
  | 21 => ⟨S900000x1, .i32⟩
  | 22 => ⟨S100000x256, .f32⟩
  | 23 => ⟨S1x256, .f32⟩
  | 24 => ⟨S100000x256, .f32⟩
  | 25 => ⟨S100000x256, .f32⟩
  | 26 => ⟨S100000x64, .f32⟩
  | 27 => ⟨S1x64, .f32⟩
  | 28 => ⟨S100000x64, .f32⟩
  | 29 => ⟨S100000x64, .f32⟩
  | 30 => ⟨S1600000, .i32⟩
  | 31 => ⟨S1600000, .i32⟩
  | 32 => ⟨S1600000, .i1⟩
  | 33 => ⟨S1600000, .f32⟩
  | 34 => ⟨S_, .f32⟩
  | 35 => ⟨S100000, .f32⟩
  | 36 => ⟨S1600000x1, .i32⟩
  | 37 => ⟨S100000, .f32⟩
  | 38 => ⟨S_, .f32⟩
  | 39 => ⟨S100000, .f32⟩
  | 40 => ⟨S100000, .i1⟩
  | 41 => ⟨S_, .f32⟩
  | 42 => ⟨S100000, .f32⟩
  | 43 => ⟨S100000, .f32⟩
  | 44 => ⟨S100000, .f32⟩
  | 45 => ⟨S_, .f32⟩
  | 46 => ⟨S100000, .f32⟩
  | 47 => ⟨S100000, .i1⟩
  | 48 => ⟨S_, .f32⟩
  | 49 => ⟨S_, .f32⟩
  | 50 => ⟨S100000, .f32⟩
  | 51 => ⟨S100000, .f32⟩
  | 52 => ⟨S100000, .f32⟩
  | 53 => ⟨S100000, .f32⟩
  | 54 => ⟨S100000, .f32⟩
  | 55 => ⟨S_, .f32⟩
  | 56 => ⟨S_, .f32⟩
  | 57 => ⟨S100000, .f32⟩
  | 58 => ⟨S100000, .f32⟩
  | 59 => ⟨S_, .i32⟩
  | 60 => ⟨S1600000, .i32⟩
  | 61 => ⟨S1600000, .i1⟩
  | 62 => ⟨S_, .i32⟩
  | 63 => ⟨S1600000, .i32⟩
  | 64 => ⟨S1600000, .i32⟩
  | 65 => ⟨S1600000, .i32⟩
  | 66 => ⟨S1600000x1, .i32⟩
  | 67 => ⟨S1600000, .f32⟩
  | 68 => ⟨S_, .i32⟩
  | 69 => ⟨S1600000, .i32⟩
  | 70 => ⟨S1600000, .i1⟩
  | 71 => ⟨S_, .i32⟩
  | 72 => ⟨S1600000, .i32⟩
  | 73 => ⟨S1600000, .i32⟩
  | 74 => ⟨S1600000, .i32⟩
  | 75 => ⟨S1600000x1, .i32⟩
  | 76 => ⟨S1600000, .f32⟩
  | 77 => ⟨S1600000, .f32⟩
  | 78 => ⟨S1600000, .f32⟩
  | 79 => ⟨S1600000x1, .f32⟩
  | 80 => ⟨S_, .i32⟩
  | 81 => ⟨S1600000, .i32⟩
  | 82 => ⟨S1600000, .i1⟩
  | 83 => ⟨S_, .i32⟩
  | 84 => ⟨S1600000, .i32⟩
  | 85 => ⟨S1600000, .i32⟩
  | 86 => ⟨S1600000, .i32⟩
  | 87 => ⟨S1600000x1, .i32⟩
  | 88 => ⟨S1600000x64, .f32⟩
  | 89 => ⟨S1600000x64, .f32⟩
  | 90 => ⟨S1600000x64, .f32⟩
  | 91 => ⟨S_, .f32⟩
  | 92 => ⟨S100000x64, .f32⟩
  | 93 => ⟨S1600000x1, .i32⟩
  | 94 => ⟨S100000x64, .f32⟩
  | 95 => ⟨S1600000x1, .f32⟩
  | 96 => ⟨S_, .i32⟩
  | 97 => ⟨S1600000, .i32⟩
  | 98 => ⟨S1600000, .i1⟩
  | 99 => ⟨S_, .i32⟩
  | 100 => ⟨S1600000, .i32⟩
  | 101 => ⟨S1600000, .i32⟩
  | 102 => ⟨S1600000, .i32⟩
  | 103 => ⟨S1600000x1, .i32⟩
  | 104 => ⟨S1600000x64, .f32⟩
  | 105 => ⟨S1600000x64, .f32⟩
  | 106 => ⟨S1600000x64, .f32⟩
  | 107 => ⟨S_, .f32⟩
  | 108 => ⟨S100000x64, .f32⟩
  | 109 => ⟨S1600000x1, .i32⟩
  | 110 => ⟨S100000x64, .f32⟩
  | 111 => ⟨S100000x1, .i32⟩
  | 112 => ⟨S100000, .i32⟩
  | 113 => ⟨S_, .i32⟩
  | 114 => ⟨S100000, .i32⟩
  | 115 => ⟨S100000, .i1⟩
  | 116 => ⟨S_, .i32⟩
  | 117 => ⟨S100000, .i32⟩
  | 118 => ⟨S100000, .i32⟩
  | 119 => ⟨S100000, .i32⟩
  | 120 => ⟨S100000x1, .i32⟩
  | 121 => ⟨S100000x64, .f32⟩
  | 122 => ⟨S100000x1, .i32⟩
  | 123 => ⟨S100000, .i32⟩
  | 124 => ⟨S_, .i32⟩
  | 125 => ⟨S100000, .i32⟩
  | 126 => ⟨S100000, .i1⟩
  | 127 => ⟨S_, .i32⟩
  | _ => ⟨S100000x256, .f32⟩

abbrev hbmTy0_2 (i : Nat) : BufTy := match i % 128 with
  | 0 => ⟨S100000, .i32⟩
  | 1 => ⟨S100000, .i32⟩
  | 2 => ⟨S100000, .i32⟩
  | 3 => ⟨S100000x1, .i32⟩
  | 4 => ⟨S100000x64, .f32⟩
  | 5 => ⟨S100000x1, .i32⟩
  | 6 => ⟨S100000, .i32⟩
  | 7 => ⟨S_, .i32⟩
  | 8 => ⟨S100000, .i32⟩
  | 9 => ⟨S100000, .i1⟩
  | 10 => ⟨S_, .i32⟩
  | 11 => ⟨S100000, .i32⟩
  | 12 => ⟨S100000, .i32⟩
  | 13 => ⟨S100000, .i32⟩
  | 14 => ⟨S100000x1, .i32⟩
  | 15 => ⟨S100000x64, .f32⟩
  | 16 => ⟨S100000x64, .f32⟩
  | 17 => ⟨S_, .f32⟩
  | 18 => ⟨S100000, .f32⟩
  | 19 => ⟨S100000, .f32⟩
  | 20 => ⟨S_, .f32⟩
  | 21 => ⟨S100000, .f32⟩
  | 22 => ⟨S100000, .f32⟩
  | 23 => ⟨S100000x64, .f32⟩
  | 24 => ⟨S_, .f32⟩
  | 25 => ⟨S100000, .f32⟩
  | 26 => ⟨S100000, .f32⟩
  | 27 => ⟨S_, .f32⟩
  | 28 => ⟨S100000, .f32⟩
  | 29 => ⟨S100000, .f32⟩
  | 30 => ⟨S100000x64, .f32⟩
  | 31 => ⟨S_, .f32⟩
  | 32 => ⟨S100000, .f32⟩
  | 33 => ⟨S100000, .f32⟩
  | 34 => ⟨S100000, .f32⟩
  | 35 => ⟨S_, .f32⟩
  | 36 => ⟨S100000, .f32⟩
  | 37 => ⟨S100000, .f32⟩
  | 38 => ⟨S100000, .f32⟩
  | 39 => ⟨S100000x64, .f32⟩
  | 40 => ⟨S_, .f32⟩
  | 41 => ⟨S100000, .f32⟩
  | 42 => ⟨S100000, .f32⟩
  | 43 => ⟨S_, .f32⟩
  | 44 => ⟨S100000, .f32⟩
  | 45 => ⟨S100000, .f32⟩
  | 46 => ⟨S100000x64, .f32⟩
  | 47 => ⟨S_, .f32⟩
  | 48 => ⟨S100000, .f32⟩
  | 49 => ⟨S100000, .f32⟩
  | 50 => ⟨S_, .f32⟩
  | 51 => ⟨S100000, .f32⟩
  | 52 => ⟨S100000, .f32⟩
  | 53 => ⟨S100000x64, .f32⟩
  | 54 => ⟨S_, .f32⟩
  | 55 => ⟨S100000, .f32⟩
  | 56 => ⟨S100000, .f32⟩
  | 57 => ⟨S100000, .f32⟩
  | 58 => ⟨S_, .f32⟩
  | 59 => ⟨S100000, .f32⟩
  | 60 => ⟨S100000, .f32⟩
  | 61 => ⟨S100000, .f32⟩
  | 62 => ⟨S100000, .f32⟩
  | 63 => ⟨S100000, .f32⟩
  | 64 => ⟨S100000, .f32⟩
  | 65 => ⟨S100000, .f32⟩
  | 66 => ⟨S_, .f32⟩
  | 67 => ⟨S_, .f32⟩
  | 68 => ⟨S_, .f32⟩
  | 69 => ⟨S_, .f32⟩
  | _ => ⟨S100000x256, .f32⟩

abbrev hbmTy (i : Nat) : BufTy := match i / 128 with
  | 0 => hbmTy0_0 i
  | 1 => hbmTy0_1 i
  | 2 => hbmTy0_2 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_cst_5 : Ref sig .tc := ⟨.hbm, 34, rfl⟩
abbrev main_call0_v0 : Ref sig .tc := ⟨.hbm, 35, rfl⟩
abbrev main_call0_v1 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_6 : Ref sig .tc := ⟨.hbm, 40, rfl⟩
abbrev main_call1_v0 : Ref sig .tc := ⟨.hbm, 41, rfl⟩
abbrev main_call1_v1 : Ref sig .tc := ⟨.hbm, 42, rfl⟩
abbrev main_v22 : Ref sig .tc := ⟨.hbm, 43, rfl⟩
abbrev main_c : Ref sig .tc := ⟨.hbm, 44, rfl⟩
abbrev main_v23 : Ref sig .tc := ⟨.hbm, 45, rfl⟩
abbrev main_v24 : Ref sig .tc := ⟨.hbm, 46, rfl⟩
abbrev main_c_7 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_c_8 : Ref sig .tc := ⟨.hbm, 53, rfl⟩
abbrev main_v30 : Ref sig .tc := ⟨.hbm, 54, rfl⟩
abbrev main_v31 : Ref sig .tc := ⟨.hbm, 55, rfl⟩
abbrev main_c_9 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_c_10 : Ref sig .tc := ⟨.hbm, 64, rfl⟩
abbrev main_v39 : Ref sig .tc := ⟨.hbm, 65, rfl⟩
abbrev main_v40 : Ref sig .tc := ⟨.hbm, 66, rfl⟩
abbrev main_c_11 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_12 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_call2_cst : Ref sig .tc := ⟨.hbm, 82, rfl⟩
abbrev main_call2_v0 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_13 : Ref sig .tc := ⟨.hbm, 89, rfl⟩
abbrev main_v59 : Ref sig .tc := ⟨.hbm, 90, rfl⟩
abbrev main_cst_14 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_15 : Ref sig .tc := ⟨.hbm, 95, rfl⟩
abbrev main_v63 : Ref sig .tc := ⟨.hbm, 96, rfl⟩
abbrev main_v64 : Ref sig .tc := ⟨.hbm, 97, rfl⟩
abbrev main_cst_16 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_17 : Ref sig .tc := ⟨.hbm, 102, rfl⟩
abbrev main_v68 : Ref sig .tc := ⟨.hbm, 103, rfl⟩
abbrev main_v69 : Ref sig .tc := ⟨.hbm, 104, rfl⟩
abbrev main_cst_18 : Ref sig .tc := ⟨.hbm, 105, rfl⟩
abbrev main_cst_19 : Ref sig .tc := ⟨.hbm, 106, rfl⟩
abbrev main_call3_v0 : Ref sig .tc := ⟨.hbm, 107, rfl⟩
abbrev main_call3_v1 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_cst_20 : Ref sig .tc := ⟨.hbm, 112, rfl⟩
abbrev main_call4_v0 : Ref sig .tc := ⟨.hbm, 113, rfl⟩
abbrev main_call4_v1 : Ref sig .tc := ⟨.hbm, 114, rfl⟩
abbrev main_v73 : Ref sig .tc := ⟨.hbm, 115, rfl⟩
abbrev main_c_21 : Ref sig .tc := ⟨.hbm, 116, rfl⟩
abbrev main_v74 : Ref sig .tc := ⟨.hbm, 117, rfl⟩
abbrev main_v75 : Ref sig .tc := ⟨.hbm, 118, rfl⟩
abbrev main_c_22 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_c_23 : Ref sig .tc := ⟨.hbm, 125, rfl⟩
abbrev main_v81 : Ref sig .tc := ⟨.hbm, 126, rfl⟩
abbrev main_v82 : Ref sig .tc := ⟨.hbm, 127, rfl⟩
abbrev main_c_24 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_c_25 : Ref sig .tc := ⟨.hbm, 136, rfl⟩
abbrev main_v90 : Ref sig .tc := ⟨.hbm, 137, rfl⟩
abbrev main_v91 : Ref sig .tc := ⟨.hbm, 138, rfl⟩
abbrev main_c_26 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_cst_27 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_cst_28 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_cst_29 : Ref sig .tc := ⟨.hbm, 166, rfl⟩
abbrev main_v116 : Ref sig .tc := ⟨.hbm, 167, rfl⟩
abbrev main_v117 : Ref sig .tc := ⟨.hbm, 168, rfl⟩
abbrev main_cst_30 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_cst_31 : Ref sig .tc := ⟨.hbm, 173, rfl⟩
abbrev main_v121 : Ref sig .tc := ⟨.hbm, 174, rfl⟩
abbrev main_v122 : Ref sig .tc := ⟨.hbm, 175, rfl⟩
abbrev main_cst_32 : Ref sig .tc := ⟨.hbm, 176, rfl⟩
abbrev main_cst_33 : Ref sig .tc := ⟨.hbm, 177, rfl⟩
abbrev main_call5_v0 : Ref sig .tc := ⟨.hbm, 178, rfl⟩
abbrev main_call5_v1 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_cst_34 : Ref sig .tc := ⟨.hbm, 183, rfl⟩
abbrev main_call6_v0 : Ref sig .tc := ⟨.hbm, 184, rfl⟩
abbrev main_call6_v1 : Ref sig .tc := ⟨.hbm, 185, rfl⟩
abbrev main_v126 : Ref sig .tc := ⟨.hbm, 186, rfl⟩
abbrev main_c_35 : Ref sig .tc := ⟨.hbm, 187, rfl⟩
abbrev main_v127 : Ref sig .tc := ⟨.hbm, 188, rfl⟩
abbrev main_v128 : Ref sig .tc := ⟨.hbm, 189, rfl⟩
abbrev main_c_36 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_v133 : Ref sig .tc := ⟨.hbm, 195, rfl⟩
abbrev main_c_37 : Ref sig .tc := ⟨.hbm, 196, rfl⟩
abbrev main_v134 : Ref sig .tc := ⟨.hbm, 197, rfl⟩
abbrev main_v135 : Ref sig .tc := ⟨.hbm, 198, rfl⟩
abbrev main_c_38 : Ref sig .tc := ⟨.hbm, 199, rfl⟩
abbrev main_v136 : Ref sig .tc := ⟨.hbm, 200, rfl⟩
abbrev main_v137 : Ref sig .tc := ⟨.hbm, 201, rfl⟩
abbrev main_v138 : Ref sig .tc := ⟨.hbm, 202, rfl⟩
abbrev main_v139 : Ref sig .tc := ⟨.hbm, 203, rfl⟩
abbrev main_v140 : Ref sig .tc := ⟨.hbm, 204, rfl⟩
abbrev main_v141 : Ref sig .tc := ⟨.hbm, 205, rfl⟩
abbrev main_v142 : Ref sig .tc := ⟨.hbm, 206, rfl⟩
abbrev main_v143 : Ref sig .tc := ⟨.hbm, 207, rfl⟩
abbrev main_c_39 : Ref sig .tc := ⟨.hbm, 208, rfl⟩
abbrev main_v144 : Ref sig .tc := ⟨.hbm, 209, rfl⟩
abbrev main_v145 : Ref sig .tc := ⟨.hbm, 210, rfl⟩
abbrev main_c_40 : Ref sig .tc := ⟨.hbm, 211, rfl⟩
abbrev main_v146 : Ref sig .tc := ⟨.hbm, 212, rfl⟩
abbrev main_v147 : Ref sig .tc := ⟨.hbm, 213, rfl⟩
abbrev main_v148 : Ref sig .tc := ⟨.hbm, 214, rfl⟩
abbrev main_v149 : Ref sig .tc := ⟨.hbm, 215, rfl⟩
abbrev main_v150 : Ref sig .tc := ⟨.hbm, 216, rfl⟩
abbrev main_v151 : Ref sig .tc := ⟨.hbm, 217, rfl⟩
abbrev main_v152 : Ref sig .tc := ⟨.hbm, 218, rfl⟩
abbrev main_cst_41 : Ref sig .tc := ⟨.hbm, 219, rfl⟩
abbrev main_v153 : Ref sig .tc := ⟨.hbm, 220, rfl⟩
abbrev main_v154 : Ref sig .tc := ⟨.hbm, 221, rfl⟩
abbrev main_v155 : Ref sig .tc := ⟨.hbm, 222, rfl⟩
abbrev main_v156 : Ref sig .tc := ⟨.hbm, 223, rfl⟩
abbrev main_c_42 : Ref sig .tc := ⟨.hbm, 224, rfl⟩
abbrev main_v157 : Ref sig .tc := ⟨.hbm, 225, rfl⟩
abbrev main_v158 : Ref sig .tc := ⟨.hbm, 226, rfl⟩
abbrev main_c_43 : Ref sig .tc := ⟨.hbm, 227, rfl⟩
abbrev main_v159 : Ref sig .tc := ⟨.hbm, 228, rfl⟩
abbrev main_v160 : Ref sig .tc := ⟨.hbm, 229, rfl⟩
abbrev main_v161 : Ref sig .tc := ⟨.hbm, 230, rfl⟩
abbrev main_v162 : Ref sig .tc := ⟨.hbm, 231, rfl⟩
abbrev main_v163 : Ref sig .tc := ⟨.hbm, 232, rfl⟩
abbrev main_v164 : Ref sig .tc := ⟨.hbm, 233, rfl⟩
abbrev main_v165 : Ref sig .tc := ⟨.hbm, 234, rfl⟩
abbrev main_cst_44 : Ref sig .tc := ⟨.hbm, 235, rfl⟩
abbrev main_v166 : Ref sig .tc := ⟨.hbm, 236, rfl⟩
abbrev main_v167 : Ref sig .tc := ⟨.hbm, 237, rfl⟩
abbrev main_v168 : Ref sig .tc := ⟨.hbm, 238, rfl⟩
abbrev main_v169 : Ref sig .tc := ⟨.hbm, 239, rfl⟩
abbrev main_v170 : Ref sig .tc := ⟨.hbm, 240, rfl⟩
abbrev main_c_45 : Ref sig .tc := ⟨.hbm, 241, rfl⟩
abbrev main_v171 : Ref sig .tc := ⟨.hbm, 242, rfl⟩
abbrev main_v172 : Ref sig .tc := ⟨.hbm, 243, rfl⟩
abbrev main_c_46 : Ref sig .tc := ⟨.hbm, 244, rfl⟩
abbrev main_v173 : Ref sig .tc := ⟨.hbm, 245, rfl⟩
abbrev main_v174 : Ref sig .tc := ⟨.hbm, 246, rfl⟩
abbrev main_v175 : Ref sig .tc := ⟨.hbm, 247, rfl⟩
abbrev main_v176 : Ref sig .tc := ⟨.hbm, 248, rfl⟩
abbrev main_v177 : Ref sig .tc := ⟨.hbm, 249, rfl⟩
abbrev main_v178 : Ref sig .tc := ⟨.hbm, 250, rfl⟩
abbrev main_v179 : Ref sig .tc := ⟨.hbm, 251, rfl⟩
abbrev main_c_47 : Ref sig .tc := ⟨.hbm, 252, rfl⟩
abbrev main_v180 : Ref sig .tc := ⟨.hbm, 253, rfl⟩
abbrev main_v181 : Ref sig .tc := ⟨.hbm, 254, rfl⟩
abbrev main_c_48 : Ref sig .tc := ⟨.hbm, 255, rfl⟩
abbrev main_v182 : Ref sig .tc := ⟨.hbm, 256, rfl⟩
abbrev main_v183 : Ref sig .tc := ⟨.hbm, 257, rfl⟩
abbrev main_v184 : Ref sig .tc := ⟨.hbm, 258, rfl⟩
abbrev main_v185 : Ref sig .tc := ⟨.hbm, 259, rfl⟩
abbrev main_v186 : Ref sig .tc := ⟨.hbm, 260, rfl⟩
abbrev main_v187 : Ref sig .tc := ⟨.hbm, 261, rfl⟩
abbrev main_v188 : Ref sig .tc := ⟨.hbm, 262, rfl⟩
abbrev main_c_49 : Ref sig .tc := ⟨.hbm, 263, rfl⟩
abbrev main_v189 : Ref sig .tc := ⟨.hbm, 264, rfl⟩
abbrev main_v190 : Ref sig .tc := ⟨.hbm, 265, rfl⟩
abbrev main_c_50 : Ref sig .tc := ⟨.hbm, 266, rfl⟩
abbrev main_v191 : Ref sig .tc := ⟨.hbm, 267, rfl⟩
abbrev main_v192 : Ref sig .tc := ⟨.hbm, 268, rfl⟩
abbrev main_v193 : Ref sig .tc := ⟨.hbm, 269, rfl⟩
abbrev main_v194 : Ref sig .tc := ⟨.hbm, 270, rfl⟩
abbrev main_v195 : Ref sig .tc := ⟨.hbm, 271, rfl⟩
abbrev main_v196 : Ref sig .tc := ⟨.hbm, 272, rfl⟩
abbrev main_cst_51 : Ref sig .tc := ⟨.hbm, 273, rfl⟩
abbrev main_v197 : Ref sig .tc := ⟨.hbm, 274, rfl⟩
abbrev main_v198 : Ref sig .tc := ⟨.hbm, 275, rfl⟩
abbrev main_cst_52 : Ref sig .tc := ⟨.hbm, 276, rfl⟩
abbrev main_v199 : Ref sig .tc := ⟨.hbm, 277, rfl⟩
abbrev main_v200 : Ref sig .tc := ⟨.hbm, 278, rfl⟩
abbrev main_v201 : Ref sig .tc := ⟨.hbm, 279, rfl⟩
abbrev main_cst_53 : Ref sig .tc := ⟨.hbm, 280, rfl⟩
abbrev main_v202 : Ref sig .tc := ⟨.hbm, 281, rfl⟩
abbrev main_v203 : Ref sig .tc := ⟨.hbm, 282, rfl⟩
abbrev main_cst_54 : Ref sig .tc := ⟨.hbm, 283, rfl⟩
abbrev main_v204 : Ref sig .tc := ⟨.hbm, 284, rfl⟩
abbrev main_v205 : Ref sig .tc := ⟨.hbm, 285, rfl⟩
abbrev main_v206 : Ref sig .tc := ⟨.hbm, 286, rfl⟩
abbrev main_cst_55 : Ref sig .tc := ⟨.hbm, 287, rfl⟩
abbrev main_v207 : Ref sig .tc := ⟨.hbm, 288, rfl⟩
abbrev main_v208 : Ref sig .tc := ⟨.hbm, 289, rfl⟩
abbrev main_v209 : Ref sig .tc := ⟨.hbm, 290, rfl⟩
abbrev main_cst_56 : Ref sig .tc := ⟨.hbm, 291, rfl⟩
abbrev main_v210 : Ref sig .tc := ⟨.hbm, 292, rfl⟩
abbrev main_v211 : Ref sig .tc := ⟨.hbm, 293, rfl⟩
abbrev main_v212 : Ref sig .tc := ⟨.hbm, 294, rfl⟩
abbrev main_v213 : Ref sig .tc := ⟨.hbm, 295, rfl⟩
abbrev main_cst_57 : Ref sig .tc := ⟨.hbm, 296, rfl⟩
abbrev main_v214 : Ref sig .tc := ⟨.hbm, 297, rfl⟩
abbrev main_v215 : Ref sig .tc := ⟨.hbm, 298, rfl⟩
abbrev main_cst_58 : Ref sig .tc := ⟨.hbm, 299, rfl⟩
abbrev main_v216 : Ref sig .tc := ⟨.hbm, 300, rfl⟩
abbrev main_v217 : Ref sig .tc := ⟨.hbm, 301, rfl⟩
abbrev main_v218 : Ref sig .tc := ⟨.hbm, 302, rfl⟩
abbrev main_cst_59 : Ref sig .tc := ⟨.hbm, 303, rfl⟩
abbrev main_v219 : Ref sig .tc := ⟨.hbm, 304, rfl⟩
abbrev main_v220 : Ref sig .tc := ⟨.hbm, 305, rfl⟩
abbrev main_cst_60 : Ref sig .tc := ⟨.hbm, 306, rfl⟩
abbrev main_v221 : Ref sig .tc := ⟨.hbm, 307, rfl⟩
abbrev main_v222 : Ref sig .tc := ⟨.hbm, 308, rfl⟩
abbrev main_v223 : Ref sig .tc := ⟨.hbm, 309, rfl⟩
abbrev main_cst_61 : Ref sig .tc := ⟨.hbm, 310, rfl⟩
abbrev main_v224 : Ref sig .tc := ⟨.hbm, 311, rfl⟩
abbrev main_v225 : Ref sig .tc := ⟨.hbm, 312, rfl⟩
abbrev main_v226 : Ref sig .tc := ⟨.hbm, 313, rfl⟩
abbrev main_cst_62 : Ref sig .tc := ⟨.hbm, 314, rfl⟩
abbrev main_v227 : Ref sig .tc := ⟨.hbm, 315, rfl⟩
abbrev main_v228 : Ref sig .tc := ⟨.hbm, 316, rfl⟩
abbrev main_v229 : Ref sig .tc := ⟨.hbm, 317, rfl⟩
abbrev main_v230 : Ref sig .tc := ⟨.hbm, 318, rfl⟩
abbrev main_v231 : Ref sig .tc := ⟨.hbm, 319, rfl⟩
abbrev main_v232 : Ref sig .tc := ⟨.hbm, 320, rfl⟩
abbrev main_v233 : Ref sig .tc := ⟨.hbm, 321, rfl⟩
abbrev main_cst_63 : Ref sig .tc := ⟨.hbm, 322, rfl⟩
abbrev main_v234 : Ref sig .tc := ⟨.hbm, 323, rfl⟩
abbrev main_cst_64 : Ref sig .tc := ⟨.hbm, 324, rfl⟩
abbrev main_v235 : Ref sig .tc := ⟨.hbm, 325, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S100000_S900000_d0 : Shape.Concatenates [S800000, S100000] S900000 0
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  bcast_S900000x1_S900000x256_0_1 : S900000x1.BroadcastsInDim S900000x256 (![0, 1] : Fin 2 → Fin S900000x256.rank)
  bcast_S_S100000x256 : S_.BroadcastsInDim S100000x256 (![] : Fin 0 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  concatenates_S800000_S800000_S1600000_d0 : Shape.Concatenates [S800000, S800000] S1600000 0
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  slices_S100000x3_S100000x1_0_0 : S100000x3.Slices ![0, 0] S100000x1
  shapeCasts_S100000x1_S100000 : S100000x1.ShapeCasts S100000
  bcast_S100000_S100000x1_0 : S100000.BroadcastsInDim S100000x1 (![0] : Fin 1 → Fin S100000x1.rank)
  slices_S100000x3_S100000x1_0_1 : S100000x3.Slices ![0, 1] S100000x1
  slices_S100000x3_S100000x1_0_2 : S100000x3.Slices ![0, 2] S100000x1
  reducesTo_S100000x64_S100000_d1 : S100000x64.ReducesTo [1] S100000
  h_S_ : 0 < S_.numel
  reducesTo_S100000_S_d0 : S100000.ReducesTo [0] S_
  dot_S100000x256_S256x256_S100000x256_1_0_0_1_n_n_wf : DotDims.WF S100000x256 S256x256 S100000x256 [1] [0] [0] [1] [] []
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  gather_S100000x256_S900000x1_S900000x256_1_0_n_n_0_1_1256_wf : GatherDims.WF S100000x256 S900000x1 S900000x256 [1] [0] [] [0] [] 1 ![1, 256]
  scatter_S100000x256_S900000x1_S900000x256_1_0_0_1_wf : ScatterDims.WF S100000x256 S900000x1 S900000x256 [1] [0] [0] 1
  dot_S100000x256_S256x64_S100000x64_1_0_0_1_n_n_wf : DotDims.WF S100000x256 S256x64 S100000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  gather_S100000x64_S100000x1_S100000x64_1_0_n_n_0_1_164_wf : GatherDims.WF S100000x64 S100000x1 S100000x64 [1] [0] [] [0] [] 1 ![1, 64]

variable [Facts₀]

def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def gather_S100000x256_S900000x1_S900000x256_1_0_n_n_0_1_1256 : GatherDims S100000x256 S900000x1 S900000x256 where
  offsetDims := [1]
  collapsedSliceDims := [0]
  operandBatchingDims := []
  startIndicesBatchingDims := []
  startIndexMap := [0]
  indexVectorDim := 1
  sliceSizes := ![1, 256]
  wf := gather_S100000x256_S900000x1_S900000x256_1_0_n_n_0_1_1256_wf
def scatter_S100000x256_S900000x1_S900000x256_1_0_0_1 : ScatterDims S100000x256 S900000x1 S900000x256 where
  updateWindowDims := [1]
  insertedWindowDims := [0]
  scatterDimsToOperandDims := [0]
  indexVectorDim := 1
  wf := scatter_S100000x256_S900000x1_S900000x256_1_0_0_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def gather_S100000x64_S100000x1_S100000x64_1_0_n_n_0_1_164 : GatherDims S100000x64 S100000x1 S100000x64 where
  offsetDims := [1]
  collapsedSliceDims := [0]
  operandBatchingDims := []
  startIndicesBatchingDims := []
  startIndexMap := [0]
  indexVectorDim := 1
  sliceSizes := ![1, 64]
  wf := gather_S100000x64_S100000x1_S100000x64_1_0_n_n_0_1_164_wf

class Facts : Prop extends Facts₀ where

variable [Facts]
-- ==== Proof.KernelRun.lean ====
import proofs.«114862_j326417514918_1_alg».proof.Proof.Gen.KernelIdeal.Frame

/-!
# The whole run of the three-layer program, every buffer named

The program is three affine layers, each a tiled matrix product on the matrix unit, with graph aggregation on the host
between them and a contrastive loss after the last. Its run visits twenty-one segment boundaries; the contents of every
buffer at the last boundary is the fold `W21` of the host stretches and the three regions' write-backs over the launch
memory. Here the run is stated with that fold as its post: every weakly fair execution terminates without a fault and
leaves EVERY unscoped buffer at `W21`, not only the arguments. The scalar result is then `W21` at the result buffer.
-/

set_option maxRecDepth 16384

noncomputable section

namespace Cert.KernelIdeal.WholeRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program from a memory with zero counters terminates, nothing faulting, with
    every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W21 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨⟨Hh, -⟩, HSI⟩
      unfold StableHlo.held
      imodintro
      iapply (pointsTo_read_all (Pipeline.ucRefs τ sig) (fun b => (((c : Thread nD τ)).1, b)) (W21 m ρ c) s')
      isplitl [Hh] <;> iassumption)
    (hQ := fun s h => h)

/-- The result buffer is unscoped, so the run leaves it at the last boundary's contents, and the arguments as launched. -/
theorem run_result : θ_run defs (onTc (τ := τ) (main (F := F))) ⟨m, fun _ => 0, ρ⟩ (fun r => ∀ c : Dev nD,
      r.2.mem ((c.tc : Thread nD τ).loc main_v236) = W21 m ρ c (Proc.devRef .tc main_v236)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun s h c =>
      ⟨h c _ (mem_uc main_v236 (by decide)),
       (h c _ (mem_uc main_arg0 (by decide))).trans (W21_main_arg0 m ρ c),
       (h c _ (mem_uc main_arg1 (by decide))).trans (W21_main_arg1 m ρ c),
       (h c _ (mem_uc main_arg2 (by decide))).trans (W21_main_arg2 m ρ c),
       (h c _ (mem_uc main_arg3 (by decide))).trans (W21_main_arg3 m ρ c),
       (h c _ (mem_uc main_arg4 (by decide))).trans (W21_main_arg4 m ρ c),
       (h c _ (mem_uc main_arg5 (by decide))).trans (W21_main_arg5 m ρ c),
       (h c _ (mem_uc main_arg6 (by decide))).trans (W21_main_arg6 m ρ c),
       (h c _ (mem_uc main_arg7 (by decide))).trans (W21_main_arg7 m ρ c),
       (h c _ (mem_uc main_arg8 (by decide))).trans (W21_main_arg8 m ρ c)⟩)
    (run_all m ρ)

end Cert.KernelIdeal.WholeRun

end
-- ==== Proof.HostCuts.lean ====
import Idealize.ShloMosaic.Lib.StableHlo.Run

/-!
# Cutting a line of host operations

What a line of host operations leaves in the buffers is a fold over the line. The fold over a line cut in two is the fold
over the second part from what the first part leaves, so a long line can be read one stretch at a time, each stretch a
sub-list of the line taken by position. The ten stretches named here are those of a three-layer network: the index
slices, a matrix product, the index lists of a layer, the layer's aggregation, and so on to the loss.
Also: a concatenation of two pieces depends only on the pieces.
-/

namespace Cert.Bridge

open Idealize.ShloMosaic Idealize.ShloMosaic.StableHlo

variable {τ : Topo} {sig : RefSig} {Val : EltTy → Type}

/-- Two lines run one after the other leave what the second leaves from what the first leaves. -/
theorem after_app (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- A line cut after its first `n` operations. -/
theorem after_split (n : ℕ) (l : List (HloOp τ sig Val)) (V : Valuation τ sig Val) :
    after l V = after (l.drop n) (after (l.take n) V) := by
  conv_lhs => rw [← List.take_append_drop n l]
  exact after_app _ _ _

/-- The rest of a line from position `a`, cut `n` operations further on. -/
theorem after_cut (a n b : ℕ) (h : a + n = b) (l : List (HloOp τ sig Val)) (V : Valuation τ sig Val) :
    after (l.drop a) V = after (l.drop b) (after ((l.drop a).take n) V) := by
  subst h
  have hd : (l.drop a).drop n = l.drop (a + n) := by simp [List.drop_drop, Nat.add_comm]
  rw [after_split n (l.drop a) V, hd]

/-- A line read in ten stretches cut at positions 4, 5, 8, 76, 77, 80, 145, 149 and 151. -/
theorem after_ten (l : List (HloOp τ sig Val)) (V : Valuation τ sig Val) :
    after l V = after (l.drop 151) (after ((l.drop 149).take 2) (after ((l.drop 145).take 4) (after ((l.drop 80).take 65)
      (after ((l.drop 77).take 3) (after ((l.drop 76).take 1) (after ((l.drop 8).take 68) (after ((l.drop 5).take 3)
      (after ((l.drop 4).take 1) (after (l.take 4) V))))))))) := by
  rw [after_split 4 l V, after_cut 4 1 5 rfl l, after_cut 5 3 8 rfl l, after_cut 8 68 76 rfl l, after_cut 76 1 77 rfl l,
    after_cut 77 3 80 rfl l, after_cut 80 65 145 rfl l, after_cut 145 4 149 rfl l, after_cut 149 2 151 rfl l]

/-- A concatenation of two pieces depends only on the pieces. -/
theorem concat_two_congr {α : Type} (t : Shape) (a : Fin t.rank) (s₁ s₂ : Shape) (x x' : s₁.Idx → α) (y y' : s₂.Idx → α)
    (h : Shape.Concatenates [s₁, s₂] t a) (hx : x = x') (hy : y = y') :
    concatenate t a [⟨s₁, x⟩, ⟨s₂, y⟩] h = concatenate t a [⟨s₁, x'⟩, ⟨s₂, y'⟩] h := by
  subst hx hy; rfl

end Cert.Bridge
-- ==== Proof.Stretches.lean ====
import proofs.«114862_j326417514918_1_alg».proof.Proof.Gen.KernelIdeal.Frame
import proofs.«114862_j326417514918_1_alg».proof.Proof.RefRun
import proofs.«114862_j326417514918_1_alg».proof.Proof.HostCuts
import Idealize.ShloMosaic.PureOps.Ideal

/-!
# The two programs cut at their matrix products

The reference is one line of host operations; it is read here in ten stretches — the index slices, the first product,
the first layer's index lists, the first layer, the second product, its index lists, the second layer, the third product
with its bias, the doubled index lists, and the rest to the loss — each from what the stretch before leaves. The kernel's
program already comes cut at its three regions; its host stretch after each region is cut once more, after the index
lists, so that the two programs meet at the same points.
-/

noncomputable section

namespace Cert.Bridge

open Idealize.ShloMosaic Idealize.ShloMosaic.TcCoe Idealize.SL.Sem Idealize.ShloMosaic.StableHlo

/-! ## The reference's buffers after each stretch -/

variable (m' : (ℓ : Loc Cert.ReferenceIdeal.nD Cert.ReferenceIdeal.τ Cert.ReferenceIdeal.sig) → Buf (Elt Ideal) ℓ) (d : Dev Cert.ReferenceIdeal.nD)

/-- After the index slices. -/
def Ra : Valuation Cert.ReferenceIdeal.τ Cert.ReferenceIdeal.sig (Elt Ideal) := after ((Cert.ReferenceIdeal.ValueP.ops (F := Ideal)).take 4) (launchContents m' d)
/-- After the first product. -/
def Rb : Valuation Cert.ReferenceIdeal.τ Cert.ReferenceIdeal.sig (Elt Ideal) := after (((Cert.ReferenceIdeal.ValueP.ops (F := Ideal)).drop 4).take 1) (Ra m' d)
/-- After the first layer's index lists. -/
def Rp1 : Valuation Cert.ReferenceIdeal.τ Cert.ReferenceIdeal.sig (Elt Ideal) := after (((Cert.ReferenceIdeal.ValueP.ops (F := Ideal)).drop 5).take 3) (Rb m' d)
/-- After the first layer. -/
def Rc : Valuation Cert.ReferenceIdeal.τ Cert.ReferenceIdeal.sig (Elt Ideal) := after (((Cert.ReferenceIdeal.ValueP.ops (F := Ideal)).drop 8).take 68) (Rp1 m' d)
/-- After the second product. -/
def Rd : Valuation Cert.ReferenceIdeal.τ Cert.ReferenceIdeal.sig (Elt Ideal) := after (((Cert.ReferenceIdeal.ValueP.ops (F := Ideal)).drop 76).take 1) (Rc m' d)
/-- After the second layer's index lists. -/
def Rp2 : Valuation Cert.ReferenceIdeal.τ Cert.ReferenceIdeal.sig (Elt Ideal) := after (((Cert.ReferenceIdeal.ValueP.ops (F := Ideal)).drop 77).take 3) (Rd m' d)
/-- After the second layer. -/
def Re : Valuation Cert.ReferenceIdeal.τ Cert.ReferenceIdeal.sig (Elt Ideal) := after (((Cert.ReferenceIdeal.ValueP.ops (F := Ideal)).drop 80).take 65) (Rp2 m' d)
/-- After the third product and its bias. -/
def Rf : Valuation Cert.ReferenceIdeal.τ Cert.ReferenceIdeal.sig (Elt Ideal) := after (((Cert.ReferenceIdeal.ValueP.ops (F := Ideal)).drop 145).take 4) (Re m' d)
/-- After the doubled index lists. -/
def Rp3 : Valuation Cert.ReferenceIdeal.τ Cert.ReferenceIdeal.sig (Elt Ideal) := after (((Cert.ReferenceIdeal.ValueP.ops (F := Ideal)).drop 149).take 2) (Rf m' d)
/-- After the last operation. -/
def Rg : Valuation Cert.ReferenceIdeal.τ Cert.ReferenceIdeal.sig (Elt Ideal) := after ((Cert.ReferenceIdeal.ValueP.ops (F := Ideal)).drop 151) (Rp3 m' d)

/-- The whole line's fold is the ten stretches' folds in order. -/
theorem ref_fold : after (Cert.ReferenceIdeal.ValueP.ops (F := Ideal)) (launchContents m' d) = Rg m' d := by
  rw [after_ten]; rfl

/-! ## The kernel's buffers after each layer's index lists -/

variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)

/-- After the first layer's index lists. -/
def Kp1 : Valuation Cert.KernelIdeal.τ Cert.KernelIdeal.sig (Elt Ideal) := after ((Cert.KernelIdeal.Gen.hostOps1 (F := Ideal)).take 3) (Cert.KernelIdeal.Gen.W2 m ρ c)
/-- After the second layer's index lists. -/
def Kp2 : Valuation Cert.KernelIdeal.τ Cert.KernelIdeal.sig (Elt Ideal) := after ((Cert.KernelIdeal.Gen.hostOps2 (F := Ideal)).take 3) (Cert.KernelIdeal.Gen.W10 m ρ c)
/-- After the doubled index lists. -/
def Kp3 : Valuation Cert.KernelIdeal.τ Cert.KernelIdeal.sig (Elt Ideal) := after ((Cert.KernelIdeal.Gen.hostOps3 (F := Ideal)).take 2) (Cert.KernelIdeal.Gen.W16 m ρ c)

/-- The buffers before the second region's bias row is laid out, from the first layer's index lists on. -/
theorem W8_eq : Cert.KernelIdeal.Gen.W8 m ρ c = after Cert.KernelIdeal.Gen.hostOps1_5 (after Cert.KernelIdeal.Gen.hostOps1_4 (after Cert.KernelIdeal.Gen.hostOps1_3 (after Cert.KernelIdeal.Gen.hostOps1_2
    (after Cert.KernelIdeal.Gen.hostOps1_1 (after ((Cert.KernelIdeal.Gen.hostOps1 (F := Ideal)).drop 3) (Kp1 m ρ c)))))) := by
  show after Cert.KernelIdeal.Gen.hostOps1_5 (after Cert.KernelIdeal.Gen.hostOps1_4 (after Cert.KernelIdeal.Gen.hostOps1_3 (after Cert.KernelIdeal.Gen.hostOps1_2
    (after Cert.KernelIdeal.Gen.hostOps1_1 (after (Cert.KernelIdeal.Gen.hostOps1 (F := Ideal)) (Cert.KernelIdeal.Gen.W2 m ρ c)))))) = _
  rw [after_split 3 (Cert.KernelIdeal.Gen.hostOps1 (F := Ideal)) (Cert.KernelIdeal.Gen.W2 m ρ c)]; rfl

/-- The buffers at the third region's entry, from the second layer's index lists on. -/
theorem W15_eq : Cert.KernelIdeal.Gen.W15 m ρ c = after Cert.KernelIdeal.Gen.hostOps2_4 (after Cert.KernelIdeal.Gen.hostOps2_3 (after Cert.KernelIdeal.Gen.hostOps2_2
    (after Cert.KernelIdeal.Gen.hostOps2_1 (after ((Cert.KernelIdeal.Gen.hostOps2 (F := Ideal)).drop 3) (Kp2 m ρ c))))) := by
  show after Cert.KernelIdeal.Gen.hostOps2_4 (after Cert.KernelIdeal.Gen.hostOps2_3 (after Cert.KernelIdeal.Gen.hostOps2_2
    (after Cert.KernelIdeal.Gen.hostOps2_1 (after (Cert.KernelIdeal.Gen.hostOps2 (F := Ideal)) (Cert.KernelIdeal.Gen.W10 m ρ c))))) = _
  rw [after_split 3 (Cert.KernelIdeal.Gen.hostOps2 (F := Ideal)) (Cert.KernelIdeal.Gen.W10 m ρ c)]; rfl

/-- The buffers at the return, from the doubled index lists on. -/
theorem W21_eq : Cert.KernelIdeal.Gen.W21 m ρ c = after Cert.KernelIdeal.Gen.hostOps3_4 (after Cert.KernelIdeal.Gen.hostOps3_3 (after Cert.KernelIdeal.Gen.hostOps3_2
    (after Cert.KernelIdeal.Gen.hostOps3_1 (after ((Cert.KernelIdeal.Gen.hostOps3 (F := Ideal)).drop 2) (Kp3 m ρ c))))) := by
  show after Cert.KernelIdeal.Gen.hostOps3_4 (after Cert.KernelIdeal.Gen.hostOps3_3 (after Cert.KernelIdeal.Gen.hostOps3_2
    (after Cert.KernelIdeal.Gen.hostOps3_1 (after (Cert.KernelIdeal.Gen.hostOps3 (F := Ideal)) (Cert.KernelIdeal.Gen.W16 m ρ c))))) = _
  rw [after_split 2 (Cert.KernelIdeal.Gen.hostOps3 (F := Ideal)) (Cert.KernelIdeal.Gen.W16 m ρ c)]; rfl

end Cert.Bridge

end
-- ==== Proof.Carry.lean ====
import proofs.«114862_j326417514918_1_alg».proof.Proof.Stretches

/-!
# Each host section of the kernel's program as one line

Between two regions the kernel's host operations come as several short stretches (one ends wherever the program calls a
small function of its own: a select, the rectifier). Run one after the other they are one line, so a buffer that no
operation of the section writes is carried across the whole section in one step.
-/

noncomputable section

namespace Cert.Bridge

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)

/-- The first layer's host section without its last operation (the second region's bias row), as one line. -/
theorem W8_flat : Cert.KernelIdeal.Gen.W8 m ρ c = after (((Cert.KernelIdeal.Gen.hostOps1 (F := Ideal)).drop 3) ++ Cert.KernelIdeal.Gen.hostOps1_1 ++ Cert.KernelIdeal.Gen.hostOps1_2 ++ Cert.KernelIdeal.Gen.hostOps1_3
    ++ Cert.KernelIdeal.Gen.hostOps1_4 ++ Cert.KernelIdeal.Gen.hostOps1_5) (Kp1 m ρ c) := by
  rw [W8_eq]; simp only [after_app]

/-- The first layer's host section, as one line. -/
theorem W9_flat : Cert.KernelIdeal.Gen.W9 m ρ c = after (((Cert.KernelIdeal.Gen.hostOps1 (F := Ideal)).drop 3) ++ Cert.KernelIdeal.Gen.hostOps1_1 ++ Cert.KernelIdeal.Gen.hostOps1_2 ++ Cert.KernelIdeal.Gen.hostOps1_3
    ++ Cert.KernelIdeal.Gen.hostOps1_4 ++ Cert.KernelIdeal.Gen.hostOps1_5 ++ Cert.KernelIdeal.Gen.hostOps1_6) (Kp1 m ρ c) := by
  show after Cert.KernelIdeal.Gen.hostOps1_6 (Cert.KernelIdeal.Gen.W8 m ρ c) = _
  rw [W8_eq]; simp only [after_app]

/-- The second layer's host section, as one line. -/
theorem W15_flat : Cert.KernelIdeal.Gen.W15 m ρ c = after (((Cert.KernelIdeal.Gen.hostOps2 (F := Ideal)).drop 3) ++ Cert.KernelIdeal.Gen.hostOps2_1 ++ Cert.KernelIdeal.Gen.hostOps2_2 ++ Cert.KernelIdeal.Gen.hostOps2_3
    ++ Cert.KernelIdeal.Gen.hostOps2_4) (Kp2 m ρ c) := by
  rw [W15_eq]; simp only [after_app]

/-- The second layer's host section before its last stretch, as one line. -/
theorem W14_flat : Cert.KernelIdeal.Gen.W14 m ρ c = after (((Cert.KernelIdeal.Gen.hostOps2 (F := Ideal)).drop 3) ++ Cert.KernelIdeal.Gen.hostOps2_1 ++ Cert.KernelIdeal.Gen.hostOps2_2 ++ Cert.KernelIdeal.Gen.hostOps2_3)
    (Kp2 m ρ c) := by
  show after Cert.KernelIdeal.Gen.hostOps2_3 (after Cert.KernelIdeal.Gen.hostOps2_2 (after Cert.KernelIdeal.Gen.hostOps2_1 (after (Cert.KernelIdeal.Gen.hostOps2 (F := Ideal)) (Cert.KernelIdeal.Gen.W10 m ρ c)))) = _
  rw [after_split 3 (Cert.KernelIdeal.Gen.hostOps2 (F := Ideal)) (Cert.KernelIdeal.Gen.W10 m ρ c)]; simp only [after_app]; rfl

end Cert.Bridge

end
-- ==== Proof.HostIndex.lean ====
import proofs.«114862_j326417514918_1_alg».proof.Proof.Gen.KernelIdeal.Launch
import proofs.«114862_j326417514918_1_alg».proof.Proof.RefRun
import proofs.«114862_j326417514918_1_alg».proof.Proof.HostCuts
import Idealize.ShloMosaic.PureOps.Ideal

/-!
# The edge lists, in the two programs

Both programs cut the source and target rows out of the edge array, and before each graph-convolution layer append a
self-loop per node to each (a concatenation with the node counter), and before the propagation double the list by
appending the reversed edges. Each of these index lists is the same function of the edge array in both programs.
-/

noncomputable section

namespace Cert.Bridge

open Idealize.ShloMosaic Idealize.ShloMosaic.TcCoe Idealize.SL.Sem Idealize.ShloMosaic.StableHlo

set_option maxHeartbeats 2000000 in
/-- The source row of the edge array, as a list. -/
theorem slice_sources (VK : Valuation Cert.KernelIdeal.τ Cert.KernelIdeal.sig (Elt Ideal)) (VR : Valuation Cert.ReferenceIdeal.τ Cert.ReferenceIdeal.sig (Elt Ideal))
    (h : VK (Proc.devRef .tc Cert.KernelIdeal.main_arg1) = VR (Proc.devRef .tc Cert.ReferenceIdeal.main_arg1)) :
    after (Cert.KernelIdeal.Gen.hostOps0 (F := Ideal)) VK (Proc.devRef .tc Cert.KernelIdeal.main_v1) = after ((Cert.ReferenceIdeal.ValueP.ops (F := Ideal)).take 4) VR (Proc.devRef .tc Cert.ReferenceIdeal.main_v1) := by
  simp only [Cert.KernelIdeal.Gen.hostOps0, Cert.ReferenceIdeal.ValueP.ops, List.drop_succ_cons, List.drop_zero, List.take_succ_cons, List.take_zero]
  after_results_simp
  rw [h]
  rfl

set_option maxHeartbeats 2000000 in
/-- The target row of the edge array, as a list. -/
theorem slice_targets (VK : Valuation Cert.KernelIdeal.τ Cert.KernelIdeal.sig (Elt Ideal)) (VR : Valuation Cert.ReferenceIdeal.τ Cert.ReferenceIdeal.sig (Elt Ideal))
    (h : VK (Proc.devRef .tc Cert.KernelIdeal.main_arg1) = VR (Proc.devRef .tc Cert.ReferenceIdeal.main_arg1)) :
    after (Cert.KernelIdeal.Gen.hostOps0 (F := Ideal)) VK (Proc.devRef .tc Cert.KernelIdeal.main_v3) = after ((Cert.ReferenceIdeal.ValueP.ops (F := Ideal)).take 4) VR (Proc.devRef .tc Cert.ReferenceIdeal.main_v3) := by
  simp only [Cert.KernelIdeal.Gen.hostOps0, Cert.ReferenceIdeal.ValueP.ops, List.drop_succ_cons, List.drop_zero, List.take_succ_cons, List.take_zero]
  after_results_simp
  rw [h]
  rfl

/-- The first layer's sources with a self-loop per node appended. -/
theorem loops1_sources (VK : Valuation Cert.KernelIdeal.τ Cert.KernelIdeal.sig (Elt Ideal)) (VR : Valuation Cert.ReferenceIdeal.τ Cert.ReferenceIdeal.sig (Elt Ideal))
    (h : VK (Proc.devRef .tc Cert.KernelIdeal.main_v1) = VR (Proc.devRef .tc Cert.ReferenceIdeal.main_v1)) :
    after ((Cert.KernelIdeal.Gen.hostOps1 (F := Ideal)).take 3) VK (Proc.devRef .tc Cert.KernelIdeal.main_v8) = after (((Cert.ReferenceIdeal.ValueP.ops (F := Ideal)).drop 5).take 3) VR (Proc.devRef .tc Cert.ReferenceIdeal.main_v6) := by
  have eK : after ((Cert.KernelIdeal.Gen.hostOps1 (F := Ideal)).take 3) VK (Proc.devRef .tc Cert.KernelIdeal.main_v8)
      = concatenate Cert.KernelIdeal.S900000 0 [⟨Cert.KernelIdeal.S800000, VK (Proc.devRef .tc Cert.KernelIdeal.main_v1)⟩, ⟨Cert.KernelIdeal.S100000, iotaInDim Cert.KernelIdeal.S100000 32 0⟩] Cert.KernelIdeal.Facts₀.concatenates_S800000_S100000_S900000_d0 := rfl
  have eR : after (((Cert.ReferenceIdeal.ValueP.ops (F := Ideal)).drop 5).take 3) VR (Proc.devRef .tc Cert.ReferenceIdeal.main_v6)
      = concatenate Cert.ReferenceIdeal.S900000 0 [⟨Cert.ReferenceIdeal.S800000, VR (Proc.devRef .tc Cert.ReferenceIdeal.main_v1)⟩, ⟨Cert.ReferenceIdeal.S100000, iotaInDim Cert.ReferenceIdeal.S100000 32 0⟩] Cert.ReferenceIdeal.Facts₀.concatenates_S800000_S100000_S900000_d0 := rfl
  rw [eK, eR]
  exact concat_two_congr _ _ _ _ _ _ _ _ _ h rfl

/-- The first layer's targets with a self-loop per node appended. -/
theorem loops1_targets (VK : Valuation Cert.KernelIdeal.τ Cert.KernelIdeal.sig (Elt Ideal)) (VR : Valuation Cert.ReferenceIdeal.τ Cert.ReferenceIdeal.sig (Elt Ideal))
    (h : VK (Proc.devRef .tc Cert.KernelIdeal.main_v3) = VR (Proc.devRef .tc Cert.ReferenceIdeal.main_v3)) :
    after ((Cert.KernelIdeal.Gen.hostOps1 (F := Ideal)).take 3) VK (Proc.devRef .tc Cert.KernelIdeal.main_v9) = after (((Cert.ReferenceIdeal.ValueP.ops (F := Ideal)).drop 5).take 3) VR (Proc.devRef .tc Cert.ReferenceIdeal.main_v7) := by
  have eK : after ((Cert.KernelIdeal.Gen.hostOps1 (F := Ideal)).take 3) VK (Proc.devRef .tc Cert.KernelIdeal.main_v9)
      = concatenate Cert.KernelIdeal.S900000 0 [⟨Cert.KernelIdeal.S800000, VK (Proc.devRef .tc Cert.KernelIdeal.main_v3)⟩, ⟨Cert.KernelIdeal.S100000, iotaInDim Cert.KernelIdeal.S100000 32 0⟩] Cert.KernelIdeal.Facts₀.concatenates_S800000_S100000_S900000_d0 := rfl
  have eR : after (((Cert.ReferenceIdeal.ValueP.ops (F := Ideal)).drop 5).take 3) VR (Proc.devRef .tc Cert.ReferenceIdeal.main_v7)
      = concatenate Cert.ReferenceIdeal.S900000 0 [⟨Cert.ReferenceIdeal.S800000, VR (Proc.devRef .tc Cert.ReferenceIdeal.main_v3)⟩, ⟨Cert.ReferenceIdeal.S100000, iotaInDim Cert.ReferenceIdeal.S100000 32 0⟩] Cert.ReferenceIdeal.Facts₀.concatenates_S800000_S100000_S900000_d0 := rfl
  rw [eK, eR]
  exact concat_two_congr _ _ _ _ _ _ _ _ _ h rfl

/-- The second layer's sources with a self-loop per node appended. -/
theorem loops2_sources (VK : Valuation Cert.KernelIdeal.τ Cert.KernelIdeal.sig (Elt Ideal)) (VR : Valuation Cert.ReferenceIdeal.τ Cert.ReferenceIdeal.sig (Elt Ideal))
    (h : VK (Proc.devRef .tc Cert.KernelIdeal.main_v1) = VR (Proc.devRef .tc Cert.ReferenceIdeal.main_v1)) :
    after ((Cert.KernelIdeal.Gen.hostOps2 (F := Ideal)).take 3) VK (Proc.devRef .tc Cert.KernelIdeal.main_v60) = after (((Cert.ReferenceIdeal.ValueP.ops (F := Ideal)).drop 77).take 3) VR (Proc.devRef .tc Cert.ReferenceIdeal.main_v57) := by
  have eK : after ((Cert.KernelIdeal.Gen.hostOps2 (F := Ideal)).take 3) VK (Proc.devRef .tc Cert.KernelIdeal.main_v60)
      = concatenate Cert.KernelIdeal.S900000 0 [⟨Cert.KernelIdeal.S800000, VK (Proc.devRef .tc Cert.KernelIdeal.main_v1)⟩, ⟨Cert.KernelIdeal.S100000, iotaInDim Cert.KernelIdeal.S100000 32 0⟩] Cert.KernelIdeal.Facts₀.concatenates_S800000_S100000_S900000_d0 := rfl
  have eR : after (((Cert.ReferenceIdeal.ValueP.ops (F := Ideal)).drop 77).take 3) VR (Proc.devRef .tc Cert.ReferenceIdeal.main_v57)
      = concatenate Cert.ReferenceIdeal.S900000 0 [⟨Cert.ReferenceIdeal.S800000, VR (Proc.devRef .tc Cert.ReferenceIdeal.main_v1)⟩, ⟨Cert.ReferenceIdeal.S100000, iotaInDim Cert.ReferenceIdeal.S100000 32 0⟩] Cert.ReferenceIdeal.Facts₀.concatenates_S800000_S100000_S900000_d0 := rfl
  rw [eK, eR]
  exact concat_two_congr _ _ _ _ _ _ _ _ _ h rfl

/-- The second layer's targets with a self-loop per node appended. -/
theorem loops2_targets (VK : Valuation Cert.KernelIdeal.τ Cert.KernelIdeal.sig (Elt Ideal)) (VR : Valuation Cert.ReferenceIdeal.τ Cert.ReferenceIdeal.sig (Elt Ideal))
    (h : VK (Proc.devRef .tc Cert.KernelIdeal.main_v3) = VR (Proc.devRef .tc Cert.ReferenceIdeal.main_v3)) :
    after ((Cert.KernelIdeal.Gen.hostOps2 (F := Ideal)).take 3) VK (Proc.devRef .tc Cert.KernelIdeal.main_v61) = after (((Cert.ReferenceIdeal.ValueP.ops (F := Ideal)).drop 77).take 3) VR (Proc.devRef .tc Cert.ReferenceIdeal.main_v58) := by
  have eK : after ((Cert.KernelIdeal.Gen.hostOps2 (F := Ideal)).take 3) VK (Proc.devRef .tc Cert.KernelIdeal.main_v61)
      = concatenate Cert.KernelIdeal.S900000 0 [⟨Cert.KernelIdeal.S800000, VK (Proc.devRef .tc Cert.KernelIdeal.main_v3)⟩, ⟨Cert.KernelIdeal.S100000, iotaInDim Cert.KernelIdeal.S100000 32 0⟩] Cert.KernelIdeal.Facts₀.concatenates_S800000_S100000_S900000_d0 := rfl
  have eR : after (((Cert.ReferenceIdeal.ValueP.ops (F := Ideal)).drop 77).take 3) VR (Proc.devRef .tc Cert.ReferenceIdeal.main_v58)
      = concatenate Cert.ReferenceIdeal.S900000 0 [⟨Cert.ReferenceIdeal.S800000, VR (Proc.devRef .tc Cert.ReferenceIdeal.main_v3)⟩, ⟨Cert.ReferenceIdeal.S100000, iotaInDim Cert.ReferenceIdeal.S100000 32 0⟩] Cert.ReferenceIdeal.Facts₀.concatenates_S800000_S100000_S900000_d0 := rfl
  rw [eK, eR]
  exact concat_two_congr _ _ _ _ _ _ _ _ _ h rfl

/-- The undirected graph's sources: the edges followed by their reversals. -/
theorem doubled_sources (VK : Valuation Cert.KernelIdeal.τ Cert.KernelIdeal.sig (Elt Ideal)) (VR : Valuation Cert.ReferenceIdeal.τ Cert.ReferenceIdeal.sig (Elt Ideal))
    (h1 : VK (Proc.devRef .tc Cert.KernelIdeal.main_v1) = VR (Proc.devRef .tc Cert.ReferenceIdeal.main_v1)) (h3 : VK (Proc.devRef .tc Cert.KernelIdeal.main_v3) = VR (Proc.devRef .tc Cert.ReferenceIdeal.main_v3)) :
    after ((Cert.KernelIdeal.Gen.hostOps3 (F := Ideal)).take 2) VK (Proc.devRef .tc Cert.KernelIdeal.main_v110) = after (((Cert.ReferenceIdeal.ValueP.ops (F := Ideal)).drop 149).take 2) VR (Proc.devRef .tc Cert.ReferenceIdeal.main_v109) := by
  have eK : after ((Cert.KernelIdeal.Gen.hostOps3 (F := Ideal)).take 2) VK (Proc.devRef .tc Cert.KernelIdeal.main_v110)
      = concatenate Cert.KernelIdeal.S1600000 0 [⟨Cert.KernelIdeal.S800000, VK (Proc.devRef .tc Cert.KernelIdeal.main_v1)⟩, ⟨Cert.KernelIdeal.S800000, VK (Proc.devRef .tc Cert.KernelIdeal.main_v3)⟩] Cert.KernelIdeal.Facts₀.concatenates_S800000_S800000_S1600000_d0 := rfl
  have eR : after (((Cert.ReferenceIdeal.ValueP.ops (F := Ideal)).drop 149).take 2) VR (Proc.devRef .tc Cert.ReferenceIdeal.main_v109)
      = concatenate Cert.ReferenceIdeal.S1600000 0 [⟨Cert.ReferenceIdeal.S800000, VR (Proc.devRef .tc Cert.ReferenceIdeal.main_v1)⟩, ⟨Cert.ReferenceIdeal.S800000, VR (Proc.devRef .tc Cert.ReferenceIdeal.main_v3)⟩] Cert.ReferenceIdeal.Facts₀.concatenates_S800000_S800000_S1600000_d0 := rfl
  rw [eK, eR]
  exact concat_two_congr _ _ _ _ _ _ _ _ _ h1 h3

/-- The undirected graph's targets: the reversals' sources. -/
theorem doubled_targets (VK : Valuation Cert.KernelIdeal.τ Cert.KernelIdeal.sig (Elt Ideal)) (VR : Valuation Cert.ReferenceIdeal.τ Cert.ReferenceIdeal.sig (Elt Ideal))
    (h1 : VK (Proc.devRef .tc Cert.KernelIdeal.main_v1) = VR (Proc.devRef .tc Cert.ReferenceIdeal.main_v1)) (h3 : VK (Proc.devRef .tc Cert.KernelIdeal.main_v3) = VR (Proc.devRef .tc Cert.ReferenceIdeal.main_v3)) :
    after ((Cert.KernelIdeal.Gen.hostOps3 (F := Ideal)).take 2) VK (Proc.devRef .tc Cert.KernelIdeal.main_v111) = after (((Cert.ReferenceIdeal.ValueP.ops (F := Ideal)).drop 149).take 2) VR (Proc.devRef .tc Cert.ReferenceIdeal.main_v110) := by
  have eK : after ((Cert.KernelIdeal.Gen.hostOps3 (F := Ideal)).take 2) VK (Proc.devRef .tc Cert.KernelIdeal.main_v111)
      = concatenate Cert.KernelIdeal.S1600000 0 [⟨Cert.KernelIdeal.S800000, VK (Proc.devRef .tc Cert.KernelIdeal.main_v3)⟩, ⟨Cert.KernelIdeal.S800000, VK (Proc.devRef .tc Cert.KernelIdeal.main_v1)⟩] Cert.KernelIdeal.Facts₀.concatenates_S800000_S800000_S1600000_d0 := rfl
  have eR : after (((Cert.ReferenceIdeal.ValueP.ops (F := Ideal)).drop 149).take 2) VR (Proc.devRef .tc Cert.ReferenceIdeal.main_v110)
      = concatenate Cert.ReferenceIdeal.S1600000 0 [⟨Cert.ReferenceIdeal.S800000, VR (Proc.devRef .tc Cert.ReferenceIdeal.main_v3)⟩, ⟨Cert.ReferenceIdeal.S800000, VR (Proc.devRef .tc Cert.ReferenceIdeal.main_v1)⟩] Cert.ReferenceIdeal.Facts₀.concatenates_S800000_S800000_S1600000_d0 := rfl
  rw [eK, eR]
  exact concat_two_congr _ _ _ _ _ _ _ _ _ h3 h1

end Cert.Bridge

end
-- ==== Proof.HostLayer1.lean ====
import proofs.«114862_j326417514918_1_alg».proof.Proof.Gen.KernelIdeal.Launch
import proofs.«114862_j326417514918_1_alg».proof.Proof.RefRun
import Idealize.ShloMosaic.Lib.StableHlo.Run
import Idealize.ShloMosaic.PureOps.Ideal

/-!
# The first graph-convolution layer after its matrix product, in the two programs

Both programs follow the first matrix product with the same sixty-eight host operations: the degree of every node by a
scatter-add of ones over the edge list with self-loops, its inverse square root with isolated nodes sent to zero, the
normalised messages gathered along the edges and summed into their targets, the bias laid along the rows, and the
rectifier. They differ only in the names of their buffers. So from any two memories that agree on the product, on the
two index lists with self-loops and on the bias, the two stretches end with the same layer output.
-/

noncomputable section

namespace Cert.Bridge

open Idealize.ShloMosaic Idealize.ShloMosaic.TcCoe Idealize.SL.Sem Idealize.ShloMosaic.StableHlo

set_option maxRecDepth 16384 in
set_option maxHeartbeats 8000000 in
/-- The first layer's output is the same function of the product, the index lists and the bias in both programs. -/
theorem layer1 (VK : Valuation Cert.KernelIdeal.τ Cert.KernelIdeal.sig (Elt Ideal)) (VR : Valuation Cert.ReferenceIdeal.τ Cert.ReferenceIdeal.sig (Elt Ideal))
    (hlin : VK (Proc.devRef .tc Cert.KernelIdeal.main_v6) = VR (Proc.devRef .tc Cert.ReferenceIdeal.main_v4))
    (huu : VK (Proc.devRef .tc Cert.KernelIdeal.main_v8) = VR (Proc.devRef .tc Cert.ReferenceIdeal.main_v6))
    (hvv : VK (Proc.devRef .tc Cert.KernelIdeal.main_v9) = VR (Proc.devRef .tc Cert.ReferenceIdeal.main_v7))
    (hb : VK (Proc.devRef .tc Cert.KernelIdeal.main_arg4) = VR (Proc.devRef .tc Cert.ReferenceIdeal.main_arg4)) :
    after (Cert.KernelIdeal.Gen.hostOps1_5 (F := Ideal)) (after Cert.KernelIdeal.Gen.hostOps1_4 (after Cert.KernelIdeal.Gen.hostOps1_3 (after Cert.KernelIdeal.Gen.hostOps1_2
        (after Cert.KernelIdeal.Gen.hostOps1_1 (after (Cert.KernelIdeal.Gen.hostOps1.drop 3) VK))))) (Proc.devRef .tc Cert.KernelIdeal.main_v56)
      = after (((Cert.ReferenceIdeal.ValueP.ops (F := Ideal)).drop 8).take 68) VR (Proc.devRef .tc Cert.ReferenceIdeal.main_v54) := by
  simp only [Cert.KernelIdeal.Gen.hostOps1, Cert.KernelIdeal.Gen.hostOps1_1, Cert.KernelIdeal.Gen.hostOps1_2, Cert.KernelIdeal.Gen.hostOps1_3, Cert.KernelIdeal.Gen.hostOps1_4,
    Cert.KernelIdeal.Gen.hostOps1_5, Cert.ReferenceIdeal.ValueP.ops, List.drop_succ_cons, List.drop_zero, List.take_succ_cons, List.take_zero]
  after_results_simp
  rw [hlin, huu, hvv, hb]
  rfl

end Cert.Bridge

end
-- ==== Proof.HostLayer2.lean ====
import proofs.«114862_j326417514918_1_alg».proof.Proof.Gen.KernelIdeal.Launch
import proofs.«114862_j326417514918_1_alg».proof.Proof.RefRun
import Idealize.ShloMosaic.Lib.StableHlo.Run
import Idealize.ShloMosaic.PureOps.Ideal

/-!
# The second graph-convolution layer after its matrix product, in the two programs

The second layer repeats the first without the rectifier: the degree of every node, its inverse square root with isolated
nodes sent to zero, the normalised messages gathered along the edges and summed into their targets, and the second bias laid
along the rows — sixty-five host operations that differ between the two programs only in the names of their buffers. From
any two memories that agree on the second product, on the two index lists with self-loops and on the bias, the two
stretches end with the same layer output.
-/

noncomputable section

namespace Cert.Bridge

open Idealize.ShloMosaic Idealize.ShloMosaic.TcCoe Idealize.SL.Sem Idealize.ShloMosaic.StableHlo

set_option maxRecDepth 16384 in
set_option maxHeartbeats 8000000 in
/-- The second layer's output is the same function of the product, the index lists and the bias in both programs. -/
theorem layer2 (VK : Valuation Cert.KernelIdeal.τ Cert.KernelIdeal.sig (Elt Ideal)) (VR : Valuation Cert.ReferenceIdeal.τ Cert.ReferenceIdeal.sig (Elt Ideal))
    (hlin : VK (Proc.devRef .tc Cert.KernelIdeal.main_v58) = VR (Proc.devRef .tc Cert.ReferenceIdeal.main_v55))
    (huu : VK (Proc.devRef .tc Cert.KernelIdeal.main_v60) = VR (Proc.devRef .tc Cert.ReferenceIdeal.main_v57))
    (hvv : VK (Proc.devRef .tc Cert.KernelIdeal.main_v61) = VR (Proc.devRef .tc Cert.ReferenceIdeal.main_v58))
    (hb : VK (Proc.devRef .tc Cert.KernelIdeal.main_arg6) = VR (Proc.devRef .tc Cert.ReferenceIdeal.main_arg6)) :
    after (Cert.KernelIdeal.Gen.hostOps2_4 (F := Ideal)) (after Cert.KernelIdeal.Gen.hostOps2_3 (after Cert.KernelIdeal.Gen.hostOps2_2
        (after Cert.KernelIdeal.Gen.hostOps2_1 (after (Cert.KernelIdeal.Gen.hostOps2.drop 3) VK)))) (Proc.devRef .tc Cert.KernelIdeal.main_v107)
      = after (((Cert.ReferenceIdeal.ValueP.ops (F := Ideal)).drop 80).take 65) VR (Proc.devRef .tc Cert.ReferenceIdeal.main_v104) := by
  simp only [Cert.KernelIdeal.Gen.hostOps2, Cert.KernelIdeal.Gen.hostOps2_1, Cert.KernelIdeal.Gen.hostOps2_2, Cert.KernelIdeal.Gen.hostOps2_3, Cert.KernelIdeal.Gen.hostOps2_4, Cert.ReferenceIdeal.ValueP.ops,
    List.drop_succ_cons, List.drop_zero, List.take_succ_cons, List.take_zero]
  after_results_simp
  rw [hlin, huu, hvv, hb]
  rfl

end Cert.Bridge

end
-- ==== Proof.HostTail.lean ====
import proofs.«114862_j326417514918_1_alg».proof.Proof.Gen.KernelIdeal.Launch
import proofs.«114862_j326417514918_1_alg».proof.Proof.RefRun
import Idealize.ShloMosaic.Lib.StableHlo.Run
import Idealize.ShloMosaic.PureOps.Ideal

/-!
# From the node embeddings to the loss, in the two programs

After the third affine layer both programs run the same one hundred and sixty-six host operations: the degrees of the
undirected graph without self-loops, two hops of normalised propagation of the embeddings, the anchor, positive and negative
rows picked by the batch, their cosine similarities, and the mean contrastive loss. The operations differ between the two
programs only in the names of their buffers, so from any two memories that agree on the embeddings, on the two doubled index
lists and on the batch, the two stretches end with the same scalar.
-/

noncomputable section

namespace Cert.Bridge

open Idealize.ShloMosaic Idealize.ShloMosaic.TcCoe Idealize.SL.Sem Idealize.ShloMosaic.StableHlo

set_option maxRecDepth 16384 in
set_option maxHeartbeats 40000000 in
/-- The loss is the same function of the embeddings, the doubled index lists and the batch in both programs. -/
theorem tail (VK : Valuation Cert.KernelIdeal.τ Cert.KernelIdeal.sig (Elt Ideal)) (VR : Valuation Cert.ReferenceIdeal.τ Cert.ReferenceIdeal.sig (Elt Ideal))
    (hemb : VK (Proc.devRef .tc Cert.KernelIdeal.main_v109) = VR (Proc.devRef .tc Cert.ReferenceIdeal.main_v108))
    (huu : VK (Proc.devRef .tc Cert.KernelIdeal.main_v110) = VR (Proc.devRef .tc Cert.ReferenceIdeal.main_v109))
    (hvv : VK (Proc.devRef .tc Cert.KernelIdeal.main_v111) = VR (Proc.devRef .tc Cert.ReferenceIdeal.main_v110))
    (hbatch : VK (Proc.devRef .tc Cert.KernelIdeal.main_arg2) = VR (Proc.devRef .tc Cert.ReferenceIdeal.main_arg2)) :
    after (Cert.KernelIdeal.Gen.hostOps3_4 (F := Ideal)) (after Cert.KernelIdeal.Gen.hostOps3_3 (after Cert.KernelIdeal.Gen.hostOps3_2
        (after Cert.KernelIdeal.Gen.hostOps3_1 (after (Cert.KernelIdeal.Gen.hostOps3.drop 2) VK)))) (Proc.devRef .tc Cert.KernelIdeal.main_v236)
      = after ((Cert.ReferenceIdeal.ValueP.ops (F := Ideal)).drop 151) VR (Proc.devRef .tc Cert.ReferenceIdeal.main_v235) := by
  simp only [Cert.KernelIdeal.Gen.hostOps3, Cert.KernelIdeal.Gen.hostOps3_1, Cert.KernelIdeal.Gen.hostOps3_2, Cert.KernelIdeal.Gen.hostOps3_3, Cert.KernelIdeal.Gen.hostOps3_4, Cert.ReferenceIdeal.ValueP.ops,
    List.drop_succ_cons, List.drop_zero, List.take_succ_cons, List.take_zero]
  after_results_simp
  rw [hemb, huu, hvv, hbatch]
  rfl

end Cert.Bridge

end
-- ==== Proof.LibPlainProduct.lean ====
import Idealize.ShloMosaic.Lib.StackMember
import Idealize.ShloMosaic.Lib.IdealHost
import Idealize.ShloMosaic.Lib.Pipeline.Value

/-!
# Plain matrix products, a transpose, and the logistic function spelled out, read at an index over the extended reals

A dot-dimensions record that contracts the first operand's second axis with the second operand's first axis and has
no batch axis is the plain product of an `m × k` by a `k × n` matrix, whatever proof of well-formedness it carries.
For such a record the host's `dot_general` at `(a, b)` is the sum over the contracted coordinate `c` of
`A (a, c) * B (c, b)`, and a kernel's `matmul` into an accumulator is the accumulator's entry plus that sum. A transposed
matrix at `(a, b)` is the matrix at `(b, a)`. And the reference's expansion of the logistic function into negate,
exponential, add and divide, with its two ones broadcast from a scalar constant, is `Ideal.logistic` of the element.
-/

namespace PlainProduct

open Idealize.ShloMosaic Idealize.ShloMosaic.ValueIdx

/-- The host's product, for any record that is the plain one. -/
theorem dotGeneral_at {m k n : ℕ} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    Host.dotGeneral d prec A B (ix2 a b) = ∑ c : Fin k, A (ix2 a c) * B (ix2 c b) := by
  subst hd
  exact StackMember.dotGeneral_plain_apply prec A B a b

/-- A kernel's product into an accumulator, for any record that is the plain one: the accumulator's entry plus the
    sum. -/
theorem matmul_at {m k n : ℕ} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (acc : FVec Ideal ⟨2, ![m, n]⟩ .f32) (a : Fin m) (b : Fin n) :
    matmul d prec A B acc (ix2 a b) = acc (ix2 a b) + ∑ c : Fin k, A (ix2 a c) * B (ix2 c b) := by
  have h := dotGeneral_at d hd prec A B a b
  show FloatOps.matmul d prec A B acc (ix2 a b) = _
  rw [Ideal.matmul_apply]
  refine congrArg (acc (ix2 a b) + ·) ?_
  rw [← h]
  show _ = FloatOps.dotGeneral d prec _ A B (ix2 a b)
  rw [Ideal.dotGeneral_apply]

/-- The reference's logistic function, spelled `1 / (1 + exp (-s))` with the ones broadcast from the scalar constant
    `1.0`, is the logistic function of the element. -/
theorem logistic_spelled_at {T : Shape} (h : (⟨0, ![]⟩ : Shape).BroadcastsInDim T ![]) (s : FVec Ideal T .f32) (i : T.Idx) :
    Host.divf (broadcastInDim T ![] h (constant (F := Ideal) ⟨0, ![]⟩ .f32 0x3F800000#32))
      (addf (broadcastInDim T ![] h (constant (F := Ideal) ⟨0, ![]⟩ .f32 0x3F800000#32)) (Host.exp (Host.negf s))) i
      = Ideal.logistic (s i) := by
  rw [hostDivf_apply, addf_apply, broadcastInDim_scalar_apply, constant_apply, Ideal.ofBits_one_f32]
  rfl

end PlainProduct
-- ==== Proof.RegionValue0.lean ====
import proofs.«114862_j326417514918_1_alg».proof.Proof.Gen.KernelIdeal.Frame
import proofs.«114862_j326417514918_1_alg».proof.Proof.LibPlainProduct
import Idealize.ShloMosaic.Lib.Pipeline.Value
import Idealize.ShloMosaic.Lib.ValueIdx
import Idealize.ShloMosaic.Lib.ValueLayout

/-!
# The first linear layer's output array, entry by entry

The region computes, tile of 5000 rows by tile, `x · w + b` with the bias row `b` repeated down the rows. Over the
extended reals narrowing to bf16 changes nothing, the product into a zero accumulator at `(p, q)` is `0` plus the sum
over the contracted coordinate, and the row broadcast reads row `0`. Tile `t` of the output holds rows
`5000 t … 5000 t + 4999`; it reads the same rows of `x`, all of `w` and all of `b`. So after the region the output at
`(r, j)` is `(0 + ∑ k, x (r, k) * w (k, j)) + b (0, j)`, written by tile `r / 5000` at its row `r % 5000`.
-/

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.RegionValue

open Cert.KernelIdeal

/-- The product's dimension record is the plain `5000 × 256` by `256 × 256` one. -/
theorem dims0_plain : dot_S5000x256_S256x256_S5000x256_1_0_0_1_n_n = DotDims.plain 5000 256 256 := rfl

/-- What a tile's body stores, at row `p` and column `q` of the tile: the zero accumulator plus the row of `x0` against
    the column of `x1`, plus the bias row at `q`. -/
theorem payload0_at (x0 : Vec Ideal S5000x256 .f32) (x1 : Vec Ideal S256x256 .f32) (x2 : Vec Ideal S1x256 .f32)
    (p : Fin 5000) (q : Fin 256) :
    Gen.k0_pay1 (F := Ideal) x0 x1 x2 (ix2 p q)
      = (0 + ∑ k : Fin 256, x0 (ix2 p k) * x1 (ix2 k q)) + x2 (ix2 (0 : Fin 1) q) := by
  unfold Gen.k0_pay1
  rw [addf_apply, PlainProduct.matmul_at _ dims0_plain, constant_apply, Ideal.ofBits_zero_f32,
    broadcastTo_1b_ab_apply, shapeCast_self]
  rfl

/-- The whole output as one function of the three input arrays: at `(r, j)`, `0` plus row `r` of `X` against column `j`
    of `W`, plus the bias row at `j`. -/
def linear0 (X : S100000x256.Idx → EReal) (W : S256x256.Idx → EReal) (B : S1x256.Idx → EReal) : S100000x256.Idx → EReal :=
  fun i => (0 + ∑ k : Fin 256, X (ix2 (i 0 : Fin 100000) k) * W (ix2 k (i 1 : Fin 256))) + B (ix2 (0 : Fin 1) (i 1 : Fin 256))

/-- The whole-array function at `(r, j)`, written out. -/
theorem linear0_apply (X : S100000x256.Idx → EReal) (W : S256x256.Idx → EReal) (B : S1x256.Idx → EReal)
    (r : Fin 100000) (j : Fin 256) :
    linear0 X W B (ix2 r j) = (0 + ∑ k : Fin 256, X (ix2 r k) * W (ix2 k j)) + B (ix2 (0 : Fin 1) j) := rfl

/-- A tile's stored entry is the whole-array function at the entry's place in the array, as soon as the tile's row of
    `x0` is the array's row there, `x1` and `x2` are the whole weight and bias arrays, and the columns agree. -/
theorem tile_entry0 (X : S100000x256.Idx → EReal) (W : S256x256.Idx → EReal) (B : S1x256.Idx → EReal)
    (x0 : Vec Ideal S5000x256 .f32) (x1 : Vec Ideal S256x256 .f32) (x2 : Vec Ideal S1x256 .f32)
    (p : Fin 5000) (q : Fin 256) (i : S100000x256.Idx)
    (hrow : ∀ k : Fin 256, x0 (ix2 p k) = X (ix2 (i 0 : Fin 100000) k)) (hw : x1 = W) (hb : x2 = B)
    (hcol : (i 1 : Fin 256) = q) :
    Gen.k0_pay1 (F := Ideal) x0 x1 x2 (ix2 p q) = linear0 X W B i := by
  rw [payload0_at, hw, hb]
  unfold linear0
  rw [hcol]
  exact congrArg (fun s => (0 + s) + B (ix2 (0 : Fin 1) q)) (Finset.sum_congr rfl fun k _ => by rw [hrow k])

theorem zero_offsets : (![0, 0] : Fin 2 → Nat) = fun _ => 0 := funext fun a => by fin_cases a <;> rfl

/-- The printed index maps over the 20 tiles: the input rows and the output rows move together, one tile of rows per
    point, on the one column block; the weights and the bias stay at block `(0, 0)`. -/
theorem tiles0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

section
variable (V : (c : Dev nD) → (b : Ref sig .tc) → Buf (Elt Ideal) ((c : Thread nD τ).loc b))

/-- WHAT TILE `t` WRITES BACK is tile `t` of the whole-array function of the three input arrays as the region finds
    them. -/
theorem flushed0_eq (c : Dev nD) (t : Fin cfg0.N) :
    (Gen.dat0 (F := Ideal) V c).flushed 3 t
      = ((cfg0.win 3).blk t).view.read (Elt Ideal) (linear0 (V c main_arg0) (V c main_arg3) (V c main_v5)) := by
  show (cfg0.win 3).cut (grid0.coords t) ((Gen.dat0 (F := Ideal) V c).after 3 t) = _
  rw [Gen.after0_3]
  unfold Gen.out0_3
  rw [View.canon_unit_zero zero_offsets]
  simp only [View.ld_unit_zero (S := S5000x256) zero_offsets, View.ld_unit_zero (S := S256x256) zero_offsets,
    View.ld_unit_zero (S := S1x256) zero_offsets]
  obtain ⟨e00, e01, e10, e11, e20, e21, e30, e31⟩ := tiles0 t
  funext y
  obtain ⟨p, q, rfl⟩ : ∃ (p : Fin 5000) (q : Fin 256), y = ix2 p q := ⟨y 0, y 1, eq_ix2 y⟩
  show Gen.k0_pay1 (F := Ideal) (Gen.iblk0 V c 0 t) (Gen.iblk0 V c 1 t) (Gen.iblk0 V c 2 t) (ix2 p q)
    = linear0 (V c main_arg0) (V c main_arg3) (V c main_v5) (((cfg0.win 3).blk t).view.emb (ix2 p q))
  refine tile_entry0 (V c main_arg0) (V c main_arg3) (V c main_v5) _ _ _ p q _ (fun k => ?_) ?_ ?_ ?_
  · show V c main_arg0 (((cfg0.win 0).blk t).view.emb (ix2 p k)) = V c main_arg0 _
    refine congrArg (V c main_arg0) (funext fun a => Fin.ext ?_)
    match a with
    | ⟨0, _⟩ => show win0_0.index t (0 : Fin 2) * 5000 + 1 * p.val = win0_3.index t (0 : Fin 2) * 5000 + 1 * p.val; omega
    | ⟨1, _⟩ => show win0_0.index t (1 : Fin 2) * 256 + 1 * k.val = k.val; omega
  · funext j
    show V c main_arg3 (((cfg0.win 1).blk t).view.emb j) = V c main_arg3 j
    refine congrArg (V c main_arg3) (funext fun a => Fin.ext ?_)
    match a with
    | ⟨0, _⟩ => show win0_1.index t (0 : Fin 2) * 256 + 1 * (j 0).val = (j 0).val; omega
    | ⟨1, _⟩ => show win0_1.index t (1 : Fin 2) * 256 + 1 * (j 1).val = (j 1).val; omega
  · funext j
    show V c main_v5 (((cfg0.win 2).blk t).view.emb j) = V c main_v5 j
    refine congrArg (V c main_v5) (funext fun a => Fin.ext ?_)
    match a with
    | ⟨0, _⟩ => show win0_2.index t (0 : Fin 2) * 1 + 1 * (j 0).val = (j 0).val; omega
    | ⟨1, _⟩ => show win0_2.index t (1 : Fin 2) * 256 + 1 * (j 1).val = (j 1).val; omega
  · refine Fin.ext ?_
    show win0_3.index t (1 : Fin 2) * 256 + 1 * q.val = q.val
    omega

/-- An entry of the array is in tile `t` iff each coordinate is in the tile's range on its axis. -/
theorem mem_tile0 (t : Fin cfg0.N) (i : S100000x256.Idx) :
    i ∈ ((cfg0.win 3).blk t).view.set ↔ ∀ a : Fin 2, win0_3.index t a * S5000x256.size a ≤ (i a).val ∧ (i a).val < win0_3.index t a * S5000x256.size a + S5000x256.size a := by
  show i ∈ ((View.whole main_v6).slice (win0_3.rect t)).set ↔ _
  rw [View.set_slice_whole, Rect.mem_set_unit]
  exact Iff.rfl

/-- Every entry is in the tile of its row: row `r` is in tile `r / 5000`. -/
theorem covered0 (i : S100000x256.Idx) :
    ∃ t : Fin cfg0.N, (cfg0.win 3).flush t = true ∧ i ∈ ((cfg0.win 3).blk t).view.set := by
  have hi0 : (i 0).val < 100000 := (i 0).isLt
  have hi1 : (i 1).val < 256 := (i 1).isLt
  have hlt : (i 0).val / 5000 < cfg0.N := by
    show (i 0).val / 5000 < grid0.N
    rw [Gen.N_0]; omega
  obtain ⟨-, -, -, -, -, -, e30, e31⟩ := tiles0 ⟨(i 0).val / 5000, hlt⟩
  have e30' : win0_3.index ⟨(i 0).val / 5000, hlt⟩ (0 : Fin 2) = (i 0).val / 5000 := e30
  refine ⟨⟨(i 0).val / 5000, hlt⟩, Gen.flush0_3 _, ?_⟩
  rw [mem_tile0]
  intro a
  match a with
  | ⟨0, _⟩ =>
    show win0_3.index ⟨(i 0).val / 5000, hlt⟩ (0 : Fin 2) * 5000 ≤ (i 0).val ∧ (i 0).val < win0_3.index ⟨(i 0).val / 5000, hlt⟩ (0 : Fin 2) * 5000 + 5000
    omega
  | ⟨1, _⟩ =>
    show win0_3.index ⟨(i 0).val / 5000, hlt⟩ (1 : Fin 2) * 256 ≤ (i 1).val ∧ (i 1).val < win0_3.index ⟨(i 0).val / 5000, hlt⟩ (1 : Fin 2) * 256 + 256
    omega

/-- THE ARRAY after the region is the whole-array function of the three input arrays as the region finds them. -/
theorem array0 (c : Dev nD) :
    (Gen.dat0 (F := Ideal) V c).arrAt 3 cfg0.N = linear0 (V c main_arg0) (V c main_arg3) (V c main_v5) :=
  (Gen.dat0 (F := Ideal) V c).arrAt_eq_of_cover 3 _ (fun t _ => flushed0_eq V c t) covered0

/-- Entry `(r, j)` of the output after the region: `0` plus row `r` of the input against column `j` of the weights, plus
    the bias at `j`. -/
theorem final0_fn (c : Dev nD) (r : Fin 100000) (j : Fin 256) :
    (Gen.dat0 (F := Ideal) V c).arrAt 3 cfg0.N (ix2 r j)
      = linear0 (V c main_arg0) (V c main_arg3) (V c main_v5) (ix2 r j) :=
  congrFun (array0 V c) (ix2 r j)

/-- The same entry with the sum written out; the product and the sums are the extended reals'. -/
theorem final0 (c : Dev nD) (r : Fin 100000) (j : Fin 256) :
    (Gen.dat0 (F := Ideal) V c).arrAt 3 cfg0.N (ix2 r j)
      = HAdd.hAdd (α := EReal) (β := EReal)
          ((0 : EReal) + ∑ k : Fin 256, HMul.hMul (α := EReal) (β := EReal) (V c main_arg0 (ix2 r k)) (V c main_arg3 (ix2 k j)))
          (V c main_v5 (ix2 (0 : Fin 1) j)) := by
  rw [array0 V c]
  rfl

end

end Cert.KernelIdeal.RegionValue

end
-- ==== Proof.RegionValue1.lean ====
import proofs.«114862_j326417514918_1_alg».proof.Proof.Gen.KernelIdeal.Frame
import proofs.«114862_j326417514918_1_alg».proof.Proof.LibPlainProduct
import Idealize.ShloMosaic.Lib.Pipeline.Value
import Idealize.ShloMosaic.Lib.ValueIdx
import Idealize.ShloMosaic.Lib.ValueLayout

/-!
# The second linear layer's output array, entry by entry

The region computes, tile of 5000 rows by tile, `x · w + b` with the bias row `b` repeated down the rows. Over the
extended reals narrowing to bf16 changes nothing, the product into a zero accumulator at `(p, q)` is `0` plus the sum
over the contracted coordinate, and the row broadcast reads row `0`. Tile `t` of the output holds rows
`5000 t … 5000 t + 4999`; it reads the same rows of `x`, all of `w` and all of `b`. So after the region the output at
`(r, j)` is `(0 + ∑ k, x (r, k) * w (k, j)) + b (0, j)`, written by tile `r / 5000` at its row `r % 5000`.
-/

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.RegionValue

open Cert.KernelIdeal

/-- The product's dimension record is the plain `5000 × 256` by `256 × 256` one. -/
theorem dims1_plain : dot_S5000x256_S256x256_S5000x256_1_0_0_1_n_n = DotDims.plain 5000 256 256 := rfl

/-- What a tile's body stores, at row `p` and column `q` of the tile: the zero accumulator plus the row of `x0` against
    the column of `x1`, plus the bias row at `q`. -/
theorem payload1_at (x0 : Vec Ideal S5000x256 .f32) (x1 : Vec Ideal S256x256 .f32) (x2 : Vec Ideal S1x256 .f32)
    (p : Fin 5000) (q : Fin 256) :
    Gen.k1_pay1 (F := Ideal) x0 x1 x2 (ix2 p q)
      = (0 + ∑ k : Fin 256, x0 (ix2 p k) * x1 (ix2 k q)) + x2 (ix2 (0 : Fin 1) q) := by
  unfold Gen.k1_pay1
  rw [addf_apply, PlainProduct.matmul_at _ dims1_plain, constant_apply, Ideal.ofBits_zero_f32,
    broadcastTo_1b_ab_apply, shapeCast_self, shapeCast_self]
  rfl

/-- The whole output as one function of the three input arrays: at `(r, j)`, `0` plus row `r` of `X` against column `j`
    of `W`, plus the bias row at `j`. -/
def linear1 (X : S100000x256.Idx → EReal) (W : S256x256.Idx → EReal) (B : S1x256.Idx → EReal) : S100000x256.Idx → EReal :=
  fun i => (0 + ∑ k : Fin 256, X (ix2 (i 0 : Fin 100000) k) * W (ix2 k (i 1 : Fin 256))) + B (ix2 (0 : Fin 1) (i 1 : Fin 256))

/-- The whole-array function at `(r, j)`, written out. -/
theorem linear1_apply (X : S100000x256.Idx → EReal) (W : S256x256.Idx → EReal) (B : S1x256.Idx → EReal)
    (r : Fin 100000) (j : Fin 256) :
    linear1 X W B (ix2 r j) = (0 + ∑ k : Fin 256, X (ix2 r k) * W (ix2 k j)) + B (ix2 (0 : Fin 1) j) := rfl

/-- A tile's stored entry is the whole-array function at the entry's place in the array, as soon as the tile's row of
    `x0` is the array's row there, `x1` and `x2` are the whole weight and bias arrays, and the columns agree. -/
theorem tile_entry1 (X : S100000x256.Idx → EReal) (W : S256x256.Idx → EReal) (B : S1x256.Idx → EReal)
    (x0 : Vec Ideal S5000x256 .f32) (x1 : Vec Ideal S256x256 .f32) (x2 : Vec Ideal S1x256 .f32)
    (p : Fin 5000) (q : Fin 256) (i : S100000x256.Idx)
    (hrow : ∀ k : Fin 256, x0 (ix2 p k) = X (ix2 (i 0 : Fin 100000) k)) (hw : x1 = W) (hb : x2 = B)
    (hcol : (i 1 : Fin 256) = q) :
    Gen.k1_pay1 (F := Ideal) x0 x1 x2 (ix2 p q) = linear1 X W B i := by
  rw [payload1_at, hw, hb]
  unfold linear1
  rw [hcol]
  exact congrArg (fun s => (0 + s) + B (ix2 (0 : Fin 1) q)) (Finset.sum_congr rfl fun k _ => by rw [hrow k])

theorem zero_offsets1 : (![0, 0] : Fin 2 → Nat) = fun _ => 0 := funext fun a => by fin_cases a <;> rfl

/-- The printed index maps over the 20 tiles: the input rows and the output rows move together, one tile of rows per
    point, on the one column block; the weights and the bias stay at block `(0, 0)`. -/
theorem tiles1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

section
variable (V : (c : Dev nD) → (b : Ref sig .tc) → Buf (Elt Ideal) ((c : Thread nD τ).loc b))

/-- WHAT TILE `t` WRITES BACK is tile `t` of the whole-array function of the three input arrays as the region finds
    them. -/
theorem flushed1_eq (c : Dev nD) (t : Fin cfg1.N) :
    (Gen.dat1 (F := Ideal) V c).flushed 3 t
      = ((cfg1.win 3).blk t).view.read (Elt Ideal) (linear1 (V c main_v56) (V c main_arg5) (V c main_v57)) := by
  show (cfg1.win 3).cut (grid1.coords t) ((Gen.dat1 (F := Ideal) V c).after 3 t) = _
  rw [Gen.after1_3]
  unfold Gen.out1_3
  rw [View.canon_unit_zero zero_offsets1]
  simp only [View.ld_unit_zero (S := S5000x256) zero_offsets1, View.ld_unit_zero (S := S256x256) zero_offsets1,
    View.ld_unit_zero (S := S1x256) zero_offsets1]
  obtain ⟨e00, e01, e10, e11, e20, e21, e30, e31⟩ := tiles1 t
  funext y
  obtain ⟨p, q, rfl⟩ : ∃ (p : Fin 5000) (q : Fin 256), y = ix2 p q := ⟨y 0, y 1, eq_ix2 y⟩
  show Gen.k1_pay1 (F := Ideal) (Gen.iblk1 V c 0 t) (Gen.iblk1 V c 1 t) (Gen.iblk1 V c 2 t) (ix2 p q)
    = linear1 (V c main_v56) (V c main_arg5) (V c main_v57) (((cfg1.win 3).blk t).view.emb (ix2 p q))
  refine tile_entry1 (V c main_v56) (V c main_arg5) (V c main_v57) _ _ _ p q _ (fun k => ?_) ?_ ?_ ?_
  · show V c main_v56 (((cfg1.win 0).blk t).view.emb (ix2 p k)) = V c main_v56 _
    refine congrArg (V c main_v56) (funext fun a => Fin.ext ?_)
    match a with
    | ⟨0, _⟩ => show win1_0.index t (0 : Fin 2) * 5000 + 1 * p.val = win1_3.index t (0 : Fin 2) * 5000 + 1 * p.val; omega
    | ⟨1, _⟩ => show win1_0.index t (1 : Fin 2) * 256 + 1 * k.val = k.val; omega
  · funext j
    show V c main_arg5 (((cfg1.win 1).blk t).view.emb j) = V c main_arg5 j
    refine congrArg (V c main_arg5) (funext fun a => Fin.ext ?_)
    match a with
    | ⟨0, _⟩ => show win1_1.index t (0 : Fin 2) * 256 + 1 * (j 0).val = (j 0).val; omega
    | ⟨1, _⟩ => show win1_1.index t (1 : Fin 2) * 256 + 1 * (j 1).val = (j 1).val; omega
  · funext j
    show V c main_v57 (((cfg1.win 2).blk t).view.emb j) = V c main_v57 j
    refine congrArg (V c main_v57) (funext fun a => Fin.ext ?_)
    match a with
    | ⟨0, _⟩ => show win1_2.index t (0 : Fin 2) * 1 + 1 * (j 0).val = (j 0).val; omega
    | ⟨1, _⟩ => show win1_2.index t (1 : Fin 2) * 256 + 1 * (j 1).val = (j 1).val; omega
  · refine Fin.ext ?_
    show win1_3.index t (1 : Fin 2) * 256 + 1 * q.val = q.val
    omega

/-- An entry of the array is in tile `t` iff each coordinate is in the tile's range on its axis. -/
theorem mem_tile1 (t : Fin cfg1.N) (i : S100000x256.Idx) :
    i ∈ ((cfg1.win 3).blk t).view.set ↔ ∀ a : Fin 2, win1_3.index t a * S5000x256.size a ≤ (i a).val ∧ (i a).val < win1_3.index t a * S5000x256.size a + S5000x256.size a := by
  show i ∈ ((View.whole main_v58).slice (win1_3.rect t)).set ↔ _
  rw [View.set_slice_whole, Rect.mem_set_unit]
  exact Iff.rfl

/-- Every entry is in the tile of its row: row `r` is in tile `r / 5000`. -/
theorem covered1 (i : S100000x256.Idx) :
    ∃ t : Fin cfg1.N, (cfg1.win 3).flush t = true ∧ i ∈ ((cfg1.win 3).blk t).view.set := by
  have hi0 : (i 0).val < 100000 := (i 0).isLt
  have hi1 : (i 1).val < 256 := (i 1).isLt
  have hlt : (i 0).val / 5000 < cfg1.N := by
    show (i 0).val / 5000 < grid1.N
    rw [Gen.N_1]; omega
  obtain ⟨-, -, -, -, -, -, e30, e31⟩ := tiles1 ⟨(i 0).val / 5000, hlt⟩
  have e30' : win1_3.index ⟨(i 0).val / 5000, hlt⟩ (0 : Fin 2) = (i 0).val / 5000 := e30
  refine ⟨⟨(i 0).val / 5000, hlt⟩, Gen.flush1_3 _, ?_⟩
  rw [mem_tile1]
  intro a
  match a with
  | ⟨0, _⟩ =>
    show win1_3.index ⟨(i 0).val / 5000, hlt⟩ (0 : Fin 2) * 5000 ≤ (i 0).val ∧ (i 0).val < win1_3.index ⟨(i 0).val / 5000, hlt⟩ (0 : Fin 2) * 5000 + 5000
    omega
  | ⟨1, _⟩ =>
    show win1_3.index ⟨(i 0).val / 5000, hlt⟩ (1 : Fin 2) * 256 ≤ (i 1).val ∧ (i 1).val < win1_3.index ⟨(i 0).val / 5000, hlt⟩ (1 : Fin 2) * 256 + 256
    omega

/-- THE ARRAY after the region is the whole-array function of the three input arrays as the region finds them. -/
theorem array1 (c : Dev nD) :
    (Gen.dat1 (F := Ideal) V c).arrAt 3 cfg1.N = linear1 (V c main_v56) (V c main_arg5) (V c main_v57) :=
  (Gen.dat1 (F := Ideal) V c).arrAt_eq_of_cover 3 _ (fun t _ => flushed1_eq V c t) covered1

/-- Entry `(r, j)` of the output after the region: `0` plus row `r` of the input against column `j` of the weights, plus
    the bias at `j`. -/
theorem final1_fn (c : Dev nD) (r : Fin 100000) (j : Fin 256) :
    (Gen.dat1 (F := Ideal) V c).arrAt 3 cfg1.N (ix2 r j)
      = linear1 (V c main_v56) (V c main_arg5) (V c main_v57) (ix2 r j) :=
  congrFun (array1 V c) (ix2 r j)

/-- The same entry with the sum written out; the product and the sums are the extended reals'. -/
theorem final1 (c : Dev nD) (r : Fin 100000) (j : Fin 256) :
    (Gen.dat1 (F := Ideal) V c).arrAt 3 cfg1.N (ix2 r j)
      = HAdd.hAdd (α := EReal) (β := EReal)
          ((0 : EReal) + ∑ k : Fin 256, HMul.hMul (α := EReal) (β := EReal) (V c main_v56 (ix2 r k)) (V c main_arg5 (ix2 k j)))
          (V c main_v57 (ix2 (0 : Fin 1) j)) := by
  rw [array1 V c]
  rfl

end

end Cert.KernelIdeal.RegionValue

end
-- ==== Proof.RegionValue2.lean ====
import proofs.«114862_j326417514918_1_alg».proof.Proof.Gen.KernelIdeal.Frame
import proofs.«114862_j326417514918_1_alg».proof.Proof.LibPlainProduct
import Idealize.ShloMosaic.Lib.Pipeline.Value
import Idealize.ShloMosaic.Lib.ValueIdx
import Idealize.ShloMosaic.Lib.ValueLayout

/-!
# The third linear layer's output array, entry by entry

The region computes, tile of 5000 rows by tile, `x · w + b` with the bias row `b` repeated down the rows. Over the
extended reals narrowing to bf16 changes nothing, the product into a zero accumulator at `(p, q)` is `0` plus the sum
over the contracted coordinate, and the row broadcast reads row `0`. Tile `t` of the output holds rows
`5000 t … 5000 t + 4999`; it reads the same rows of `x`, all of `w` and all of `b`. So after the region the output at
`(r, j)` is `(0 + ∑ k, x (r, k) * w (k, j)) + b (0, j)`, written by tile `r / 5000` at its row `r % 5000`.
-/

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.RegionValue

open Cert.KernelIdeal

/-- The product's dimension record is the plain `5000 × 256` by `256 × 64` one. -/
theorem dims2_plain : dot_S5000x256_S256x64_S5000x64_1_0_0_1_n_n = DotDims.plain 5000 256 64 := rfl

/-- What a tile's body stores, at row `p` and column `q` of the tile: the zero accumulator plus the row of `x0` against
    the column of `x1`, plus the bias row at `q`. -/
theorem payload2_at (x0 : Vec Ideal S5000x256 .f32) (x1 : Vec Ideal S256x64 .f32) (x2 : Vec Ideal S1x64 .f32)
    (p : Fin 5000) (q : Fin 64) :
    Gen.k2_pay1 (F := Ideal) x0 x1 x2 (ix2 p q)
      = (0 + ∑ k : Fin 256, x0 (ix2 p k) * x1 (ix2 k q)) + x2 (ix2 (0 : Fin 1) q) := by
  unfold Gen.k2_pay1
  rw [addf_apply, PlainProduct.matmul_at _ dims2_plain, constant_apply, Ideal.ofBits_zero_f32,
    broadcastTo_1b_ab_apply, shapeCast_self, shapeCast_self]
  rfl

/-- The whole output as one function of the three input arrays: at `(r, j)`, `0` plus row `r` of `X` against column `j`
    of `W`, plus the bias row at `j`. -/
def linear2 (X : S100000x256.Idx → EReal) (W : S256x64.Idx → EReal) (B : S1x64.Idx → EReal) : S100000x64.Idx → EReal :=
  fun i => (0 + ∑ k : Fin 256, X (ix2 (i 0 : Fin 100000) k) * W (ix2 k (i 1 : Fin 64))) + B (ix2 (0 : Fin 1) (i 1 : Fin 64))

/-- The whole-array function at `(r, j)`, written out. -/
theorem linear2_apply (X : S100000x256.Idx → EReal) (W : S256x64.Idx → EReal) (B : S1x64.Idx → EReal)
    (r : Fin 100000) (j : Fin 64) :
    linear2 X W B (ix2 r j) = (0 + ∑ k : Fin 256, X (ix2 r k) * W (ix2 k j)) + B (ix2 (0 : Fin 1) j) := rfl

/-- A tile's stored entry is the whole-array function at the entry's place in the array, as soon as the tile's row of
    `x0` is the array's row there, `x1` and `x2` are the whole weight and bias arrays, and the columns agree. -/
theorem tile_entry2 (X : S100000x256.Idx → EReal) (W : S256x64.Idx → EReal) (B : S1x64.Idx → EReal)
    (x0 : Vec Ideal S5000x256 .f32) (x1 : Vec Ideal S256x64 .f32) (x2 : Vec Ideal S1x64 .f32)
    (p : Fin 5000) (q : Fin 64) (i : S100000x64.Idx)
    (hrow : ∀ k : Fin 256, x0 (ix2 p k) = X (ix2 (i 0 : Fin 100000) k)) (hw : x1 = W) (hb : x2 = B)
    (hcol : (i 1 : Fin 64) = q) :
    Gen.k2_pay1 (F := Ideal) x0 x1 x2 (ix2 p q) = linear2 X W B i := by
  rw [payload2_at, hw, hb]
  unfold linear2
  rw [hcol]
  exact congrArg (fun s => (0 + s) + B (ix2 (0 : Fin 1) q)) (Finset.sum_congr rfl fun k _ => by rw [hrow k])

theorem zero_offsets2 : (![0, 0] : Fin 2 → Nat) = fun _ => 0 := funext fun a => by fin_cases a <;> rfl

/-- The printed index maps over the 20 tiles: the input rows and the output rows move together, one tile of rows per
    point, on the one column block; the weights and the bias stay at block `(0, 0)`. -/
theorem tiles2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

section
variable (V : (c : Dev nD) → (b : Ref sig .tc) → Buf (Elt Ideal) ((c : Thread nD τ).loc b))

/-- WHAT TILE `t` WRITES BACK is tile `t` of the whole-array function of the three input arrays as the region finds
    them. -/
theorem flushed2_eq (c : Dev nD) (t : Fin cfg2.N) :
    (Gen.dat2 (F := Ideal) V c).flushed 3 t
      = ((cfg2.win 3).blk t).view.read (Elt Ideal) (linear2 (V c main_v107) (V c main_arg7) (V c main_v108)) := by
  show (cfg2.win 3).cut (grid2.coords t) ((Gen.dat2 (F := Ideal) V c).after 3 t) = _
  rw [Gen.after2_3]
  unfold Gen.out2_3
  rw [View.canon_unit_zero zero_offsets2]
  simp only [View.ld_unit_zero (S := S5000x256) zero_offsets2, View.ld_unit_zero (S := S256x64) zero_offsets2,
    View.ld_unit_zero (S := S1x64) zero_offsets2]
  obtain ⟨e00, e01, e10, e11, e20, e21, e30, e31⟩ := tiles2 t
  funext y
  obtain ⟨p, q, rfl⟩ : ∃ (p : Fin 5000) (q : Fin 64), y = ix2 p q := ⟨y 0, y 1, eq_ix2 y⟩
  show Gen.k2_pay1 (F := Ideal) (Gen.iblk2 V c 0 t) (Gen.iblk2 V c 1 t) (Gen.iblk2 V c 2 t) (ix2 p q)
    = linear2 (V c main_v107) (V c main_arg7) (V c main_v108) (((cfg2.win 3).blk t).view.emb (ix2 p q))
  refine tile_entry2 (V c main_v107) (V c main_arg7) (V c main_v108) _ _ _ p q _ (fun k => ?_) ?_ ?_ ?_
  · show V c main_v107 (((cfg2.win 0).blk t).view.emb (ix2 p k)) = V c main_v107 _
    refine congrArg (V c main_v107) (funext fun a => Fin.ext ?_)
    match a with
    | ⟨0, _⟩ => show win2_0.index t (0 : Fin 2) * 5000 + 1 * p.val = win2_3.index t (0 : Fin 2) * 5000 + 1 * p.val; omega
    | ⟨1, _⟩ => show win2_0.index t (1 : Fin 2) * 256 + 1 * k.val = k.val; omega
  · funext j
    show V c main_arg7 (((cfg2.win 1).blk t).view.emb j) = V c main_arg7 j
    refine congrArg (V c main_arg7) (funext fun a => Fin.ext ?_)
    match a with
    | ⟨0, _⟩ => show win2_1.index t (0 : Fin 2) * 256 + 1 * (j 0).val = (j 0).val; omega
    | ⟨1, _⟩ => show win2_1.index t (1 : Fin 2) * 64 + 1 * (j 1).val = (j 1).val; omega
  · funext j
    show V c main_v108 (((cfg2.win 2).blk t).view.emb j) = V c main_v108 j
    refine congrArg (V c main_v108) (funext fun a => Fin.ext ?_)
    match a with
    | ⟨0, _⟩ => show win2_2.index t (0 : Fin 2) * 1 + 1 * (j 0).val = (j 0).val; omega
    | ⟨1, _⟩ => show win2_2.index t (1 : Fin 2) * 64 + 1 * (j 1).val = (j 1).val; omega
  · refine Fin.ext ?_
    show win2_3.index t (1 : Fin 2) * 64 + 1 * q.val = q.val
    omega

/-- An entry of the array is in tile `t` iff each coordinate is in the tile's range on its axis. -/
theorem mem_tile2 (t : Fin cfg2.N) (i : S100000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v109).slice (win2_3.rect t)).set ↔ _
  rw [View.set_slice_whole, Rect.mem_set_unit]
  exact Iff.rfl

/-- Every entry is in the tile of its row: row `r` is in tile `r / 5000`. -/
theorem covered2 (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  have hlt : (i 0).val / 5000 < cfg2.N := by
    show (i 0).val / 5000 < grid2.N
    rw [Gen.N_2]; omega
  obtain ⟨-, -, -, -, -, -, e30, e31⟩ := tiles2 ⟨(i 0).val / 5000, hlt⟩
  have e30' : win2_3.index ⟨(i 0).val / 5000, hlt⟩ (0 : Fin 2) = (i 0).val / 5000 := e30
  refine ⟨⟨(i 0).val / 5000, hlt⟩, Gen.flush2_3 _, ?_⟩
  rw [mem_tile2]
  intro a
  match a with
  | ⟨0, _⟩ =>
    show win2_3.index ⟨(i 0).val / 5000, hlt⟩ (0 : Fin 2) * 5000 ≤ (i 0).val ∧ (i 0).val < win2_3.index ⟨(i 0).val / 5000, hlt⟩ (0 : Fin 2) * 5000 + 5000
    omega
  | ⟨1, _⟩ =>
    show win2_3.index ⟨(i 0).val / 5000, hlt⟩ (1 : Fin 2) * 64 ≤ (i 1).val ∧ (i 1).val < win2_3.index ⟨(i 0).val / 5000, hlt⟩ (1 : Fin 2) * 64 + 64
    omega

/-- THE ARRAY after the region is the whole-array function of the three input arrays as the region finds them. -/
theorem array2 (c : Dev nD) :
    (Gen.dat2 (F := Ideal) V c).arrAt 3 cfg2.N = linear2 (V c main_v107) (V c main_arg7) (V c main_v108) :=
  (Gen.dat2 (F := Ideal) V c).arrAt_eq_of_cover 3 _ (fun t _ => flushed2_eq V c t) covered2

/-- Entry `(r, j)` of the output after the region: `0` plus row `r` of the input against column `j` of the weights, plus
    the bias at `j`. -/
theorem final2_fn (c : Dev nD) (r : Fin 100000) (j : Fin 64) :
    (Gen.dat2 (F := Ideal) V c).arrAt 3 cfg2.N (ix2 r j)
      = linear2 (V c main_v107) (V c main_arg7) (V c main_v108) (ix2 r j) :=
  congrFun (array2 V c) (ix2 r j)

/-- The same entry with the sum written out; the product and the sums are the extended reals'. -/
theorem final2 (c : Dev nD) (r : Fin 100000) (j : Fin 64) :
    (Gen.dat2 (F := Ideal) V c).arrAt 3 cfg2.N (ix2 r j)
      = HAdd.hAdd (α := EReal) (β := EReal)
          ((0 : EReal) + ∑ k : Fin 256, HMul.hMul (α := EReal) (β := EReal) (V c main_v107 (ix2 r k)) (V c main_arg7 (ix2 k j)))
          (V c main_v108 (ix2 (0 : Fin 1) j)) := by
  rw [array2 V c]
  rfl

end

end Cert.KernelIdeal.RegionValue

end
-- ==== Proof.ProductLaws.lean ====
import proofs.«114862_j326417514918_1_alg».proof.Proof.RegionValue0
import proofs.«114862_j326417514918_1_alg».proof.Proof.RegionValue1
import proofs.«114862_j326417514918_1_alg».proof.Proof.RegionValue2
import proofs.«114862_j326417514918_1_alg».proof.Proof.Gen.ReferenceIdeal
import proofs.«114862_j326417514918_1_alg».proof.Proof.LibPlainProduct
import Idealize.ShloMosaic.Lib.KernelVsHost
import Idealize.ShloMosaic.Lib.ValueLayout
import Idealize.ShloMosaic.Lib.Pipeline.Value

/-!
# An affine layer on the matrix unit against the host's product

Each of the three tiled kernels leaves, as one whole array, `(0 + ∑ₖ X(r,k)·W(k,j)) + B(0,j)` at `(r, j)`: the product
accumulated from zero plus a one-row bias repeated down the rows. Over the extended reals `0 + s = s` and `s + 0 = s`
for every `s`, infinite or not, so with the zero row this is the host's product of the same two matrices, and with a
row that holds a vector `b` it is the host's product plus `b` laid along the rows. No finiteness is needed: nothing is
distributed or cancelled.
-/

noncomputable section

namespace Cert.Bridge

open Idealize.ShloMosaic Idealize.ShloMosaic.ValueIdx
open scoped BigOperators

/-- The reference's two product records are plain products. -/
theorem refDims256_plain : Cert.ReferenceIdeal.dot_S100000x256_S256x256_S100000x256_1_0_0_1_n_n = DotDims.plain 100000 256 256 := rfl
theorem refDims64_plain : Cert.ReferenceIdeal.dot_S100000x256_S256x64_S100000x64_1_0_0_1_n_n = DotDims.plain 100000 256 64 := rfl

/-- With the zero bias row the first kernel's layer is the host's product. -/
theorem linear0_zero (X : FVec Ideal Cert.KernelIdeal.S100000x256 .f32) (W : FVec Ideal Cert.KernelIdeal.S256x256 .f32) :
    Cert.KernelIdeal.RegionValue.linear0 X W (fun _ => (0 : EReal)) = Host.dotGeneral (F := Ideal) Cert.ReferenceIdeal.dot_S100000x256_S256x256_S100000x256_1_0_0_1_n_n none X W := by
  funext i
  obtain ⟨r, j, rfl⟩ : ∃ (r : Fin 100000) (j : Fin 256), i = ix2 r j := ⟨i 0, i 1, eq_ix2 i⟩
  rw [Cert.KernelIdeal.RegionValue.linear0_apply, PlainProduct.dotGeneral_at Cert.ReferenceIdeal.dot_S100000x256_S256x256_S100000x256_1_0_0_1_n_n refDims256_plain none X W r j]
  simp only [zero_add, add_zero]

/-- With the zero bias row the second kernel's layer is the host's product. -/
theorem linear1_zero (X : FVec Ideal Cert.KernelIdeal.S100000x256 .f32) (W : FVec Ideal Cert.KernelIdeal.S256x256 .f32) :
    Cert.KernelIdeal.RegionValue.linear1 X W (fun _ => (0 : EReal)) = Host.dotGeneral (F := Ideal) Cert.ReferenceIdeal.dot_S100000x256_S256x256_S100000x256_1_0_0_1_n_n none X W := by
  funext i
  obtain ⟨r, j, rfl⟩ : ∃ (r : Fin 100000) (j : Fin 256), i = ix2 r j := ⟨i 0, i 1, eq_ix2 i⟩
  rw [Cert.KernelIdeal.RegionValue.linear1_apply, PlainProduct.dotGeneral_at Cert.ReferenceIdeal.dot_S100000x256_S256x256_S100000x256_1_0_0_1_n_n refDims256_plain none X W r j]
  simp only [zero_add, add_zero]

/-- With a bias row that holds the vector `b`, the third kernel's layer is the host's product plus `b` laid along
    the rows (placed on axis 1 of a one-row matrix, that row repeated down axis 0). -/
theorem linear2_bias (X : FVec Ideal Cert.KernelIdeal.S100000x256 .f32) (W : FVec Ideal Cert.KernelIdeal.S256x64 .f32)
    (b : FVec Ideal Cert.KernelIdeal.S64 .f32) (B : FVec Ideal Cert.KernelIdeal.S1x64 .f32)
    (hB : ∀ j : Fin 64, B (ix2 (0 : Fin 1) j) = b (ix1 j)) :
    Cert.KernelIdeal.RegionValue.linear2 X W B
      = addf (Host.dotGeneral (F := Ideal) Cert.ReferenceIdeal.dot_S100000x256_S256x64_S100000x64_1_0_0_1_n_n none X W)
          (broadcastInDim Cert.ReferenceIdeal.S100000x64 ![0, 1] Cert.ReferenceIdeal.Facts₀.bcast_S1x64_S100000x64_0_1
            (broadcastInDim Cert.ReferenceIdeal.S1x64 ![1] Cert.ReferenceIdeal.Facts₀.bcast_S64_S1x64_1 b)) := by
  funext i
  obtain ⟨r, j, rfl⟩ : ∃ (r : Fin 100000) (j : Fin 64), i = ix2 r j := ⟨i 0, i 1, eq_ix2 i⟩
  rw [Cert.KernelIdeal.RegionValue.linear2_apply, addf_apply, PlainProduct.dotGeneral_at Cert.ReferenceIdeal.dot_S100000x256_S256x64_S100000x64_1_0_0_1_n_n refDims64_plain none X W r j,
    broadcastInDim_oneRow_apply, hB j, zero_add]
  refine congrArg (fun s => (∑ k : Fin 256, X (ix2 r k) * W (ix2 k j)) + s) ?_
  refine (broadcastInDim_apply ![1] Cert.ReferenceIdeal.Facts₀.bcast_S64_S1x64_1 b (ix2 (0 : Fin 1) j) (ix1 j) ?_).symm
  intro a
  match a with
  | ⟨0, _⟩ => rfl

/-- A zero scalar broadcast to a vector and cast to one row is the zero row. -/
theorem zero_row {n : ℕ} (hb : (⟨0, ![]⟩ : Shape).BroadcastsInDim ⟨1, ![n]⟩ ![]) (hc : (⟨1, ![n]⟩ : Shape).ShapeCasts ⟨2, ![1, n]⟩) :
    shapeCast ⟨2, ![1, n]⟩ (broadcastInDim ⟨1, ![n]⟩ ![] hb (constant (F := Ideal) ⟨0, ![]⟩ .f32 0x00000000#32)) hc
      = fun _ => (0 : EReal) := by
  funext i
  obtain ⟨u, j, rfl⟩ : ∃ (u : Fin 1) (j : Fin n), i = ix2 u j := ⟨i 0, i 1, eq_ix2 i⟩
  rw [shapeCast_a_1a_apply, broadcastInDim_scalar_apply, constant_apply]
  exact Ideal.ofBits_zero_f32

end Cert.Bridge

end
-- ==== Proof.Products.lean ====
import proofs.«114862_j326417514918_1_alg».proof.Proof.Gen.KernelIdeal.Frame
import proofs.«114862_j326417514918_1_alg».proof.Proof.RefRun
import proofs.«114862_j326417514918_1_alg».proof.Proof.ProductLaws
import Idealize.ShloMosaic.Lib.StableHlo.Run

/-!
# The three matrix products, in the two programs

Each tiled region of the kernel's program leaves in its output array the affine layer `(0 + ∑ₖ X(r,k)·W(k,j)) + B(0,j)`
of the three arrays it finds on entry. The reference computes the same layer on the host: for the first two layers one
matrix product (their bias row is zero in the kernel's program), for the third a matrix product, the bias vector laid
along the rows, and a sum. So whenever the two programs' memories agree on the layer's input and weights, and the
kernel's bias row is the zero row (layers one and two) or holds the reference's bias vector (layer three), the region's
output array is the array the reference's operations leave.
-/

noncomputable section

namespace Cert.Bridge

open Idealize.ShloMosaic Idealize.ShloMosaic.TcCoe Idealize.SL.Sem Idealize.ShloMosaic.StableHlo Idealize.ShloMosaic.ValueIdx

/-! ## The reference's operations at the three places -/

set_option maxRecDepth 16384 in
set_option maxHeartbeats 8000000 in
/-- The reference's fifth operation leaves the host's product of its first argument and the first weights. -/
theorem ref_product1 (VR : Valuation Cert.ReferenceIdeal.τ Cert.ReferenceIdeal.sig (Elt Ideal)) :
    after (((Cert.ReferenceIdeal.ValueP.ops (F := Ideal)).drop 4).take 1) VR (Proc.devRef .tc Cert.ReferenceIdeal.main_v4)
      = Host.dotGeneral (F := Ideal) (φ₁ := .f32) (φ₂ := .f32) Cert.ReferenceIdeal.dot_S100000x256_S256x256_S100000x256_1_0_0_1_n_n none (VR (Proc.devRef .tc Cert.ReferenceIdeal.main_arg0)) (VR (Proc.devRef .tc Cert.ReferenceIdeal.main_arg3)) := by
  simp only [Cert.ReferenceIdeal.ValueP.ops, List.drop_succ_cons, List.drop_zero, List.take_succ_cons, List.take_zero]
  after_results_simp <;> rfl

set_option maxRecDepth 16384 in
set_option maxHeartbeats 8000000 in
/-- The reference's operation at place 76 leaves the host's product of the first layer's output and the second weights. -/
theorem ref_product2 (VR : Valuation Cert.ReferenceIdeal.τ Cert.ReferenceIdeal.sig (Elt Ideal)) :
    after (((Cert.ReferenceIdeal.ValueP.ops (F := Ideal)).drop 76).take 1) VR (Proc.devRef .tc Cert.ReferenceIdeal.main_v55)
      = Host.dotGeneral (F := Ideal) (φ₁ := .f32) (φ₂ := .f32) Cert.ReferenceIdeal.dot_S100000x256_S256x256_S100000x256_1_0_0_1_n_n none (VR (Proc.devRef .tc Cert.ReferenceIdeal.main_v54)) (VR (Proc.devRef .tc Cert.ReferenceIdeal.main_arg5)) := by
  simp only [Cert.ReferenceIdeal.ValueP.ops, List.drop_succ_cons, List.drop_zero, List.take_succ_cons, List.take_zero]
  after_results_simp <;> rfl

set_option maxRecDepth 16384 in
set_option maxHeartbeats 8000000 in
/-- The reference's four operations from place 145 leave the host's product of the second layer's output and the third
    weights, plus the bias vector laid along the rows. -/
theorem ref_product3 (VR : Valuation Cert.ReferenceIdeal.τ Cert.ReferenceIdeal.sig (Elt Ideal)) :
    after (((Cert.ReferenceIdeal.ValueP.ops (F := Ideal)).drop 145).take 4) VR (Proc.devRef .tc Cert.ReferenceIdeal.main_v108)
      = addf (Host.dotGeneral (F := Ideal) (φ₁ := .f32) (φ₂ := .f32) Cert.ReferenceIdeal.dot_S100000x256_S256x64_S100000x64_1_0_0_1_n_n none (VR (Proc.devRef .tc Cert.ReferenceIdeal.main_v104)) (VR (Proc.devRef .tc Cert.ReferenceIdeal.main_arg7)))
          (broadcastInDim Cert.ReferenceIdeal.S100000x64 ![0, 1] Cert.ReferenceIdeal.Facts₀.bcast_S1x64_S100000x64_0_1
            (broadcastInDim Cert.ReferenceIdeal.S1x64 ![1] Cert.ReferenceIdeal.Facts₀.bcast_S64_S1x64_1 (VR (Proc.devRef .tc Cert.ReferenceIdeal.main_arg8)))) := by
  simp only [Cert.ReferenceIdeal.ValueP.ops, List.drop_succ_cons, List.drop_zero, List.take_succ_cons, List.take_zero]
  after_results_simp <;> rfl

/-! ## The regions' output arrays against them -/

section
variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)
  (VR : Valuation Cert.ReferenceIdeal.τ Cert.ReferenceIdeal.sig (Elt Ideal))

/-- The first region's output is the reference's first product, from memories that agree on the input and the weights,
    the kernel's bias row being zero. -/
theorem product1 (hx : Cert.KernelIdeal.Gen.W1 m ρ c (Proc.devRef .tc Cert.KernelIdeal.main_arg0) = VR (Proc.devRef .tc Cert.ReferenceIdeal.main_arg0)) (hw : Cert.KernelIdeal.Gen.W1 m ρ c (Proc.devRef .tc Cert.KernelIdeal.main_arg3) = VR (Proc.devRef .tc Cert.ReferenceIdeal.main_arg3))
    (hz : (Cert.KernelIdeal.Gen.W1 m ρ c (Proc.devRef .tc Cert.KernelIdeal.main_v5) : FVec Ideal Cert.KernelIdeal.S1x256 .f32) = fun _ => (0 : EReal)) :
    Cert.KernelIdeal.Gen.W2 m ρ c (Proc.devRef .tc Cert.KernelIdeal.main_v6) = after (((Cert.ReferenceIdeal.ValueP.ops (F := Ideal)).drop 4).take 1) VR (Proc.devRef .tc Cert.ReferenceIdeal.main_v4) := by
  rw [ref_product1 VR]
  refine (Cert.KernelIdeal.Gen.W2_arr (F := Ideal) m ρ c 3).trans ?_
  refine (Cert.KernelIdeal.RegionValue.array0 (Cert.KernelIdeal.Gen.V1 (F := Ideal) m ρ) c).trans ?_
  refine (congrArg (Cert.KernelIdeal.RegionValue.linear0 _ _) hz).trans ?_
  refine (linear0_zero _ _).trans ?_
  exact congrArg₂ (fun x w => Host.dotGeneral (F := Ideal) (φ₁ := .f32) (φ₂ := .f32) Cert.ReferenceIdeal.dot_S100000x256_S256x256_S100000x256_1_0_0_1_n_n none x w) hx hw

/-- The second region's output is the reference's second product, likewise. -/
theorem product2 (hx : Cert.KernelIdeal.Gen.W9 m ρ c (Proc.devRef .tc Cert.KernelIdeal.main_v56) = VR (Proc.devRef .tc Cert.ReferenceIdeal.main_v54)) (hw : Cert.KernelIdeal.Gen.W9 m ρ c (Proc.devRef .tc Cert.KernelIdeal.main_arg5) = VR (Proc.devRef .tc Cert.ReferenceIdeal.main_arg5))
    (hz : (Cert.KernelIdeal.Gen.W9 m ρ c (Proc.devRef .tc Cert.KernelIdeal.main_v57) : FVec Ideal Cert.KernelIdeal.S1x256 .f32) = fun _ => (0 : EReal)) :
    Cert.KernelIdeal.Gen.W10 m ρ c (Proc.devRef .tc Cert.KernelIdeal.main_v58) = after (((Cert.ReferenceIdeal.ValueP.ops (F := Ideal)).drop 76).take 1) VR (Proc.devRef .tc Cert.ReferenceIdeal.main_v55) := by
  rw [ref_product2 VR]
  refine (Cert.KernelIdeal.Gen.W10_arr (F := Ideal) m ρ c 3).trans ?_
  refine (Cert.KernelIdeal.RegionValue.array1 (Cert.KernelIdeal.Gen.V9 (F := Ideal) m ρ) c).trans ?_
  refine (congrArg (Cert.KernelIdeal.RegionValue.linear1 _ _) hz).trans ?_
  refine (linear1_zero _ _).trans ?_
  exact congrArg₂ (fun x w => Host.dotGeneral (F := Ideal) (φ₁ := .f32) (φ₂ := .f32) Cert.ReferenceIdeal.dot_S100000x256_S256x256_S100000x256_1_0_0_1_n_n none x w) hx hw

set_option maxRecDepth 16384 in
/-- The third region's output is the reference's third product plus its bias along the rows, from memories that agree
    on the input and the weights, the kernel's bias row holding the reference's bias vector. -/
theorem product3 (hx : Cert.KernelIdeal.Gen.W15 m ρ c (Proc.devRef .tc Cert.KernelIdeal.main_v107) = VR (Proc.devRef .tc Cert.ReferenceIdeal.main_v104)) (hw : Cert.KernelIdeal.Gen.W15 m ρ c (Proc.devRef .tc Cert.KernelIdeal.main_arg7) = VR (Proc.devRef .tc Cert.ReferenceIdeal.main_arg7))
    (hb : ∀ j : Fin 64, (Cert.KernelIdeal.Gen.W15 m ρ c (Proc.devRef .tc Cert.KernelIdeal.main_v108) : FVec Ideal Cert.KernelIdeal.S1x64 .f32) (ix2 (0 : Fin 1) j)
      = (VR (Proc.devRef .tc Cert.ReferenceIdeal.main_arg8) : FVec Ideal Cert.ReferenceIdeal.S64 .f32) (ix1 j)) :
    Cert.KernelIdeal.Gen.W16 m ρ c (Proc.devRef .tc Cert.KernelIdeal.main_v109) = after (((Cert.ReferenceIdeal.ValueP.ops (F := Ideal)).drop 145).take 4) VR (Proc.devRef .tc Cert.ReferenceIdeal.main_v108) := by
  rw [ref_product3 VR]
  refine (Cert.KernelIdeal.Gen.W16_arr (F := Ideal) m ρ c 3).trans ?_
  refine (Cert.KernelIdeal.RegionValue.array2 (Cert.KernelIdeal.Gen.V15 (F := Ideal) m ρ) c).trans ?_
  refine (linear2_bias _ _ (VR (Proc.devRef .tc Cert.ReferenceIdeal.main_arg8)) _ hb).trans ?_
  rw [← hx, ← hw]

end

end Cert.Bridge

end
-- ==== Proof.Bridge.lean ====
import proofs.«114862_j326417514918_1_alg».proof.Proof.Carry
import proofs.«114862_j326417514918_1_alg».proof.Proof.HostIndex
import proofs.«114862_j326417514918_1_alg».proof.Proof.HostLayer1
import proofs.«114862_j326417514918_1_alg».proof.Proof.HostLayer2
import proofs.«114862_j326417514918_1_alg».proof.Proof.HostTail
import proofs.«114862_j326417514918_1_alg».proof.Proof.Products
import Idealize.ShloMosaic.Lib.ValueLayout

/-!
# The two programs compute the same loss

The kernel's program and the reference are walked side by side from the launch to the return. At each meeting point the
buffers that are still to be read agree: the source and target lists of the edges, the weights and biases not yet used,
the batch, and the latest layer output. A host section preserves the agreement because the two programs apply the same
operations there; a region preserves it because an affine layer on the matrix unit, with a zero bias row or with the
bias as its row, is the host's product of the same matrices (plus the bias laid along the rows), exactly, over the
extended reals. Buffers that a section does not write are carried across it unchanged.
-/

noncomputable section

namespace Cert.Bridge

open Idealize.ShloMosaic Idealize.ShloMosaic.TcCoe Idealize.SL.Sem Idealize.ShloMosaic.StableHlo

set_option maxRecDepth 16384 in
set_option maxHeartbeats 4000000 in
/-- From memories that agree on the nine arguments, what the kernel's program leaves in its result buffer is what the
    reference's line of operations leaves in its own. -/
theorem result_eq (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Cert.KernelIdeal.Gen.W21 m ρ c (Proc.devRef .tc Cert.KernelIdeal.main_v236) = Rg m' c (Proc.devRef .tc Cert.ReferenceIdeal.main_v235) := by
  -- the arguments agree at the launch
  have ag_a0_0 : Cert.KernelIdeal.Gen.W0 m ρ c (Proc.devRef .tc Cert.KernelIdeal.main_arg0) = launchContents m' c (Proc.devRef .tc Cert.ReferenceIdeal.main_arg0) := h0.symm
  have ag_a1_0 : Cert.KernelIdeal.Gen.W0 m ρ c (Proc.devRef .tc Cert.KernelIdeal.main_arg1) = launchContents m' c (Proc.devRef .tc Cert.ReferenceIdeal.main_arg1) := h1.symm
  have ag_a2_0 : Cert.KernelIdeal.Gen.W0 m ρ c (Proc.devRef .tc Cert.KernelIdeal.main_arg2) = launchContents m' c (Proc.devRef .tc Cert.ReferenceIdeal.main_arg2) := h2.symm
  have ag_a3_0 : Cert.KernelIdeal.Gen.W0 m ρ c (Proc.devRef .tc Cert.KernelIdeal.main_arg3) = launchContents m' c (Proc.devRef .tc Cert.ReferenceIdeal.main_arg3) := h3.symm
  have ag_a4_0 : Cert.KernelIdeal.Gen.W0 m ρ c (Proc.devRef .tc Cert.KernelIdeal.main_arg4) = launchContents m' c (Proc.devRef .tc Cert.ReferenceIdeal.main_arg4) := h4.symm
  have ag_a5_0 : Cert.KernelIdeal.Gen.W0 m ρ c (Proc.devRef .tc Cert.KernelIdeal.main_arg5) = launchContents m' c (Proc.devRef .tc Cert.ReferenceIdeal.main_arg5) := h5.symm
  have ag_a6_0 : Cert.KernelIdeal.Gen.W0 m ρ c (Proc.devRef .tc Cert.KernelIdeal.main_arg6) = launchContents m' c (Proc.devRef .tc Cert.ReferenceIdeal.main_arg6) := h6.symm
  have ag_a7_0 : Cert.KernelIdeal.Gen.W0 m ρ c (Proc.devRef .tc Cert.KernelIdeal.main_arg7) = launchContents m' c (Proc.devRef .tc Cert.ReferenceIdeal.main_arg7) := h7.symm
  have ag_a8_0 : Cert.KernelIdeal.Gen.W0 m ρ c (Proc.devRef .tc Cert.KernelIdeal.main_arg8) = launchContents m' c (Proc.devRef .tc Cert.ReferenceIdeal.main_arg8) := h8.symm
  -- the index slices, the first kernel's operands
  have ag_u_1 : Cert.KernelIdeal.Gen.W1 m ρ c (Proc.devRef .tc Cert.KernelIdeal.main_v1) = Ra m' c (Proc.devRef .tc Cert.ReferenceIdeal.main_v1) := slice_sources _ _ ag_a1_0
  have ag_t_1 : Cert.KernelIdeal.Gen.W1 m ρ c (Proc.devRef .tc Cert.KernelIdeal.main_v3) = Ra m' c (Proc.devRef .tc Cert.ReferenceIdeal.main_v3) := slice_targets _ _ ag_a1_0
  have kK_a0_1 : Cert.KernelIdeal.Gen.W1 m ρ c (Proc.devRef .tc Cert.KernelIdeal.main_arg0) = Cert.KernelIdeal.Gen.W0 m ρ c (Proc.devRef .tc Cert.KernelIdeal.main_arg0) := after_of_forall_not_mem _ _ (by decide +kernel)
  have kR_a0_1 : Ra m' c (Proc.devRef .tc Cert.ReferenceIdeal.main_arg0) = launchContents m' c (Proc.devRef .tc Cert.ReferenceIdeal.main_arg0) := after_of_forall_not_mem _ _ (by decide +kernel)
  have ag_a0_1 : Cert.KernelIdeal.Gen.W1 m ρ c (Proc.devRef .tc Cert.KernelIdeal.main_arg0) = Ra m' c (Proc.devRef .tc Cert.ReferenceIdeal.main_arg0) := kK_a0_1.trans (ag_a0_0.trans kR_a0_1.symm)
  have kK_a3_1 : Cert.KernelIdeal.Gen.W1 m ρ c (Proc.devRef .tc Cert.KernelIdeal.main_arg3) = Cert.KernelIdeal.Gen.W0 m ρ c (Proc.devRef .tc Cert.KernelIdeal.main_arg3) := after_of_forall_not_mem _ _ (by decide +kernel)
  have kR_a3_1 : Ra m' c (Proc.devRef .tc Cert.ReferenceIdeal.main_arg3) = launchContents m' c (Proc.devRef .tc Cert.ReferenceIdeal.main_arg3) := after_of_forall_not_mem _ _ (by decide +kernel)
  have ag_a3_1 : Cert.KernelIdeal.Gen.W1 m ρ c (Proc.devRef .tc Cert.KernelIdeal.main_arg3) = Ra m' c (Proc.devRef .tc Cert.ReferenceIdeal.main_arg3) := kK_a3_1.trans (ag_a3_0.trans kR_a3_1.symm)
  have e5 : Cert.KernelIdeal.Gen.W1 m ρ c (Proc.devRef .tc Cert.KernelIdeal.main_v5) = shapeCast Cert.KernelIdeal.S1x256 (broadcastInDim Cert.KernelIdeal.S256 ![] Cert.KernelIdeal.Facts₀.bcast_S_S256
      (constant (F := Ideal) Cert.KernelIdeal.S_ .f32 0x00000000#32)) Cert.KernelIdeal.Facts₀.shapeCasts_S256_S1x256 := rfl
  have hz0 : (Cert.KernelIdeal.Gen.W1 m ρ c (Proc.devRef .tc Cert.KernelIdeal.main_v5) : FVec Ideal Cert.KernelIdeal.S1x256 .f32) = fun _ => (0 : EReal) := e5.trans (zero_row _ _)
  -- the first product
  have ag_lin1_2 : Cert.KernelIdeal.Gen.W2 m ρ c (Proc.devRef .tc Cert.KernelIdeal.main_v6) = Rb m' c (Proc.devRef .tc Cert.ReferenceIdeal.main_v4) := product1 m ρ c (Ra m' c) ag_a0_1 ag_a3_1 hz0
  have kK_u_2 : Cert.KernelIdeal.Gen.W2 m ρ c (Proc.devRef .tc Cert.KernelIdeal.main_v1) = Cert.KernelIdeal.Gen.W1 m ρ c (Proc.devRef .tc Cert.KernelIdeal.main_v1) := Cert.KernelIdeal.Gen.W2_of_ne m ρ c Cert.KernelIdeal.main_v1 (by decide)
  have kR_u_2 : Rb m' c (Proc.devRef .tc Cert.ReferenceIdeal.main_v1) = Ra m' c (Proc.devRef .tc Cert.ReferenceIdeal.main_v1) := after_of_forall_not_mem _ _ (by decide +kernel)
  have ag_u_2 : Cert.KernelIdeal.Gen.W2 m ρ c (Proc.devRef .tc Cert.KernelIdeal.main_v1) = Rb m' c (Proc.devRef .tc Cert.ReferenceIdeal.main_v1) := kK_u_2.trans (ag_u_1.trans kR_u_2.symm)
  have kK_t_2 : Cert.KernelIdeal.Gen.W2 m ρ c (Proc.devRef .tc Cert.KernelIdeal.main_v3) = Cert.KernelIdeal.Gen.W1 m ρ c (Proc.devRef .tc Cert.KernelIdeal.main_v3) := Cert.KernelIdeal.Gen.W2_of_ne m ρ c Cert.KernelIdeal.main_v3 (by decide)
  have kR_t_2 : Rb m' c (Proc.devRef .tc Cert.ReferenceIdeal.main_v3) = Ra m' c (Proc.devRef .tc Cert.ReferenceIdeal.main_v3) := after_of_forall_not_mem _ _ (by decide +kernel)
  have ag_t_2 : Cert.KernelIdeal.Gen.W2 m ρ c (Proc.devRef .tc Cert.KernelIdeal.main_v3) = Rb m' c (Proc.devRef .tc Cert.ReferenceIdeal.main_v3) := kK_t_2.trans (ag_t_1.trans kR_t_2.symm)
  have kK_a4_1 : Cert.KernelIdeal.Gen.W1 m ρ c (Proc.devRef .tc Cert.KernelIdeal.main_arg4) = Cert.KernelIdeal.Gen.W0 m ρ c (Proc.devRef .tc Cert.KernelIdeal.main_arg4) := after_of_forall_not_mem _ _ (by decide +kernel)
  have kR_a4_1 : Ra m' c (Proc.devRef .tc Cert.ReferenceIdeal.main_arg4) = launchContents m' c (Proc.devRef .tc Cert.ReferenceIdeal.main_arg4) := after_of_forall_not_mem _ _ (by decide +kernel)
  have ag_a4_1 : Cert.KernelIdeal.Gen.W1 m ρ c (Proc.devRef .tc Cert.KernelIdeal.main_arg4) = Ra m' c (Proc.devRef .tc Cert.ReferenceIdeal.main_arg4) := kK_a4_1.trans (ag_a4_0.trans kR_a4_1.symm)
  have kK_a4_2 : Cert.KernelIdeal.Gen.W2 m ρ c (Proc.devRef .tc Cert.KernelIdeal.main_arg4) = Cert.KernelIdeal.Gen.W1 m ρ c (Proc.devRef .tc Cert.KernelIdeal.main_arg4) := Cert.KernelIdeal.Gen.W2_of_ne m ρ c Cert.KernelIdeal.main_arg4 (by decide)
  have kR_a4_2 : Rb m' c (Proc.devRef .tc Cert.ReferenceIdeal.main_arg4) = Ra m' c (Proc.devRef .tc Cert.ReferenceIdeal.main_arg4) := after_of_forall_not_mem _ _ (by decide +kernel)
  have ag_a4_2 : Cert.KernelIdeal.Gen.W2 m ρ c (Proc.devRef .tc Cert.KernelIdeal.main_arg4) = Rb m' c (Proc.devRef .tc Cert.ReferenceIdeal.main_arg4) := kK_a4_2.trans (ag_a4_1.trans kR_a4_2.symm)
  have kK_a4_3 : Kp1 m ρ c (Proc.devRef .tc Cert.KernelIdeal.main_arg4) = Cert.KernelIdeal.Gen.W2 m ρ c (Proc.devRef .tc Cert.KernelIdeal.main_arg4) := after_of_forall_not_mem _ _ (by decide +kernel)
  have kR_a4_3 : Rp1 m' c (Proc.devRef .tc Cert.ReferenceIdeal.main_arg4) = Rb m' c (Proc.devRef .tc Cert.ReferenceIdeal.main_arg4) := after_of_forall_not_mem _ _ (by decide +kernel)
  have ag_a4_3 : Kp1 m ρ c (Proc.devRef .tc Cert.KernelIdeal.main_arg4) = Rp1 m' c (Proc.devRef .tc Cert.ReferenceIdeal.main_arg4) := kK_a4_3.trans (ag_a4_2.trans kR_a4_3.symm)
  -- the first layer
  have uu1 : Kp1 m ρ c (Proc.devRef .tc Cert.KernelIdeal.main_v8) = Rp1 m' c (Proc.devRef .tc Cert.ReferenceIdeal.main_v6) := loops1_sources _ _ ag_u_2
  have vv1 : Kp1 m ρ c (Proc.devRef .tc Cert.KernelIdeal.main_v9) = Rp1 m' c (Proc.devRef .tc Cert.ReferenceIdeal.main_v7) := loops1_targets _ _ ag_t_2
  have kK_lin1_3 : Kp1 m ρ c (Proc.devRef .tc Cert.KernelIdeal.main_v6) = Cert.KernelIdeal.Gen.W2 m ρ c (Proc.devRef .tc Cert.KernelIdeal.main_v6) := after_of_forall_not_mem _ _ (by decide +kernel)
  have kR_lin1_3 : Rp1 m' c (Proc.devRef .tc Cert.ReferenceIdeal.main_v4) = Rb m' c (Proc.devRef .tc Cert.ReferenceIdeal.main_v4) := after_of_forall_not_mem _ _ (by decide +kernel)
  have ag_lin1_3 : Kp1 m ρ c (Proc.devRef .tc Cert.KernelIdeal.main_v6) = Rp1 m' c (Proc.devRef .tc Cert.ReferenceIdeal.main_v4) := kK_lin1_3.trans (ag_lin1_2.trans kR_lin1_3.symm)
  have h56_8 : Cert.KernelIdeal.Gen.W8 m ρ c (Proc.devRef .tc Cert.KernelIdeal.main_v56) = Rc m' c (Proc.devRef .tc Cert.ReferenceIdeal.main_v54) := by
    rw [W8_eq]; exact layer1 _ _ ag_lin1_3 uu1 vv1 ag_a4_3
  have k56 : Cert.KernelIdeal.Gen.W9 m ρ c (Proc.devRef .tc Cert.KernelIdeal.main_v56) = Cert.KernelIdeal.Gen.W8 m ρ c (Proc.devRef .tc Cert.KernelIdeal.main_v56) := after_of_forall_not_mem _ _ (by decide +kernel)
  have h56 : Cert.KernelIdeal.Gen.W9 m ρ c (Proc.devRef .tc Cert.KernelIdeal.main_v56) = Rc m' c (Proc.devRef .tc Cert.ReferenceIdeal.main_v54) := k56.trans h56_8
  -- the second kernel's operands
  have kK_a5_1 : Cert.KernelIdeal.Gen.W1 m ρ c (Proc.devRef .tc Cert.KernelIdeal.main_arg5) = Cert.KernelIdeal.Gen.W0 m ρ c (Proc.devRef .tc Cert.KernelIdeal.main_arg5) := after_of_forall_not_mem _ _ (by decide +kernel)
  have kR_a5_1 : Ra m' c (Proc.devRef .tc Cert.ReferenceIdeal.main_arg5) = launchContents m' c (Proc.devRef .tc Cert.ReferenceIdeal.main_arg5) := after_of_forall_not_mem _ _ (by decide +kernel)
  have ag_a5_1 : Cert.KernelIdeal.Gen.W1 m ρ c (Proc.devRef .tc Cert.KernelIdeal.main_arg5) = Ra m' c (Proc.devRef .tc Cert.ReferenceIdeal.main_arg5) := kK_a5_1.trans (ag_a5_0.trans kR_a5_1.symm)
  have kK_a5_2 : Cert.KernelIdeal.Gen.W2 m ρ c (Proc.devRef .tc Cert.KernelIdeal.main_arg5) = Cert.KernelIdeal.Gen.W1 m ρ c (Proc.devRef .tc Cert.KernelIdeal.main_arg5) := Cert.KernelIdeal.Gen.W2_of_ne m ρ c Cert.KernelIdeal.main_arg5 (by decide)
  have kR_a5_2 : Rb m' c (Proc.devRef .tc Cert.ReferenceIdeal.main_arg5) = Ra m' c (Proc.devRef .tc Cert.ReferenceIdeal.main_arg5) := after_of_forall_not_mem _ _ (by decide +kernel)
  have ag_a5_2 : Cert.KernelIdeal.Gen.W2 m ρ c (Proc.devRef .tc Cert.KernelIdeal.main_arg5) = Rb m' c (Proc.devRef .tc Cert.ReferenceIdeal.main_arg5) := kK_a5_2.trans (ag_a5_1.trans kR_a5_2.symm)
  have kK_a5_3 : Kp1 m ρ c (Proc.devRef .tc Cert.KernelIdeal.main_arg5) = Cert.KernelIdeal.Gen.W2 m ρ c (Proc.devRef .tc Cert.KernelIdeal.main_arg5) := after_of_forall_not_mem _ _ (by decide +kernel)
  have kR_a5_3 : Rp1 m' c (Proc.devRef .tc Cert.ReferenceIdeal.main_arg5) = Rb m' c (Proc.devRef .tc Cert.ReferenceIdeal.main_arg5) := after_of_forall_not_mem _ _ (by decide +kernel)
  have ag_a5_3 : Kp1 m ρ c (Proc.devRef .tc Cert.KernelIdeal.main_arg5) = Rp1 m' c (Proc.devRef .tc Cert.ReferenceIdeal.main_arg5) := kK_a5_3.trans (ag_a5_2.trans kR_a5_3.symm)
  have kK_a5_4 : Cert.KernelIdeal.Gen.W9 m ρ c (Proc.devRef .tc Cert.KernelIdeal.main_arg5) = Kp1 m ρ c (Proc.devRef .tc Cert.KernelIdeal.main_arg5) := by rw [W9_flat]; exact after_of_forall_not_mem _ _ (by decide +kernel)
  have kR_a5_4 : Rc m' c (Proc.devRef .tc Cert.ReferenceIdeal.main_arg5) = Rp1 m' c (Proc.devRef .tc Cert.ReferenceIdeal.main_arg5) := after_of_forall_not_mem _ _ (by decide +kernel)
  have ag_a5_4 : Cert.KernelIdeal.Gen.W9 m ρ c (Proc.devRef .tc Cert.KernelIdeal.main_arg5) = Rc m' c (Proc.devRef .tc Cert.ReferenceIdeal.main_arg5) := kK_a5_4.trans (ag_a5_3.trans kR_a5_4.symm)
  have e57 : Cert.KernelIdeal.Gen.W9 m ρ c (Proc.devRef .tc Cert.KernelIdeal.main_v57) = shapeCast Cert.KernelIdeal.S1x256 (Cert.KernelIdeal.Gen.W8 m ρ c (Proc.devRef .tc Cert.KernelIdeal.main_v4)) Cert.KernelIdeal.Facts₀.shapeCasts_S256_S1x256 := rfl
  have k4a : Cert.KernelIdeal.Gen.W8 m ρ c (Proc.devRef .tc Cert.KernelIdeal.main_v4) = Kp1 m ρ c (Proc.devRef .tc Cert.KernelIdeal.main_v4) := by rw [W8_flat]; exact after_of_forall_not_mem _ _ (by decide +kernel)
  have k4b : Kp1 m ρ c (Proc.devRef .tc Cert.KernelIdeal.main_v4) = Cert.KernelIdeal.Gen.W2 m ρ c (Proc.devRef .tc Cert.KernelIdeal.main_v4) := after_of_forall_not_mem _ _ (by decide +kernel)
  have k4c : Cert.KernelIdeal.Gen.W2 m ρ c (Proc.devRef .tc Cert.KernelIdeal.main_v4) = Cert.KernelIdeal.Gen.W1 m ρ c (Proc.devRef .tc Cert.KernelIdeal.main_v4) := Cert.KernelIdeal.Gen.W2_of_ne m ρ c Cert.KernelIdeal.main_v4 (by decide)
  have e4 : Cert.KernelIdeal.Gen.W1 m ρ c (Proc.devRef .tc Cert.KernelIdeal.main_v4) = broadcastInDim Cert.KernelIdeal.S256 ![] Cert.KernelIdeal.Facts₀.bcast_S_S256 (constant (F := Ideal) Cert.KernelIdeal.S_ .f32 0x00000000#32) := rfl
  have hz1 : (Cert.KernelIdeal.Gen.W9 m ρ c (Proc.devRef .tc Cert.KernelIdeal.main_v57) : FVec Ideal Cert.KernelIdeal.S1x256 .f32) = fun _ => (0 : EReal) := by
    rw [e57, k4a, k4b, k4c, e4]; exact zero_row _ _
  -- the second product
  have ag_lin2_5 : Cert.KernelIdeal.Gen.W10 m ρ c (Proc.devRef .tc Cert.KernelIdeal.main_v58) = Rd m' c (Proc.devRef .tc Cert.ReferenceIdeal.main_v55) := product2 m ρ c (Rc m' c) h56 ag_a5_4 hz1
  have kK_u_3 : Kp1 m ρ c (Proc.devRef .tc Cert.KernelIdeal.main_v1) = Cert.KernelIdeal.Gen.W2 m ρ c (Proc.devRef .tc Cert.KernelIdeal.main_v1) := after_of_forall_not_mem _ _ (by decide +kernel)
  have kR_u_3 : Rp1 m' c (Proc.devRef .tc Cert.ReferenceIdeal.main_v1) = Rb m' c (Proc.devRef .tc Cert.ReferenceIdeal.main_v1) := after_of_forall_not_mem _ _ (by decide +kernel)
  have ag_u_3 : Kp1 m ρ c (Proc.devRef .tc Cert.KernelIdeal.main_v1) = Rp1 m' c (Proc.devRef .tc Cert.ReferenceIdeal.main_v1) := kK_u_3.trans (ag_u_2.trans kR_u_3.symm)
  have kK_u_4 : Cert.KernelIdeal.Gen.W9 m ρ c (Proc.devRef .tc Cert.KernelIdeal.main_v1) = Kp1 m ρ c (Proc.devRef .tc Cert.KernelIdeal.main_v1) := by rw [W9_flat]; exact after_of_forall_not_mem _ _ (by decide +kernel)
  have kR_u_4 : Rc m' c (Proc.devRef .tc Cert.ReferenceIdeal.main_v1) = Rp1 m' c (Proc.devRef .tc Cert.ReferenceIdeal.main_v1) := after_of_forall_not_mem _ _ (by decide +kernel)
  have ag_u_4 : Cert.KernelIdeal.Gen.W9 m ρ c (Proc.devRef .tc Cert.KernelIdeal.main_v1) = Rc m' c (Proc.devRef .tc Cert.ReferenceIdeal.main_v1) := kK_u_4.trans (ag_u_3.trans kR_u_4.symm)
  have kK_u_5 : Cert.KernelIdeal.Gen.W10 m ρ c (Proc.devRef .tc Cert.KernelIdeal.main_v1) = Cert.KernelIdeal.Gen.W9 m ρ c (Proc.devRef .tc Cert.KernelIdeal.main_v1) := Cert.KernelIdeal.Gen.W10_of_ne m ρ c Cert.KernelIdeal.main_v1 (by decide)
  have kR_u_5 : Rd m' c (Proc.devRef .tc Cert.ReferenceIdeal.main_v1) = Rc m' c (Proc.devRef .tc Cert.ReferenceIdeal.main_v1) := after_of_forall_not_mem _ _ (by decide +kernel)
  have ag_u_5 : Cert.KernelIdeal.Gen.W10 m ρ c (Proc.devRef .tc Cert.KernelIdeal.main_v1) = Rd m' c (Proc.devRef .tc Cert.ReferenceIdeal.main_v1) := kK_u_5.trans (ag_u_4.trans kR_u_5.symm)
  have kK_t_3 : Kp1 m ρ c (Proc.devRef .tc Cert.KernelIdeal.main_v3) = Cert.KernelIdeal.Gen.W2 m ρ c (Proc.devRef .tc Cert.KernelIdeal.main_v3) := after_of_forall_not_mem _ _ (by decide +kernel)
  have kR_t_3 : Rp1 m' c (Proc.devRef .tc Cert.ReferenceIdeal.main_v3) = Rb m' c (Proc.devRef .tc Cert.ReferenceIdeal.main_v3) := after_of_forall_not_mem _ _ (by decide +kernel)
  have ag_t_3 : Kp1 m ρ c (Proc.devRef .tc Cert.KernelIdeal.main_v3) = Rp1 m' c (Proc.devRef .tc Cert.ReferenceIdeal.main_v3) := kK_t_3.trans (ag_t_2.trans kR_t_3.symm)
  have kK_t_4 : Cert.KernelIdeal.Gen.W9 m ρ c (Proc.devRef .tc Cert.KernelIdeal.main_v3) = Kp1 m ρ c (Proc.devRef .tc Cert.KernelIdeal.main_v3) := by rw [W9_flat]; exact after_of_forall_not_mem _ _ (by decide +kernel)
  have kR_t_4 : Rc m' c (Proc.devRef .tc Cert.ReferenceIdeal.main_v3) = Rp1 m' c (Proc.devRef .tc Cert.ReferenceIdeal.main_v3) := after_of_forall_not_mem _ _ (by decide +kernel)
  have ag_t_4 : Cert.KernelIdeal.Gen.W9 m ρ c (Proc.devRef .tc Cert.KernelIdeal.main_v3) = Rc m' c (Proc.devRef .tc Cert.ReferenceIdeal.main_v3) := kK_t_4.trans (ag_t_3.trans kR_t_4.symm)
  have kK_t_5 : Cert.KernelIdeal.Gen.W10 m ρ c (Proc.devRef .tc Cert.KernelIdeal.main_v3) = Cert.KernelIdeal.Gen.W9 m ρ c (Proc.devRef .tc Cert.KernelIdeal.main_v3) := Cert.KernelIdeal.Gen.W10_of_ne m ρ c Cert.KernelIdeal.main_v3 (by decide)
  have kR_t_5 : Rd m' c (Proc.devRef .tc Cert.ReferenceIdeal.main_v3) = Rc m' c (Proc.devRef .tc Cert.ReferenceIdeal.main_v3) := after_of_forall_not_mem _ _ (by decide +kernel)
  have ag_t_5 : Cert.KernelIdeal.Gen.W10 m ρ c (Proc.devRef .tc Cert.KernelIdeal.main_v3) = Rd m' c (Proc.devRef .tc Cert.ReferenceIdeal.main_v3) := kK_t_5.trans (ag_t_4.trans kR_t_5.symm)
  have kK_a6_1 : Cert.KernelIdeal.Gen.W1 m ρ c (Proc.devRef .tc Cert.KernelIdeal.main_arg6) = Cert.KernelIdeal.Gen.W0 m ρ c (Proc.devRef .tc Cert.KernelIdeal.main_arg6) := after_of_forall_not_mem _ _ (by decide +kernel)
  have kR_a6_1 : Ra m' c (Proc.devRef .tc Cert.ReferenceIdeal.main_arg6) = launchContents m' c (Proc.devRef .tc Cert.ReferenceIdeal.main_arg6) := after_of_forall_not_mem _ _ (by decide +kernel)
  have ag_a6_1 : Cert.KernelIdeal.Gen.W1 m ρ c (Proc.devRef .tc Cert.KernelIdeal.main_arg6) = Ra m' c (Proc.devRef .tc Cert.ReferenceIdeal.main_arg6) := kK_a6_1.trans (ag_a6_0.trans kR_a6_1.symm)
  have kK_a6_2 : Cert.KernelIdeal.Gen.W2 m ρ c (Proc.devRef .tc Cert.KernelIdeal.main_arg6) = Cert.KernelIdeal.Gen.W1 m ρ c (Proc.devRef .tc Cert.KernelIdeal.main_arg6) := Cert.KernelIdeal.Gen.W2_of_ne m ρ c Cert.KernelIdeal.main_arg6 (by decide)
  have kR_a6_2 : Rb m' c (Proc.devRef .tc Cert.ReferenceIdeal.main_arg6) = Ra m' c (Proc.devRef .tc Cert.ReferenceIdeal.main_arg6) := after_of_forall_not_mem _ _ (by decide +kernel)
  have ag_a6_2 : Cert.KernelIdeal.Gen.W2 m ρ c (Proc.devRef .tc Cert.KernelIdeal.main_arg6) = Rb m' c (Proc.devRef .tc Cert.ReferenceIdeal.main_arg6) := kK_a6_2.trans (ag_a6_1.trans kR_a6_2.symm)
  have kK_a6_3 : Kp1 m ρ c (Proc.devRef .tc Cert.KernelIdeal.main_arg6) = Cert.KernelIdeal.Gen.W2 m ρ c (Proc.devRef .tc Cert.KernelIdeal.main_arg6) := after_of_forall_not_mem _ _ (by decide +kernel)
  have kR_a6_3 : Rp1 m' c (Proc.devRef .tc Cert.ReferenceIdeal.main_arg6) = Rb m' c (Proc.devRef .tc Cert.ReferenceIdeal.main_arg6) := after_of_forall_not_mem _ _ (by decide +kernel)
  have ag_a6_3 : Kp1 m ρ c (Proc.devRef .tc Cert.KernelIdeal.main_arg6) = Rp1 m' c (Proc.devRef .tc Cert.ReferenceIdeal.main_arg6) := kK_a6_3.trans (ag_a6_2.trans kR_a6_3.symm)
  have kK_a6_4 : Cert.KernelIdeal.Gen.W9 m ρ c (Proc.devRef .tc Cert.KernelIdeal.main_arg6) = Kp1 m ρ c (Proc.devRef .tc Cert.KernelIdeal.main_arg6) := by rw [W9_flat]; exact after_of_forall_not_mem _ _ (by decide +kernel)
  have kR_a6_4 : Rc m' c (Proc.devRef .tc Cert.ReferenceIdeal.main_arg6) = Rp1 m' c (Proc.devRef .tc Cert.ReferenceIdeal.main_arg6) := after_of_forall_not_mem _ _ (by decide +kernel)
  have ag_a6_4 : Cert.KernelIdeal.Gen.W9 m ρ c (Proc.devRef .tc Cert.KernelIdeal.main_arg6) = Rc m' c (Proc.devRef .tc Cert.ReferenceIdeal.main_arg6) := kK_a6_4.trans (ag_a6_3.trans kR_a6_4.symm)
  have kK_a6_5 : Cert.KernelIdeal.Gen.W10 m ρ c (Proc.devRef .tc Cert.KernelIdeal.main_arg6) = Cert.KernelIdeal.Gen.W9 m ρ c (Proc.devRef .tc Cert.KernelIdeal.main_arg6) := Cert.KernelIdeal.Gen.W10_of_ne m ρ c Cert.KernelIdeal.main_arg6 (by decide)
  have kR_a6_5 : Rd m' c (Proc.devRef .tc Cert.ReferenceIdeal.main_arg6) = Rc m' c (Proc.devRef .tc Cert.ReferenceIdeal.main_arg6) := after_of_forall_not_mem _ _ (by decide +kernel)
  have ag_a6_5 : Cert.KernelIdeal.Gen.W10 m ρ c (Proc.devRef .tc Cert.KernelIdeal.main_arg6) = Rd m' c (Proc.devRef .tc Cert.ReferenceIdeal.main_arg6) := kK_a6_5.trans (ag_a6_4.trans kR_a6_5.symm)
  have kK_a6_6 : Kp2 m ρ c (Proc.devRef .tc Cert.KernelIdeal.main_arg6) = Cert.KernelIdeal.Gen.W10 m ρ c (Proc.devRef .tc Cert.KernelIdeal.main_arg6) := after_of_forall_not_mem _ _ (by decide +kernel)
  have kR_a6_6 : Rp2 m' c (Proc.devRef .tc Cert.ReferenceIdeal.main_arg6) = Rd m' c (Proc.devRef .tc Cert.ReferenceIdeal.main_arg6) := after_of_forall_not_mem _ _ (by decide +kernel)
  have ag_a6_6 : Kp2 m ρ c (Proc.devRef .tc Cert.KernelIdeal.main_arg6) = Rp2 m' c (Proc.devRef .tc Cert.ReferenceIdeal.main_arg6) := kK_a6_6.trans (ag_a6_5.trans kR_a6_6.symm)
  -- the second layer
  have uu2 : Kp2 m ρ c (Proc.devRef .tc Cert.KernelIdeal.main_v60) = Rp2 m' c (Proc.devRef .tc Cert.ReferenceIdeal.main_v57) := loops2_sources _ _ ag_u_5
  have vv2 : Kp2 m ρ c (Proc.devRef .tc Cert.KernelIdeal.main_v61) = Rp2 m' c (Proc.devRef .tc Cert.ReferenceIdeal.main_v58) := loops2_targets _ _ ag_t_5
  have kK_lin2_6 : Kp2 m ρ c (Proc.devRef .tc Cert.KernelIdeal.main_v58) = Cert.KernelIdeal.Gen.W10 m ρ c (Proc.devRef .tc Cert.KernelIdeal.main_v58) := after_of_forall_not_mem _ _ (by decide +kernel)
  have kR_lin2_6 : Rp2 m' c (Proc.devRef .tc Cert.ReferenceIdeal.main_v55) = Rd m' c (Proc.devRef .tc Cert.ReferenceIdeal.main_v55) := after_of_forall_not_mem _ _ (by decide +kernel)
  have ag_lin2_6 : Kp2 m ρ c (Proc.devRef .tc Cert.KernelIdeal.main_v58) = Rp2 m' c (Proc.devRef .tc Cert.ReferenceIdeal.main_v55) := kK_lin2_6.trans (ag_lin2_5.trans kR_lin2_6.symm)
  have h107 : Cert.KernelIdeal.Gen.W15 m ρ c (Proc.devRef .tc Cert.KernelIdeal.main_v107) = Re m' c (Proc.devRef .tc Cert.ReferenceIdeal.main_v104) := by
    rw [W15_eq]; exact layer2 _ _ ag_lin2_6 uu2 vv2 ag_a6_6
  -- the third kernel's operands
  have kK_a7_1 : Cert.KernelIdeal.Gen.W1 m ρ c (Proc.devRef .tc Cert.KernelIdeal.main_arg7) = Cert.KernelIdeal.Gen.W0 m ρ c (Proc.devRef .tc Cert.KernelIdeal.main_arg7) := after_of_forall_not_mem _ _ (by decide +kernel)
  have kR_a7_1 : Ra m' c (Proc.devRef .tc Cert.ReferenceIdeal.main_arg7) = launchContents m' c (Proc.devRef .tc Cert.ReferenceIdeal.main_arg7) := after_of_forall_not_mem _ _ (by decide +kernel)
  have ag_a7_1 : Cert.KernelIdeal.Gen.W1 m ρ c (Proc.devRef .tc Cert.KernelIdeal.main_arg7) = Ra m' c (Proc.devRef .tc Cert.ReferenceIdeal.main_arg7) := kK_a7_1.trans (ag_a7_0.trans kR_a7_1.symm)
  have kK_a7_2 : Cert.KernelIdeal.Gen.W2 m ρ c (Proc.devRef .tc Cert.KernelIdeal.main_arg7) = Cert.KernelIdeal.Gen.W1 m ρ c (Proc.devRef .tc Cert.KernelIdeal.main_arg7) := Cert.KernelIdeal.Gen.W2_of_ne m ρ c Cert.KernelIdeal.main_arg7 (by decide)
  have kR_a7_2 : Rb m' c (Proc.devRef .tc Cert.ReferenceIdeal.main_arg7) = Ra m' c (Proc.devRef .tc Cert.ReferenceIdeal.main_arg7) := after_of_forall_not_mem _ _ (by decide +kernel)
  have ag_a7_2 : Cert.KernelIdeal.Gen.W2 m ρ c (Proc.devRef .tc Cert.KernelIdeal.main_arg7) = Rb m' c (Proc.devRef .tc Cert.ReferenceIdeal.main_arg7) := kK_a7_2.trans (ag_a7_1.trans kR_a7_2.symm)
  have kK_a7_3 : Kp1 m ρ c (Proc.devRef .tc Cert.KernelIdeal.main_arg7) = Cert.KernelIdeal.Gen.W2 m ρ c (Proc.devRef .tc Cert.KernelIdeal.main_arg7) := after_of_forall_not_mem _ _ (by decide +kernel)
  have kR_a7_3 : Rp1 m' c (Proc.devRef .tc Cert.ReferenceIdeal.main_arg7) = Rb m' c (Proc.devRef .tc Cert.ReferenceIdeal.main_arg7) := after_of_forall_not_mem _ _ (by decide +kernel)
  have ag_a7_3 : Kp1 m ρ c (Proc.devRef .tc Cert.KernelIdeal.main_arg7) = Rp1 m' c (Proc.devRef .tc Cert.ReferenceIdeal.main_arg7) := kK_a7_3.trans (ag_a7_2.trans kR_a7_3.symm)
  have kK_a7_4 : Cert.KernelIdeal.Gen.W9 m ρ c (Proc.devRef .tc Cert.KernelIdeal.main_arg7) = Kp1 m ρ c (Proc.devRef .tc Cert.KernelIdeal.main_arg7) := by rw [W9_flat]; exact after_of_forall_not_mem _ _ (by decide +kernel)
  have kR_a7_4 : Rc m' c (Proc.devRef .tc Cert.ReferenceIdeal.main_arg7) = Rp1 m' c (Proc.devRef .tc Cert.ReferenceIdeal.main_arg7) := after_of_forall_not_mem _ _ (by decide +kernel)
  have ag_a7_4 : Cert.KernelIdeal.Gen.W9 m ρ c (Proc.devRef .tc Cert.KernelIdeal.main_arg7) = Rc m' c (Proc.devRef .tc Cert.ReferenceIdeal.main_arg7) := kK_a7_4.trans (ag_a7_3.trans kR_a7_4.symm)
  have kK_a7_5 : Cert.KernelIdeal.Gen.W10 m ρ c (Proc.devRef .tc Cert.KernelIdeal.main_arg7) = Cert.KernelIdeal.Gen.W9 m ρ c (Proc.devRef .tc Cert.KernelIdeal.main_arg7) := Cert.KernelIdeal.Gen.W10_of_ne m ρ c Cert.KernelIdeal.main_arg7 (by decide)
  have kR_a7_5 : Rd m' c (Proc.devRef .tc Cert.ReferenceIdeal.main_arg7) = Rc m' c (Proc.devRef .tc Cert.ReferenceIdeal.main_arg7) := after_of_forall_not_mem _ _ (by decide +kernel)
  have ag_a7_5 : Cert.KernelIdeal.Gen.W10 m ρ c (Proc.devRef .tc Cert.KernelIdeal.main_arg7) = Rd m' c (Proc.devRef .tc Cert.ReferenceIdeal.main_arg7) := kK_a7_5.trans (ag_a7_4.trans kR_a7_5.symm)
  have kK_a7_6 : Kp2 m ρ c (Proc.devRef .tc Cert.KernelIdeal.main_arg7) = Cert.KernelIdeal.Gen.W10 m ρ c (Proc.devRef .tc Cert.KernelIdeal.main_arg7) := after_of_forall_not_mem _ _ (by decide +kernel)
  have kR_a7_6 : Rp2 m' c (Proc.devRef .tc Cert.ReferenceIdeal.main_arg7) = Rd m' c (Proc.devRef .tc Cert.ReferenceIdeal.main_arg7) := after_of_forall_not_mem _ _ (by decide +kernel)
  have ag_a7_6 : Kp2 m ρ c (Proc.devRef .tc Cert.KernelIdeal.main_arg7) = Rp2 m' c (Proc.devRef .tc Cert.ReferenceIdeal.main_arg7) := kK_a7_6.trans (ag_a7_5.trans kR_a7_6.symm)
  have kK_a7_7 : Cert.KernelIdeal.Gen.W15 m ρ c (Proc.devRef .tc Cert.KernelIdeal.main_arg7) = Kp2 m ρ c (Proc.devRef .tc Cert.KernelIdeal.main_arg7) := by rw [W15_flat]; exact after_of_forall_not_mem _ _ (by decide +kernel)
  have kR_a7_7 : Re m' c (Proc.devRef .tc Cert.ReferenceIdeal.main_arg7) = Rp2 m' c (Proc.devRef .tc Cert.ReferenceIdeal.main_arg7) := after_of_forall_not_mem _ _ (by decide +kernel)
  have ag_a7_7 : Cert.KernelIdeal.Gen.W15 m ρ c (Proc.devRef .tc Cert.KernelIdeal.main_arg7) = Re m' c (Proc.devRef .tc Cert.ReferenceIdeal.main_arg7) := kK_a7_7.trans (ag_a7_6.trans kR_a7_7.symm)
  have kK_a8_1 : Cert.KernelIdeal.Gen.W1 m ρ c (Proc.devRef .tc Cert.KernelIdeal.main_arg8) = Cert.KernelIdeal.Gen.W0 m ρ c (Proc.devRef .tc Cert.KernelIdeal.main_arg8) := after_of_forall_not_mem _ _ (by decide +kernel)
  have kR_a8_1 : Ra m' c (Proc.devRef .tc Cert.ReferenceIdeal.main_arg8) = launchContents m' c (Proc.devRef .tc Cert.ReferenceIdeal.main_arg8) := after_of_forall_not_mem _ _ (by decide +kernel)
  have ag_a8_1 : Cert.KernelIdeal.Gen.W1 m ρ c (Proc.devRef .tc Cert.KernelIdeal.main_arg8) = Ra m' c (Proc.devRef .tc Cert.ReferenceIdeal.main_arg8) := kK_a8_1.trans (ag_a8_0.trans kR_a8_1.symm)
  have kK_a8_2 : Cert.KernelIdeal.Gen.W2 m ρ c (Proc.devRef .tc Cert.KernelIdeal.main_arg8) = Cert.KernelIdeal.Gen.W1 m ρ c (Proc.devRef .tc Cert.KernelIdeal.main_arg8) := Cert.KernelIdeal.Gen.W2_of_ne m ρ c Cert.KernelIdeal.main_arg8 (by decide)
  have kR_a8_2 : Rb m' c (Proc.devRef .tc Cert.ReferenceIdeal.main_arg8) = Ra m' c (Proc.devRef .tc Cert.ReferenceIdeal.main_arg8) := after_of_forall_not_mem _ _ (by decide +kernel)
  have ag_a8_2 : Cert.KernelIdeal.Gen.W2 m ρ c (Proc.devRef .tc Cert.KernelIdeal.main_arg8) = Rb m' c (Proc.devRef .tc Cert.ReferenceIdeal.main_arg8) := kK_a8_2.trans (ag_a8_1.trans kR_a8_2.symm)
  have kK_a8_3 : Kp1 m ρ c (Proc.devRef .tc Cert.KernelIdeal.main_arg8) = Cert.KernelIdeal.Gen.W2 m ρ c (Proc.devRef .tc Cert.KernelIdeal.main_arg8) := after_of_forall_not_mem _ _ (by decide +kernel)
  have kR_a8_3 : Rp1 m' c (Proc.devRef .tc Cert.ReferenceIdeal.main_arg8) = Rb m' c (Proc.devRef .tc Cert.ReferenceIdeal.main_arg8) := after_of_forall_not_mem _ _ (by decide +kernel)
  have ag_a8_3 : Kp1 m ρ c (Proc.devRef .tc Cert.KernelIdeal.main_arg8) = Rp1 m' c (Proc.devRef .tc Cert.ReferenceIdeal.main_arg8) := kK_a8_3.trans (ag_a8_2.trans kR_a8_3.symm)
  have kK_a8_4 : Cert.KernelIdeal.Gen.W9 m ρ c (Proc.devRef .tc Cert.KernelIdeal.main_arg8) = Kp1 m ρ c (Proc.devRef .tc Cert.KernelIdeal.main_arg8) := by rw [W9_flat]; exact after_of_forall_not_mem _ _ (by decide +kernel)
  have kR_a8_4 : Rc m' c (Proc.devRef .tc Cert.ReferenceIdeal.main_arg8) = Rp1 m' c (Proc.devRef .tc Cert.ReferenceIdeal.main_arg8) := after_of_forall_not_mem _ _ (by decide +kernel)
  have ag_a8_4 : Cert.KernelIdeal.Gen.W9 m ρ c (Proc.devRef .tc Cert.KernelIdeal.main_arg8) = Rc m' c (Proc.devRef .tc Cert.ReferenceIdeal.main_arg8) := kK_a8_4.trans (ag_a8_3.trans kR_a8_4.symm)
  have kK_a8_5 : Cert.KernelIdeal.Gen.W10 m ρ c (Proc.devRef .tc Cert.KernelIdeal.main_arg8) = Cert.KernelIdeal.Gen.W9 m ρ c (Proc.devRef .tc Cert.KernelIdeal.main_arg8) := Cert.KernelIdeal.Gen.W10_of_ne m ρ c Cert.KernelIdeal.main_arg8 (by decide)
  have kR_a8_5 : Rd m' c (Proc.devRef .tc Cert.ReferenceIdeal.main_arg8) = Rc m' c (Proc.devRef .tc Cert.ReferenceIdeal.main_arg8) := after_of_forall_not_mem _ _ (by decide +kernel)
  have ag_a8_5 : Cert.KernelIdeal.Gen.W10 m ρ c (Proc.devRef .tc Cert.KernelIdeal.main_arg8) = Rd m' c (Proc.devRef .tc Cert.ReferenceIdeal.main_arg8) := kK_a8_5.trans (ag_a8_4.trans kR_a8_5.symm)
  have kK_a8_6 : Kp2 m ρ c (Proc.devRef .tc Cert.KernelIdeal.main_arg8) = Cert.KernelIdeal.Gen.W10 m ρ c (Proc.devRef .tc Cert.KernelIdeal.main_arg8) := after_of_forall_not_mem _ _ (by decide +kernel)
  have kR_a8_6 : Rp2 m' c (Proc.devRef .tc Cert.ReferenceIdeal.main_arg8) = Rd m' c (Proc.devRef .tc Cert.ReferenceIdeal.main_arg8) := after_of_forall_not_mem _ _ (by decide +kernel)
  have ag_a8_6 : Kp2 m ρ c (Proc.devRef .tc Cert.KernelIdeal.main_arg8) = Rp2 m' c (Proc.devRef .tc Cert.ReferenceIdeal.main_arg8) := kK_a8_6.trans (ag_a8_5.trans kR_a8_6.symm)
  have kR8 : Re m' c (Proc.devRef .tc Cert.ReferenceIdeal.main_arg8) = Rp2 m' c (Proc.devRef .tc Cert.ReferenceIdeal.main_arg8) := after_of_forall_not_mem _ _ (by decide +kernel)
  have kK8 : Cert.KernelIdeal.Gen.W14 m ρ c (Proc.devRef .tc Cert.KernelIdeal.main_arg8) = Kp2 m ρ c (Proc.devRef .tc Cert.KernelIdeal.main_arg8) := by rw [W14_flat]; exact after_of_forall_not_mem _ _ (by decide +kernel)
  have e8 : Cert.KernelIdeal.Gen.W14 m ρ c (Proc.devRef .tc Cert.KernelIdeal.main_arg8) = Re m' c (Proc.devRef .tc Cert.ReferenceIdeal.main_arg8) := kK8.trans (ag_a8_6.trans kR8.symm)
  have e108 : Cert.KernelIdeal.Gen.W15 m ρ c (Proc.devRef .tc Cert.KernelIdeal.main_v108) = shapeCast Cert.KernelIdeal.S1x64 (Cert.KernelIdeal.Gen.W14 m ρ c (Proc.devRef .tc Cert.KernelIdeal.main_arg8)) Cert.KernelIdeal.Facts₀.shapeCasts_S64_S1x64 := rfl
  have hb3 : ∀ j : Fin 64, (Cert.KernelIdeal.Gen.W15 m ρ c (Proc.devRef .tc Cert.KernelIdeal.main_v108) : FVec Ideal Cert.KernelIdeal.S1x64 .f32) (ValueIdx.ix2 (0 : Fin 1) j)
      = (Re m' c (Proc.devRef .tc Cert.ReferenceIdeal.main_arg8) : FVec Ideal Cert.ReferenceIdeal.S64 .f32) (ValueIdx.ix1 j) := fun j => by
    rw [e108, e8]; exact ValueIdx.shapeCast_a_1a_apply _ _ 0 j
  -- the third product with its bias
  have ag_emb_8 : Cert.KernelIdeal.Gen.W16 m ρ c (Proc.devRef .tc Cert.KernelIdeal.main_v109) = Rf m' c (Proc.devRef .tc Cert.ReferenceIdeal.main_v108) := product3 m ρ c (Re m' c) h107 ag_a7_7 hb3
  have kK_u_6 : Kp2 m ρ c (Proc.devRef .tc Cert.KernelIdeal.main_v1) = Cert.KernelIdeal.Gen.W10 m ρ c (Proc.devRef .tc Cert.KernelIdeal.main_v1) := after_of_forall_not_mem _ _ (by decide +kernel)
  have kR_u_6 : Rp2 m' c (Proc.devRef .tc Cert.ReferenceIdeal.main_v1) = Rd m' c (Proc.devRef .tc Cert.ReferenceIdeal.main_v1) := after_of_forall_not_mem _ _ (by decide +kernel)
  have ag_u_6 : Kp2 m ρ c (Proc.devRef .tc Cert.KernelIdeal.main_v1) = Rp2 m' c (Proc.devRef .tc Cert.ReferenceIdeal.main_v1) := kK_u_6.trans (ag_u_5.trans kR_u_6.symm)
  have kK_u_7 : Cert.KernelIdeal.Gen.W15 m ρ c (Proc.devRef .tc Cert.KernelIdeal.main_v1) = Kp2 m ρ c (Proc.devRef .tc Cert.KernelIdeal.main_v1) := by rw [W15_flat]; exact after_of_forall_not_mem _ _ (by decide +kernel)
  have kR_u_7 : Re m' c (Proc.devRef .tc Cert.ReferenceIdeal.main_v1) = Rp2 m' c (Proc.devRef .tc Cert.ReferenceIdeal.main_v1) := after_of_forall_not_mem _ _ (by decide +kernel)
  have ag_u_7 : Cert.KernelIdeal.Gen.W15 m ρ c (Proc.devRef .tc Cert.KernelIdeal.main_v1) = Re m' c (Proc.devRef .tc Cert.ReferenceIdeal.main_v1) := kK_u_7.trans (ag_u_6.trans kR_u_7.symm)
  have kK_u_8 : Cert.KernelIdeal.Gen.W16 m ρ c (Proc.devRef .tc Cert.KernelIdeal.main_v1) = Cert.KernelIdeal.Gen.W15 m ρ c (Proc.devRef .tc Cert.KernelIdeal.main_v1) := Cert.KernelIdeal.Gen.W16_of_ne m ρ c Cert.KernelIdeal.main_v1 (by decide)
  have kR_u_8 : Rf m' c (Proc.devRef .tc Cert.ReferenceIdeal.main_v1) = Re m' c (Proc.devRef .tc Cert.ReferenceIdeal.main_v1) := after_of_forall_not_mem _ _ (by decide +kernel)
  have ag_u_8 : Cert.KernelIdeal.Gen.W16 m ρ c (Proc.devRef .tc Cert.KernelIdeal.main_v1) = Rf m' c (Proc.devRef .tc Cert.ReferenceIdeal.main_v1) := kK_u_8.trans (ag_u_7.trans kR_u_8.symm)
  have kK_t_6 : Kp2 m ρ c (Proc.devRef .tc Cert.KernelIdeal.main_v3) = Cert.KernelIdeal.Gen.W10 m ρ c (Proc.devRef .tc Cert.KernelIdeal.main_v3) := after_of_forall_not_mem _ _ (by decide +kernel)
  have kR_t_6 : Rp2 m' c (Proc.devRef .tc Cert.ReferenceIdeal.main_v3) = Rd m' c (Proc.devRef .tc Cert.ReferenceIdeal.main_v3) := after_of_forall_not_mem _ _ (by decide +kernel)
  have ag_t_6 : Kp2 m ρ c (Proc.devRef .tc Cert.KernelIdeal.main_v3) = Rp2 m' c (Proc.devRef .tc Cert.ReferenceIdeal.main_v3) := kK_t_6.trans (ag_t_5.trans kR_t_6.symm)
  have kK_t_7 : Cert.KernelIdeal.Gen.W15 m ρ c (Proc.devRef .tc Cert.KernelIdeal.main_v3) = Kp2 m ρ c (Proc.devRef .tc Cert.KernelIdeal.main_v3) := by rw [W15_flat]; exact after_of_forall_not_mem _ _ (by decide +kernel)
  have kR_t_7 : Re m' c (Proc.devRef .tc Cert.ReferenceIdeal.main_v3) = Rp2 m' c (Proc.devRef .tc Cert.ReferenceIdeal.main_v3) := after_of_forall_not_mem _ _ (by decide +kernel)
  have ag_t_7 : Cert.KernelIdeal.Gen.W15 m ρ c (Proc.devRef .tc Cert.KernelIdeal.main_v3) = Re m' c (Proc.devRef .tc Cert.ReferenceIdeal.main_v3) := kK_t_7.trans (ag_t_6.trans kR_t_7.symm)
  have kK_t_8 : Cert.KernelIdeal.Gen.W16 m ρ c (Proc.devRef .tc Cert.KernelIdeal.main_v3) = Cert.KernelIdeal.Gen.W15 m ρ c (Proc.devRef .tc Cert.KernelIdeal.main_v3) := Cert.KernelIdeal.Gen.W16_of_ne m ρ c Cert.KernelIdeal.main_v3 (by decide)
  have kR_t_8 : Rf m' c (Proc.devRef .tc Cert.ReferenceIdeal.main_v3) = Re m' c (Proc.devRef .tc Cert.ReferenceIdeal.main_v3) := after_of_forall_not_mem _ _ (by decide +kernel)
  have ag_t_8 : Cert.KernelIdeal.Gen.W16 m ρ c (Proc.devRef .tc Cert.KernelIdeal.main_v3) = Rf m' c (Proc.devRef .tc Cert.ReferenceIdeal.main_v3) := kK_t_8.trans (ag_t_7.trans kR_t_8.symm)
  have kK_a2_1 : Cert.KernelIdeal.Gen.W1 m ρ c (Proc.devRef .tc Cert.KernelIdeal.main_arg2) = Cert.KernelIdeal.Gen.W0 m ρ c (Proc.devRef .tc Cert.KernelIdeal.main_arg2) := after_of_forall_not_mem _ _ (by decide +kernel)
  have kR_a2_1 : Ra m' c (Proc.devRef .tc Cert.ReferenceIdeal.main_arg2) = launchContents m' c (Proc.devRef .tc Cert.ReferenceIdeal.main_arg2) := after_of_forall_not_mem _ _ (by decide +kernel)
  have ag_a2_1 : Cert.KernelIdeal.Gen.W1 m ρ c (Proc.devRef .tc Cert.KernelIdeal.main_arg2) = Ra m' c (Proc.devRef .tc Cert.ReferenceIdeal.main_arg2) := kK_a2_1.trans (ag_a2_0.trans kR_a2_1.symm)
  have kK_a2_2 : Cert.KernelIdeal.Gen.W2 m ρ c (Proc.devRef .tc Cert.KernelIdeal.main_arg2) = Cert.KernelIdeal.Gen.W1 m ρ c (Proc.devRef .tc Cert.KernelIdeal.main_arg2) := Cert.KernelIdeal.Gen.W2_of_ne m ρ c Cert.KernelIdeal.main_arg2 (by decide)
  have kR_a2_2 : Rb m' c (Proc.devRef .tc Cert.ReferenceIdeal.main_arg2) = Ra m' c (Proc.devRef .tc Cert.ReferenceIdeal.main_arg2) := after_of_forall_not_mem _ _ (by decide +kernel)
  have ag_a2_2 : Cert.KernelIdeal.Gen.W2 m ρ c (Proc.devRef .tc Cert.KernelIdeal.main_arg2) = Rb m' c (Proc.devRef .tc Cert.ReferenceIdeal.main_arg2) := kK_a2_2.trans (ag_a2_1.trans kR_a2_2.symm)
  have kK_a2_3 : Kp1 m ρ c (Proc.devRef .tc Cert.KernelIdeal.main_arg2) = Cert.KernelIdeal.Gen.W2 m ρ c (Proc.devRef .tc Cert.KernelIdeal.main_arg2) := after_of_forall_not_mem _ _ (by decide +kernel)
  have kR_a2_3 : Rp1 m' c (Proc.devRef .tc Cert.ReferenceIdeal.main_arg2) = Rb m' c (Proc.devRef .tc Cert.ReferenceIdeal.main_arg2) := after_of_forall_not_mem _ _ (by decide +kernel)
  have ag_a2_3 : Kp1 m ρ c (Proc.devRef .tc Cert.KernelIdeal.main_arg2) = Rp1 m' c (Proc.devRef .tc Cert.ReferenceIdeal.main_arg2) := kK_a2_3.trans (ag_a2_2.trans kR_a2_3.symm)
  have kK_a2_4 : Cert.KernelIdeal.Gen.W9 m ρ c (Proc.devRef .tc Cert.KernelIdeal.main_arg2) = Kp1 m ρ c (Proc.devRef .tc Cert.KernelIdeal.main_arg2) := by rw [W9_flat]; exact after_of_forall_not_mem _ _ (by decide +kernel)
  have kR_a2_4 : Rc m' c (Proc.devRef .tc Cert.ReferenceIdeal.main_arg2) = Rp1 m' c (Proc.devRef .tc Cert.ReferenceIdeal.main_arg2) := after_of_forall_not_mem _ _ (by decide +kernel)
  have ag_a2_4 : Cert.KernelIdeal.Gen.W9 m ρ c (Proc.devRef .tc Cert.KernelIdeal.main_arg2) = Rc m' c (Proc.devRef .tc Cert.ReferenceIdeal.main_arg2) := kK_a2_4.trans (ag_a2_3.trans kR_a2_4.symm)
  have kK_a2_5 : Cert.KernelIdeal.Gen.W10 m ρ c (Proc.devRef .tc Cert.KernelIdeal.main_arg2) = Cert.KernelIdeal.Gen.W9 m ρ c (Proc.devRef .tc Cert.KernelIdeal.main_arg2) := Cert.KernelIdeal.Gen.W10_of_ne m ρ c Cert.KernelIdeal.main_arg2 (by decide)
  have kR_a2_5 : Rd m' c (Proc.devRef .tc Cert.ReferenceIdeal.main_arg2) = Rc m' c (Proc.devRef .tc Cert.ReferenceIdeal.main_arg2) := after_of_forall_not_mem _ _ (by decide +kernel)
  have ag_a2_5 : Cert.KernelIdeal.Gen.W10 m ρ c (Proc.devRef .tc Cert.KernelIdeal.main_arg2) = Rd m' c (Proc.devRef .tc Cert.ReferenceIdeal.main_arg2) := kK_a2_5.trans (ag_a2_4.trans kR_a2_5.symm)
  have kK_a2_6 : Kp2 m ρ c (Proc.devRef .tc Cert.KernelIdeal.main_arg2) = Cert.KernelIdeal.Gen.W10 m ρ c (Proc.devRef .tc Cert.KernelIdeal.main_arg2) := after_of_forall_not_mem _ _ (by decide +kernel)
  have kR_a2_6 : Rp2 m' c (Proc.devRef .tc Cert.ReferenceIdeal.main_arg2) = Rd m' c (Proc.devRef .tc Cert.ReferenceIdeal.main_arg2) := after_of_forall_not_mem _ _ (by decide +kernel)
  have ag_a2_6 : Kp2 m ρ c (Proc.devRef .tc Cert.KernelIdeal.main_arg2) = Rp2 m' c (Proc.devRef .tc Cert.ReferenceIdeal.main_arg2) := kK_a2_6.trans (ag_a2_5.trans kR_a2_6.symm)
  have kK_a2_7 : Cert.KernelIdeal.Gen.W15 m ρ c (Proc.devRef .tc Cert.KernelIdeal.main_arg2) = Kp2 m ρ c (Proc.devRef .tc Cert.KernelIdeal.main_arg2) := by rw [W15_flat]; exact after_of_forall_not_mem _ _ (by decide +kernel)
  have kR_a2_7 : Re m' c (Proc.devRef .tc Cert.ReferenceIdeal.main_arg2) = Rp2 m' c (Proc.devRef .tc Cert.ReferenceIdeal.main_arg2) := after_of_forall_not_mem _ _ (by decide +kernel)
  have ag_a2_7 : Cert.KernelIdeal.Gen.W15 m ρ c (Proc.devRef .tc Cert.KernelIdeal.main_arg2) = Re m' c (Proc.devRef .tc Cert.ReferenceIdeal.main_arg2) := kK_a2_7.trans (ag_a2_6.trans kR_a2_7.symm)
  have kK_a2_8 : Cert.KernelIdeal.Gen.W16 m ρ c (Proc.devRef .tc Cert.KernelIdeal.main_arg2) = Cert.KernelIdeal.Gen.W15 m ρ c (Proc.devRef .tc Cert.KernelIdeal.main_arg2) := Cert.KernelIdeal.Gen.W16_of_ne m ρ c Cert.KernelIdeal.main_arg2 (by decide)
  have kR_a2_8 : Rf m' c (Proc.devRef .tc Cert.ReferenceIdeal.main_arg2) = Re m' c (Proc.devRef .tc Cert.ReferenceIdeal.main_arg2) := after_of_forall_not_mem _ _ (by decide +kernel)
  have ag_a2_8 : Cert.KernelIdeal.Gen.W16 m ρ c (Proc.devRef .tc Cert.KernelIdeal.main_arg2) = Rf m' c (Proc.devRef .tc Cert.ReferenceIdeal.main_arg2) := kK_a2_8.trans (ag_a2_7.trans kR_a2_8.symm)
  have kK_a2_9 : Kp3 m ρ c (Proc.devRef .tc Cert.KernelIdeal.main_arg2) = Cert.KernelIdeal.Gen.W16 m ρ c (Proc.devRef .tc Cert.KernelIdeal.main_arg2) := after_of_forall_not_mem _ _ (by decide +kernel)
  have kR_a2_9 : Rp3 m' c (Proc.devRef .tc Cert.ReferenceIdeal.main_arg2) = Rf m' c (Proc.devRef .tc Cert.ReferenceIdeal.main_arg2) := after_of_forall_not_mem _ _ (by decide +kernel)
  have ag_a2_9 : Kp3 m ρ c (Proc.devRef .tc Cert.KernelIdeal.main_arg2) = Rp3 m' c (Proc.devRef .tc Cert.ReferenceIdeal.main_arg2) := kK_a2_9.trans (ag_a2_8.trans kR_a2_9.symm)
  -- the propagation and the loss
  have uu3 : Kp3 m ρ c (Proc.devRef .tc Cert.KernelIdeal.main_v110) = Rp3 m' c (Proc.devRef .tc Cert.ReferenceIdeal.main_v109) := doubled_sources _ _ ag_u_8 ag_t_8
  have vv3 : Kp3 m ρ c (Proc.devRef .tc Cert.KernelIdeal.main_v111) = Rp3 m' c (Proc.devRef .tc Cert.ReferenceIdeal.main_v110) := doubled_targets _ _ ag_u_8 ag_t_8
  have kK_emb_9 : Kp3 m ρ c (Proc.devRef .tc Cert.KernelIdeal.main_v109) = Cert.KernelIdeal.Gen.W16 m ρ c (Proc.devRef .tc Cert.KernelIdeal.main_v109) := after_of_forall_not_mem _ _ (by decide +kernel)
  have kR_emb_9 : Rp3 m' c (Proc.devRef .tc Cert.ReferenceIdeal.main_v108) = Rf m' c (Proc.devRef .tc Cert.ReferenceIdeal.main_v108) := after_of_forall_not_mem _ _ (by decide +kernel)
  have ag_emb_9 : Kp3 m ρ c (Proc.devRef .tc Cert.KernelIdeal.main_v109) = Rp3 m' c (Proc.devRef .tc Cert.ReferenceIdeal.main_v108) := kK_emb_9.trans (ag_emb_8.trans kR_emb_9.symm)
  rw [W21_eq]
  exact tail _ _ ag_emb_9 uu3 vv3 ag_a2_9

end Cert.Bridge

end
-- ==== Proof.LibFoldCuts.lean ====
import Idealize.ShloMosaic.Lib.StableHlo.Run

/-!
# A line of host operations read one stretch at a time

What a line of host operations leaves in the buffers is a fold over the line (`StableHlo.after`). The fold over a line cut
in two is the fold over the second part from what the first part leaves; so a long line can be read stretch by stretch,
each stretch a sub-list taken by position (`List.take` / `List.drop`), without ever unfolding the whole line. This is what
lets two programs that apply the same host operations between different matrix products be compared section by section:
on each section, rewrite both folds to their composed terms, replace the entry buffers that are known to agree, and close
by reflexivity.

* `FoldCuts.after_app`: two lines run one after the other.
* `FoldCuts.after_split`: a line cut after its first `n` operations.
* `FoldCuts.after_cut`: the rest of a line from position `a`, cut `n` operations further on at `b = a + n`.
* `FoldCuts.concat_two_congr`: a concatenation of two pieces depends only on the pieces. A rewriting pass cannot enter the
  list of pieces because the concatenation's side condition is stated over that list; this lemma crosses it.
-/

namespace FoldCuts

open Idealize.ShloMosaic Idealize.ShloMosaic.StableHlo

variable {τ : Topo} {sig : RefSig} {Val : EltTy → Type}

/-- Two lines run one after the other leave what the second leaves from what the first leaves. -/
theorem after_app (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- A line cut after its first `n` operations. -/
theorem after_split (n : ℕ) (l : List (HloOp τ sig Val)) (V : Valuation τ sig Val) :
    after l V = after (l.drop n) (after (l.take n) V) := by
  conv_lhs => rw [← List.take_append_drop n l]
  exact after_app _ _ _

/-- The rest of a line from position `a`, cut `n` operations further on. -/
theorem after_cut (a n b : ℕ) (h : a + n = b) (l : List (HloOp τ sig Val)) (V : Valuation τ sig Val) :
    after (l.drop a) V = after (l.drop b) (after ((l.drop a).take n) V) := by
  subst h
  have hd : (l.drop a).drop n = l.drop (a + n) := by simp [List.drop_drop, Nat.add_comm]
  rw [after_split n (l.drop a) V, hd]

/-- A concatenation of two pieces depends only on the pieces. -/
theorem concat_two_congr {α : Type} (t : Shape) (a : Fin t.rank) (s₁ s₂ : Shape) (x x' : s₁.Idx → α) (y y' : s₂.Idx → α)
    (h : Shape.Concatenates [s₁, s₂] t a) (hx : x = x') (hy : y = y') :
    concatenate t a [⟨s₁, x⟩, ⟨s₂, y⟩] h = concatenate t a [⟨s₁, x'⟩, ⟨s₂, y'⟩] h := by
  subst hx hy; rfl

end FoldCuts
-- ==== Proof.lean ====
import proofs.«114862_j326417514918_1_alg».proof.Defs
import proofs.«114862_j326417514918_1_alg».proof.Proof.Gen.Kernel
import proofs.«114862_j326417514918_1_alg».proof.Proof.Gen.Kernel.Skeleton
import proofs.«114862_j326417514918_1_alg».proof.Proof.Gen.Kernel.Launch
import proofs.«114862_j326417514918_1_alg».proof.Proof.Gen.Kernel.Points
import proofs.«114862_j326417514918_1_alg».proof.Proof.Gen.Kernel.Frame
import proofs.«114862_j326417514918_1_alg».proof.Proof.Gen.KernelIdeal
import proofs.«114862_j326417514918_1_alg».proof.Proof.Gen.KernelIdeal.Skeleton
import proofs.«114862_j326417514918_1_alg».proof.Proof.Gen.KernelIdeal.Launch
import proofs.«114862_j326417514918_1_alg».proof.Proof.Gen.KernelIdeal.Points
import proofs.«114862_j326417514918_1_alg».proof.Proof.Gen.KernelIdeal.Frame
import proofs.«114862_j326417514918_1_alg».proof.Proof.Gen.ReferenceIdeal
import proofs.«114862_j326417514918_1_alg».proof.Proof.Gen.Pre_finite_inputs
import proofs.«114862_j326417514918_1_alg».proof.Proof.KernelRun
import proofs.«114862_j326417514918_1_alg».proof.Proof.RefRun
import proofs.«114862_j326417514918_1_alg».proof.Proof.Bridge
import proofs.«114862_j326417514918_1_alg».proof.Proof.LibFoldCuts
import Idealize.ShloMosaic.Adequacy
import Idealize.ShloMosaic.Init

/-!
# A three-layer graph network whose dense layers run on the matrix unit, against its host reference

The network is two graph-convolution layers and a linear projection, followed by two hops of normalised propagation and a
contrastive loss over anchor, positive and negative nodes. The reference computes every dense layer as a host product;
the kernel's program computes each as a tiled product on the matrix unit, operands narrowed to sixteen bits, accumulated
from zero, with a bias row added (zero for the two convolution layers, whose bias is added after the aggregation as in
the reference). Over the extended reals narrowing is the identity, `0 + s = s` and `s + 0 = s` hold for every value,
so each tiled layer is the host's layer exactly and the two programs end with the same loss — for all inputs, finite or
not: nothing is distributed, cancelled or reordered across a sum, and the precondition is never opened.
The frames of the two kernel programs are the launch-side certificates of their three regions; the reference's frame is
its run as a line of host operations. The idealisation rewrote nothing, so there is nothing to preserve.
-/

noncomputable section

namespace Cert.Proof

open Idealize.ShloMosaic Idealize.SL.Sem Idealize.ShloMosaic.StableHlo

theorem frame_k : Cert.frame_Kernel := fun m ρ _ => Cert.Kernel.Gen.frame m ρ

theorem frame_ki : Cert.frame_KernelIdeal := fun m ρ _ => Cert.KernelIdeal.Gen.frame m ρ

/-- The reference's run with the result forgotten. -/
theorem frame_ri : Cert.frame_ReferenceIdeal := fun m ρ _ =>
  (θ_run Cert.ReferenceIdeal.defs _ _).mono (fun _ h c => (h c).2) (Cert.ReferenceIdeal.ValueP.run m ρ)

/-- The idealisation rewrote no operation. -/
theorem preserves : Cert.preserves_Kernel_KernelIdeal := trivial

/-- Both programs run, and end with the same loss: the kernel's result buffer holds the last boundary's contents, the
    reference's the fold of its operations, and from arguments that agree these are equal. -/
theorem algebraic : Cert.algebraic_KernelIdeal_ReferenceIdeal := by
  intro m ρ m' ρ' _ hagree
  refine ⟨fun c => Cert.KernelIdeal.Gen.W21 m ρ c (Proc.devRef .tc Cert.KernelIdeal.main_v236),
    Cert.KernelIdeal.WholeRun.run_result m ρ, ?_⟩
  refine (θ_run Cert.ReferenceIdeal.defs _ _).mono (fun _ h c => ⟨(h c).1.trans ?_, (h c).2⟩)
    (Cert.ReferenceIdeal.ValueP.run m' ρ')
  rw [Cert.Bridge.ref_fold]
  exact (Cert.Bridge.result_eq m ρ m' c (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
